-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S5x128x128 : Shape := ⟨3, ![5, 128, 128]⟩
abbrev S5x128 : Shape := ⟨2, ![5, 128]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg10 : FVec F S256x256 .f32) (main_arg11 : FVec F S256 .f32) (main_arg12 : FVec F S256x256 .f32) (main_arg13 : FVec F S256 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg7 : FVec F S5x128 .f32) (main_arg8 : FVec F S128x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128 .f32 := Host.absf main_arg7
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S128x256 .f32 := Host.absf main_arg8
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S50000x128 .f32) (main_arg1 : IVec S600000 32) (main_arg2 : IVec S600000 32) (main_arg3 : IVec S50000 32) (main_arg4 : FVec F S128x128 .f32) (main_arg5 : FVec F S128 .f32) (main_arg6 : FVec F S5x128x128 .f32) (main_arg7 : FVec F S5x128 .f32) (main_arg8 : FVec F S128x256 .f32) (main_arg9 : FVec F S256 .f32) (main_arg10 : FVec F S256x256 .f32) (main_arg11 : FVec F S256 .f32) (main_arg12 : FVec F S256x256 .f32) (main_arg13 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S5x128x128 .f32 := Host.absf main_arg6
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg7 main_arg8 main_arg9 main_arg10 main_arg11 main_arg12 main_arg13 main_v13 main_v16
-- ==== Kernel.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S5x128x128 : Shape := ⟨3, ![5, 128, 128]⟩
abbrev S5x128 : Shape := ⟨2, ![5, 128]⟩
abbrev S128x256 : Shape := ⟨2, ![128, 256]⟩
abbrev S256 : Shape := ⟨1, ![256]⟩
abbrev S256x256 : Shape := ⟨2, ![256, 256]⟩
abbrev S_ : Shape := ⟨0, ![]⟩
abbrev S600000x1 : Shape := ⟨2, ![600000, 1]⟩
abbrev S50000x1 : Shape := ⟨2, ![50000, 1]⟩
abbrev S2000x128 : Shape := ⟨2, ![2000, 128]⟩
abbrev S1x128 : Shape := ⟨2, ![1, 128]⟩
abbrev S600000x128 : Shape := ⟨2, ![600000, 128]⟩
abbrev S1x128x128 : Shape := ⟨3, ![1, 128, 128]⟩
abbrev S2000x1 : Shape := ⟨2, ![2000, 1]⟩
abbrev S512x128 : Shape := ⟨2, ![512, 128]⟩
abbrev S512x256 : Shape := ⟨2, ![512, 256]⟩
abbrev S1x256 : Shape := ⟨2, ![1, 256]⟩

abbrev nBuf : Space → Nat
  | .hbm => 146
  | .vmem => 64
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S50000, .i32⟩
  | 4 => ⟨S128x128, .f32⟩
  | 5 => ⟨S128, .f32⟩
  | 6 => ⟨S5x128x128, .f32⟩
  | 7 => ⟨S5x128, .f32⟩
  | 8 => ⟨S128x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S50000x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S_, .f32⟩
  | 53 => ⟨S50000x128, .f32⟩
  | 54 => ⟨S600000x1, .i32⟩
  | 55 => ⟨S50000x128, .f32⟩
  | 56 => ⟨S1x128x128, .f32⟩
  | 57 => ⟨S128x128, .f32⟩
  | 58 => ⟨S1x128, .f32⟩
  | 59 => ⟨S128, .f32⟩
  | 60 => ⟨S50000x128, .f32⟩
  | 61 => ⟨S50000x128, .f32⟩
  | 62 => ⟨S50000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S1x128x128, .f32⟩
  | 77 => ⟨S128x128, .f32⟩
  | 78 => ⟨S1x128, .f32⟩
  | 79 => ⟨S128, .f32⟩
  | 80 => ⟨S50000x128, .f32⟩
  | 81 => ⟨S50000x128, .f32⟩
  | 82 => ⟨S50000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S_, .f32⟩
  | 93 => ⟨S50000x128, .f32⟩
  | 94 => ⟨S600000x1, .i32⟩
  | 95 => ⟨S50000x128, .f32⟩
  | 96 => ⟨S1x128x128, .f32⟩
  | 97 => ⟨S128x128, .f32⟩
  | 98 => ⟨S1x128, .f32⟩
  | 99 => ⟨S128, .f32⟩
  | 100 => ⟨S50000x128, .f32⟩
  | 101 => ⟨S50000x128, .f32⟩
  | 102 => ⟨S50000x128, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000x128, .f32⟩
  | 112 => ⟨S_, .f32⟩
  | 113 => ⟨S50000x128, .f32⟩
  | 114 => ⟨S600000x1, .i32⟩
  | 115 => ⟨S50000x128, .f32⟩
  | 116 => ⟨S1x128x128, .f32⟩
  | 117 => ⟨S128x128, .f32⟩
  | 118 => ⟨S1x128, .f32⟩
  | 119 => ⟨S128, .f32⟩
  | 120 => ⟨S50000x128, .f32⟩
  | 121 => ⟨S50000x128, .f32⟩
  | 122 => ⟨S50000x128, .f32⟩
  | 123 => ⟨S_, .i32⟩
  | 124 => ⟨S600000, .i32⟩
  | 125 => ⟨S600000, .i1⟩
  | 126 => ⟨S_, .i32⟩
  | 127 => ⟨S600000, .i32⟩
  | _ => ⟨S50000x128, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S_, .f32⟩
  | 5 => ⟨S50000x128, .f32⟩
  | 6 => ⟨S600000x1, .i32⟩
  | 7 => ⟨S50000x128, .f32⟩
  | 8 => ⟨S1x128x128, .f32⟩
  | 9 => ⟨S128x128, .f32⟩
  | 10 => ⟨S1x128, .f32⟩
  | 11 => ⟨S128, .f32⟩
  | 12 => ⟨S50000x128, .f32⟩
  | 13 => ⟨S_, .f32⟩
  | 14 => ⟨S512x128, .f32⟩
  | 15 => ⟨S50000x1, .i32⟩
  | 16 => ⟨S512x128, .f32⟩
  | 17 => ⟨S512x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x1, .f32⟩
  | .local _ .vmem, ⟨29, _⟩ => ⟨S2000x1, .f32⟩
  | .local _ .vmem, ⟨30, _⟩ => ⟨S128x128, .f32⟩
  | .local _ .vmem, ⟨31, _⟩ => ⟨S128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x1, .f32⟩
  | .local _ .vmem, ⟨39, _⟩ => ⟨S2000x1, .f32⟩
  | .local _ .vmem, ⟨40, _⟩ => ⟨S128x128, .f32⟩
  | .local _ .vmem, ⟨41, _⟩ => ⟨S128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x1, .f32⟩
  | .local _ .vmem, ⟨49, _⟩ => ⟨S2000x1, .f32⟩
  | .local _ .vmem, ⟨50, _⟩ => ⟨S128x128, .f32⟩
  | .local _ .vmem, ⟨51, _⟩ => ⟨S128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S512x128, .f32⟩
  | .local _ .vmem, ⟨57, _⟩ => ⟨S128x256, .f32⟩
  | .local _ .vmem, ⟨58, _⟩ => ⟨S256, .f32⟩
  | .local _ .vmem, ⟨59, _⟩ => ⟨S256x256, .f32⟩
  | .local _ .vmem, ⟨60, _⟩ => ⟨S256, .f32⟩
  | .local _ .vmem, ⟨61, _⟩ => ⟨S256x256, .f32⟩
  | .local _ .vmem, ⟨62, _⟩ => ⟨S256, .f32⟩
  | .local _ .vmem, ⟨63, _⟩ => ⟨S512x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_5 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_c_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_c_12 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_17 : Ref sig .tc := ⟨.hbm, 123, rfl⟩
abbrev main_v86 : Ref sig .tc := ⟨.hbm, 124, rfl⟩
abbrev main_v87 : Ref sig .tc := ⟨.hbm, 125, rfl⟩
abbrev main_c_18 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_20 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem4_1 : DmaSem sig := 53
abbrev cc5_sem5_0 : DmaSem sig := 54
abbrev cc5_sem5_1 : DmaSem sig := 55
abbrev cc6_sem0_0 : DmaSem sig := 56
abbrev cc6_sem1_0 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem7_0 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S128x128_S128x128 : S128x128.ShapeCasts S128x128
  shapeCasts_S128_S128 : S128.ShapeCasts S128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  inb_S512x256_S512x256_0_0 : ∀ a, (![0, 0] : Fin 2 → Nat) a + S512x256.size a ≤ S512x256.size a
  h_S512x256 : 0 < S512x256.numel
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S512x128_S50000x1_S50000x128_1_0_0_1_wf : ScatterDims.WF S512x128 S50000x1 S50000x128 [1] [0] [0] 1
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256.size a ≤ S256.size a
  hwx6_2 : ∀ i : grid6.Coords, EltTy.bits .f32 = 32 ∨ (Rect.block (s := S256) S256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256.size a ≤ S256.size a
  hwx6_4 : ∀ i : grid6.Coords, EltTy.bits .f32 = 32 ∨ (Rect.block (s := S256) S256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .f32 = 32 ∨ (Rect.block (s := S256x256) S256x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256.size a ≤ S256.size a
  hwx6_6 : ∀ i : grid6.Coords, EltTy.bits .f32 = 32 ∨ (Rect.block (s := S256) S256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x256.size a ≤ S512x256.size a
  hwx6_7 : ∀ i : grid6.Coords, EltTy.bits .f32 = 32 ∨ (Rect.block (s := S512x256) S512x256.size (cc6_transform_7 i) (hinb6_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v49) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v66) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v78) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S2000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v83) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v95) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v97) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S2000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v100) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v103) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg12) S256x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg13) S256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v104) S512x256.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S5x128x128 : Shape := ⟨3, ![5, 128, 128]⟩
abbrev S5x128 : Shape := ⟨2, ![5, 128]⟩
abbrev S128x256 : Shape := ⟨2, ![128, 256]⟩
abbrev S256 : Shape := ⟨1, ![256]⟩
abbrev S256x256 : Shape := ⟨2, ![256, 256]⟩
abbrev S_ : Shape := ⟨0, ![]⟩
abbrev S600000x1 : Shape := ⟨2, ![600000, 1]⟩
abbrev S1x128 : Shape := ⟨2, ![1, 128]⟩
abbrev S50000x1 : Shape := ⟨2, ![50000, 1]⟩
abbrev S600000x128 : Shape := ⟨2, ![600000, 128]⟩
abbrev S1x128x128 : Shape := ⟨3, ![1, 128, 128]⟩
abbrev S512x128 : Shape := ⟨2, ![512, 128]⟩
abbrev S512x256 : Shape := ⟨2, ![512, 256]⟩
abbrev S1x256 : Shape := ⟨2, ![1, 256]⟩

abbrev nBuf : Space → Nat
  | .hbm => 231
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S50000, .i32⟩
  | 4 => ⟨S128x128, .f32⟩
  | 5 => ⟨S128, .f32⟩
  | 6 => ⟨S5x128x128, .f32⟩
  | 7 => ⟨S5x128, .f32⟩
  | 8 => ⟨S128x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000x128, .f32⟩
  | 39 => ⟨S1x128, .f32⟩
  | 40 => ⟨S50000x128, .f32⟩
  | 41 => ⟨S50000x128, .f32⟩
  | 42 => ⟨S50000x1, .f32⟩
  | 43 => ⟨S50000x128, .f32⟩
  | 44 => ⟨S50000x128, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S_, .f32⟩
  | 55 => ⟨S50000x128, .f32⟩
  | 56 => ⟨S600000x1, .i32⟩
  | 57 => ⟨S50000x128, .f32⟩
  | 58 => ⟨S50000x1, .f32⟩
  | 59 => ⟨S50000x128, .f32⟩
  | 60 => ⟨S50000x128, .f32⟩
  | 61 => ⟨S1x128x128, .f32⟩
  | 62 => ⟨S128x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x1, .f32⟩
  | 77 => ⟨S50000x128, .f32⟩
  | 78 => ⟨S50000x128, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S50000x1, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x1, .f32⟩
  | 111 => ⟨S50000x128, .f32⟩
  | 112 => ⟨S50000x128, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S_, .f32⟩
  | 123 => ⟨S50000x128, .f32⟩
  | 124 => ⟨S600000x1, .i32⟩
  | 125 => ⟨S50000x128, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S1x128x128, .f32⟩
  | 2 => ⟨S128x128, .f32⟩
  | 3 => ⟨S50000x128, .f32⟩
  | 4 => ⟨S1x128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x1, .f32⟩
  | 17 => ⟨S50000x128, .f32⟩
  | 18 => ⟨S50000x128, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S50000x1, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S50000x1, .f32⟩
  | 51 => ⟨S50000x128, .f32⟩
  | 52 => ⟨S50000x128, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S50000x1, .f32⟩
  | 67 => ⟨S50000x128, .f32⟩
  | 68 => ⟨S50000x128, .f32⟩
  | 69 => ⟨S1x128x128, .f32⟩
  | 70 => ⟨S128x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S_, .f32⟩
  | 82 => ⟨S512x128, .f32⟩
  | 83 => ⟨S50000x1, .i32⟩
  | 84 => ⟨S512x128, .f32⟩
  | 85 => ⟨S512x256, .f32⟩
  | 86 => ⟨S1x256, .f32⟩
  | 87 => ⟨S512x256, .f32⟩
  | 88 => ⟨S512x256, .f32⟩
  | 89 => ⟨S_, .f32⟩
  | 90 => ⟨S512x256, .f32⟩
  | 91 => ⟨S512x256, .f32⟩
  | 92 => ⟨S512x256, .f32⟩
  | 93 => ⟨S1x256, .f32⟩
  | 94 => ⟨S512x256, .f32⟩
  | 95 => ⟨S512x256, .f32⟩
  | 96 => ⟨S_, .f32⟩
  | 97 => ⟨S512x256, .f32⟩
  | 98 => ⟨S512x256, .f32⟩
  | 99 => ⟨S512x256, .f32⟩
  | 100 => ⟨S1x256, .f32⟩
  | 101 => ⟨S512x256, .f32⟩
  | 102 => ⟨S512x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_cst_5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c : Ref sig .tc := ⟨.hbm, 45, rfl⟩
abbrev main_v20 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call2_cst : Ref sig .tc := ⟨.hbm, 69, rfl⟩
abbrev main_call2_v0 : Ref sig .tc := ⟨.hbm, 70, rfl⟩
abbrev main_v41 : Ref sig .tc := ⟨.hbm, 71, rfl⟩
abbrev main_v42 : Ref sig .tc := ⟨.hbm, 72, rfl⟩
abbrev main_call3_cst : Ref sig .tc := ⟨.hbm, 73, rfl⟩
abbrev main_call3_v0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_8 : Ref sig .tc := ⟨.hbm, 79, rfl⟩
abbrev main_v47 : Ref sig .tc := ⟨.hbm, 80, rfl⟩
abbrev main_v48 : Ref sig .tc := ⟨.hbm, 81, rfl⟩
abbrev main_c_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call4_cst : Ref sig .tc := ⟨.hbm, 103, rfl⟩
abbrev main_call4_v0 : Ref sig .tc := ⟨.hbm, 104, rfl⟩
abbrev main_v68 : Ref sig .tc := ⟨.hbm, 105, rfl⟩
abbrev main_v69 : Ref sig .tc := ⟨.hbm, 106, rfl⟩
abbrev main_call5_cst : Ref sig .tc := ⟨.hbm, 107, rfl⟩
abbrev main_call5_v0 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_11 : Ref sig .tc := ⟨.hbm, 113, rfl⟩
abbrev main_v74 : Ref sig .tc := ⟨.hbm, 114, rfl⟩
abbrev main_v75 : Ref sig .tc := ⟨.hbm, 115, rfl⟩
abbrev main_c_12 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_13 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call6_cst : Ref sig .tc := ⟨.hbm, 137, rfl⟩
abbrev main_call6_v0 : Ref sig .tc := ⟨.hbm, 138, rfl⟩
abbrev main_v95 : Ref sig .tc := ⟨.hbm, 139, rfl⟩
abbrev main_v96 : Ref sig .tc := ⟨.hbm, 140, rfl⟩
abbrev main_call7_cst : Ref sig .tc := ⟨.hbm, 141, rfl⟩
abbrev main_call7_v0 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_14 : Ref sig .tc := ⟨.hbm, 147, rfl⟩
abbrev main_v101 : Ref sig .tc := ⟨.hbm, 148, rfl⟩
abbrev main_v102 : Ref sig .tc := ⟨.hbm, 149, rfl⟩
abbrev main_c_15 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_16 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_call8_cst : Ref sig .tc := ⟨.hbm, 171, rfl⟩
abbrev main_call8_v0 : Ref sig .tc := ⟨.hbm, 172, rfl⟩
abbrev main_v122 : Ref sig .tc := ⟨.hbm, 173, rfl⟩
abbrev main_v123 : Ref sig .tc := ⟨.hbm, 174, rfl⟩
abbrev main_call9_cst : Ref sig .tc := ⟨.hbm, 175, rfl⟩
abbrev main_call9_v0 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_c_17 : Ref sig .tc := ⟨.hbm, 181, rfl⟩
abbrev main_v128 : Ref sig .tc := ⟨.hbm, 182, rfl⟩
abbrev main_v129 : Ref sig .tc := ⟨.hbm, 183, rfl⟩
abbrev main_c_18 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_19 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_call10_cst : Ref sig .tc := ⟨.hbm, 206, rfl⟩
abbrev main_call10_v0 : Ref sig .tc := ⟨.hbm, 207, rfl⟩
abbrev main_v150 : Ref sig .tc := ⟨.hbm, 208, rfl⟩
abbrev main_cst_20 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_call11_cst : Ref sig .tc := ⟨.hbm, 217, rfl⟩
abbrev main_call11_v0 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_call12_cst : Ref sig .tc := ⟨.hbm, 224, rfl⟩
abbrev main_call12_v0 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S512x128 : S_.BroadcastsInDim S512x128 (![] : Fin 0 → Fin S512x128.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S512x128_S50000x1_S50000x128_1_0_0_1_wf : ScatterDims.WF S512x128 S50000x1 S50000x128 [1] [0] [0] 1
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

class Facts : Prop extends Facts₀ where

variable [Facts]
-- ==== Proof.KRun.lean ====
/-
  The kernel program's run with its result named: every weakly fair execution from a memory with zero counters
  terminates without a fault, the result array ends at what the last region's write-backs leave of the contents
  the preceding host operations and regions produced (the fold of boundary contents, at its last step), and the
  argument arrays end as launched. This is the launch over the program's eighteen segments, read at the result's
  buffer as well as at the arguments'.
-/
import proofs.«147925_j10436770529875_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and every argument array unchanged. -/
theorem run : θ_run defs (onTc (τ := τ) (main (F := F))) ⟨m, fun _ => 0, ρ⟩ (fun r => ∀ c : Dev nD,
      r.2.mem ((c.tc : Thread nD τ).loc main_v104) = W18 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v104 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.KernelIdeal.ValueRun

end
-- ==== Proof.Keep.lean ====
/-
  Which buffers the program's segments leave alone. No host operation writes an argument array, and after the
  two norm columns are computed no later host operation writes them; a region rewrites only its output array, its
  input windows' arrays end as they were entered and every other buffer is untouched. So at every segment
  boundary the argument arrays hold the launch contents and the norm columns what the fifth stretch of host
  operations left.
-/
import proofs.«147925_j10436770529875_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

/-- The argument arrays of the program. -/
abbrev args : List (Ref sig .tc) := [main_arg0, main_arg1, main_arg2, main_arg3, main_arg4, main_arg5, main_arg6, main_arg7, main_arg8, main_arg9, main_arg10, main_arg11, main_arg12, main_arg13]
/-- The argument arrays and the two norm columns (source norm, destination norm). -/
abbrev kept : List (Ref sig .tc) := [main_arg0, main_arg1, main_arg2, main_arg3, main_arg4, main_arg5, main_arg6, main_arg7, main_arg8, main_arg9, main_arg10, main_arg11, main_arg12, main_arg13, main_v11, main_v14]

/-- A buffer that none of a stretch's operations writes holds after the stretch what it held before:
    the stretch's list of operations is opened, each operation's written buffer is compared with the buffer. -/
macro "stretch_keeps" : tactic => `(tactic| (
  refine StableHlo.after_of_forall_not_mem (b := Proc.devRef .tc _) _ _ (List.forall_iff_forall_mem.mp ?_)
  simp only [hostOps0, hostOps0_1, hostOps0_2, hostOps0_3, hostOps0_4, hostOps1, hostOps2, hostOps3, hostOps4, hostOps5, hostOps6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The host stretches -/

theorem hostOps0_args (W : Valuation τ sig (Elt F)) (b : Ref sig .tc) (hb : b ∈ args) :
    StableHlo.after (hostOps0 (F := F)) W (Proc.devRef .tc b) = W (Proc.devRef .tc b) := by
  simp only [args, List.mem_cons, List.not_mem_nil, or_false] at hb
  rcases hb with rfl | rfl | rfl | rfl | rfl | rfl | rfl | rfl | rfl | rfl | rfl | rfl | rfl | rfl <;> stretch_keeps

theorem hostOps0_1_args (W : Valuation τ sig (Elt F)) (b : Ref sig .tc) (hb : b ∈ args) :
    StableHlo.after (hostOps0_1 (F := F)) W (Proc.devRef .tc b) = W (Proc.devRef .tc b) := by
  simp only [args, List.mem_cons, List.not_mem_nil, or_false] at hb
  rcases hb with rfl | rfl | rfl | rfl | rfl | rfl | rfl | rfl | rfl | rfl | rfl | rfl | rfl | rfl <;> stretch_keeps

theorem hostOps0_2_args (W : Valuation τ sig (Elt F)) (b : Ref sig .tc) (hb : b ∈ args) :
    StableHlo.after (hostOps0_2 (F := F)) W (Proc.devRef .tc b) = W (Proc.devRef .tc b) := by
  simp only [args, List.mem_cons, List.not_mem_nil, or_false] at hb
  rcases hb with rfl | rfl | rfl | rfl | rfl | rfl | rfl | rfl | rfl | rfl | rfl | rfl | rfl | rfl <;> stretch_keeps

theorem hostOps0_3_args (W : Valuation τ sig (Elt F)) (b : Ref sig .tc) (hb : b ∈ args) :
    StableHlo.after (hostOps0_3 (F := F)) W (Proc.devRef .tc b) = W (Proc.devRef .tc b) := by
  simp only [args, List.mem_cons, List.not_mem_nil, or_false] at hb
  rcases hb with rfl | rfl | rfl | rfl | rfl | rfl | rfl | rfl | rfl | rfl | rfl | rfl | rfl | rfl <;> stretch_keeps

theorem hostOps0_4_args (W : Valuation τ sig (Elt F)) (b : Ref sig .tc) (hb : b ∈ args) :
    StableHlo.after (hostOps0_4 (F := F)) W (Proc.devRef .tc b) = W (Proc.devRef .tc b) := by
  simp only [args, List.mem_cons, List.not_mem_nil, or_false] at hb
  rcases hb with rfl | rfl | rfl | rfl | rfl | rfl | rfl | rfl | rfl | rfl | rfl | rfl | rfl | rfl <;> stretch_keeps

theorem hostOps1_kept (W : Valuation τ sig (Elt F)) (b : Ref sig .tc) (hb : b ∈ kept) :
    StableHlo.after (hostOps1 (F := F)) W (Proc.devRef .tc b) = W (Proc.devRef .tc b) := by
  simp only [kept, List.mem_cons, List.not_mem_nil, or_false] at hb
  rcases hb with rfl | rfl | rfl | rfl | rfl | rfl | rfl | rfl | rfl | rfl | rfl | rfl | rfl | rfl | rfl | rfl <;> stretch_keeps

/-- The previous stage's output array is read, not written, by the stretch that follows it. -/
theorem hostOps1_prev (W : Valuation τ sig (Elt F)) :
    StableHlo.after (hostOps1 (F := F)) W (Proc.devRef .tc main_v15) = W (Proc.devRef .tc main_v15) := by
  stretch_keeps

theorem hostOps2_kept (W : Valuation τ sig (Elt F)) (b : Ref sig .tc) (hb : b ∈ kept) :
    StableHlo.after (hostOps2 (F := F)) W (Proc.devRef .tc b) = W (Proc.devRef .tc b) := by
  simp only [kept, List.mem_cons, List.not_mem_nil, or_false] at hb
  rcases hb with rfl | rfl | rfl | rfl | rfl | rfl | rfl | rfl | rfl | rfl | rfl | rfl | rfl | rfl | rfl | rfl <;> stretch_keeps

/-- The previous stage's output array is read, not written, by the stretch that follows it. -/
theorem hostOps2_prev (W : Valuation τ sig (Elt F)) :
    StableHlo.after (hostOps2 (F := F)) W (Proc.devRef .tc main_v32) = W (Proc.devRef .tc main_v32) := by
  stretch_keeps

theorem hostOps3_kept (W : Valuation τ sig (Elt F)) (b : Ref sig .tc) (hb : b ∈ kept) :
    StableHlo.after (hostOps3 (F := F)) W (Proc.devRef .tc b) = W (Proc.devRef .tc b) := by
  simp only [kept, List.mem_cons, List.not_mem_nil, or_false] at hb
  rcases hb with rfl | rfl | rfl | rfl | rfl | rfl | rfl | rfl | rfl | rfl | rfl | rfl | rfl | rfl | rfl | rfl <;> stretch_keeps

/-- The previous stage's output array is read, not written, by the stretch that follows it. -/
theorem hostOps3_prev (W : Valuation τ sig (Elt F)) :
    StableHlo.after (hostOps3 (F := F)) W (Proc.devRef .tc main_v49) = W (Proc.devRef .tc main_v49) := by
  stretch_keeps

theorem hostOps4_kept (W : Valuation τ sig (Elt F)) (b : Ref sig .tc) (hb : b ∈ kept) :
    StableHlo.after (hostOps4 (F := F)) W (Proc.devRef .tc b) = W (Proc.devRef .tc b) := by
  simp only [kept, List.mem_cons, List.not_mem_nil, or_false] at hb
  rcases hb with rfl | rfl | rfl | rfl | rfl | rfl | rfl | rfl | rfl | rfl | rfl | rfl | rfl | rfl | rfl | rfl <;> stretch_keeps

/-- The previous stage's output array is read, not written, by the stretch that follows it. -/
theorem hostOps4_prev (W : Valuation τ sig (Elt F)) :
    StableHlo.after (hostOps4 (F := F)) W (Proc.devRef .tc main_v66) = W (Proc.devRef .tc main_v66) := by
  stretch_keeps

theorem hostOps5_kept (W : Valuation τ sig (Elt F)) (b : Ref sig .tc) (hb : b ∈ kept) :
    StableHlo.after (hostOps5 (F := F)) W (Proc.devRef .tc b) = W (Proc.devRef .tc b) := by
  simp only [kept, List.mem_cons, List.not_mem_nil, or_false] at hb
  rcases hb with rfl | rfl | rfl | rfl | rfl | rfl | rfl | rfl | rfl | rfl | rfl | rfl | rfl | rfl | rfl | rfl <;> stretch_keeps

/-- The previous stage's output array is read, not written, by the stretch that follows it. -/
theorem hostOps5_prev (W : Valuation τ sig (Elt F)) :
    StableHlo.after (hostOps5 (F := F)) W (Proc.devRef .tc main_v83) = W (Proc.devRef .tc main_v83) := by
  stretch_keeps

theorem hostOps6_kept (W : Valuation τ sig (Elt F)) (b : Ref sig .tc) (hb : b ∈ kept) :
    StableHlo.after (hostOps6 (F := F)) W (Proc.devRef .tc b) = W (Proc.devRef .tc b) := by
  simp only [kept, List.mem_cons, List.not_mem_nil, or_false] at hb
  rcases hb with rfl | rfl | rfl | rfl | rfl | rfl | rfl | rfl | rfl | rfl | rfl | rfl | rfl | rfl | rfl | rfl <;> stretch_keeps

/-- The previous stage's output array is read, not written, by the stretch that follows it. -/
theorem hostOps6_prev (W : Valuation τ sig (Elt F)) :
    StableHlo.after (hostOps6 (F := F)) W (Proc.devRef .tc main_v100) = W (Proc.devRef .tc main_v100) := by
  stretch_keeps

/-! ## The regions -/

variable (m : (ℓ : Loc nD τ sig) → Buf (Elt F) ℓ) (ρ : Dev nD → PrngReg)

theorem region0_kept (c : Dev nD) (b : Ref sig .tc) (hb : b ∈ kept) :
    W6 m ρ c (Proc.devRef .tc b) = W5 m ρ c (Proc.devRef .tc b) := by
  simp only [kept, List.mem_cons, List.not_mem_nil, or_false] at hb
  rcases hb with rfl | rfl | rfl | rfl | rfl | rfl | rfl | rfl | rfl | rfl | rfl | rfl | rfl | rfl | rfl | rfl <;> first
    | exact W6_of_ne m ρ c _ (by decide)
    | exact (W6_arr m ρ c 0).trans (((dat0 (V5 m ρ) c).arrAt_in 0 rfl _).trans (A_eq0 (V5 m ρ) c 0))
    | exact (W6_arr m ρ c 1).trans (((dat0 (V5 m ρ) c).arrAt_in 1 rfl _).trans (A_eq0 (V5 m ρ) c 1))
    | exact (W6_arr m ρ c 2).trans (((dat0 (V5 m ρ) c).arrAt_in 2 rfl _).trans (A_eq0 (V5 m ρ) c 2))

theorem region1_kept (c : Dev nD) (b : Ref sig .tc) (hb : b ∈ kept) :
    W8 m ρ c (Proc.devRef .tc b) = W7 m ρ c (Proc.devRef .tc b) := by
  simp only [kept, List.mem_cons, List.not_mem_nil, or_false] at hb
  rcases hb with rfl | rfl | rfl | rfl | rfl | rfl | rfl | rfl | rfl | rfl | rfl | rfl | rfl | rfl | rfl | rfl <;> first
    | exact W8_of_ne m ρ c _ (by decide)
    | exact (W8_arr m ρ c 0).trans (((dat1 (V7 m ρ) c).arrAt_in 0 rfl _).trans (A_eq1 (V7 m ρ) c 0))
    | exact (W8_arr m ρ c 1).trans (((dat1 (V7 m ρ) c).arrAt_in 1 rfl _).trans (A_eq1 (V7 m ρ) c 1))
    | exact (W8_arr m ρ c 2).trans (((dat1 (V7 m ρ) c).arrAt_in 2 rfl _).trans (A_eq1 (V7 m ρ) c 2))
    | exact (W8_arr m ρ c 3).trans (((dat1 (V7 m ρ) c).arrAt_in 3 rfl _).trans (A_eq1 (V7 m ρ) c 3))
    | exact (W8_arr m ρ c 4).trans (((dat1 (V7 m ρ) c).arrAt_in 4 rfl _).trans (A_eq1 (V7 m ρ) c 4))

theorem region2_kept (c : Dev nD) (b : Ref sig .tc) (hb : b ∈ kept) :
    W10 m ρ c (Proc.devRef .tc b) = W9 m ρ c (Proc.devRef .tc b) := by
  simp only [kept, List.mem_cons, List.not_mem_nil, or_false] at hb
  rcases hb with rfl | rfl | rfl | rfl | rfl | rfl | rfl | rfl | rfl | rfl | rfl | rfl | rfl | rfl | rfl | rfl <;> first
    | exact W10_of_ne m ρ c _ (by decide)
    | exact (W10_arr m ρ c 0).trans (((dat2 (V9 m ρ) c).arrAt_in 0 rfl _).trans (A_eq2 (V9 m ρ) c 0))
    | exact (W10_arr m ρ c 1).trans (((dat2 (V9 m ρ) c).arrAt_in 1 rfl _).trans (A_eq2 (V9 m ρ) c 1))
    | exact (W10_arr m ρ c 2).trans (((dat2 (V9 m ρ) c).arrAt_in 2 rfl _).trans (A_eq2 (V9 m ρ) c 2))
    | exact (W10_arr m ρ c 3).trans (((dat2 (V9 m ρ) c).arrAt_in 3 rfl _).trans (A_eq2 (V9 m ρ) c 3))
    | exact (W10_arr m ρ c 4).trans (((dat2 (V9 m ρ) c).arrAt_in 4 rfl _).trans (A_eq2 (V9 m ρ) c 4))

theorem region3_kept (c : Dev nD) (b : Ref sig .tc) (hb : b ∈ kept) :
    W12 m ρ c (Proc.devRef .tc b) = W11 m ρ c (Proc.devRef .tc b) := by
  simp only [kept, List.mem_cons, List.not_mem_nil, or_false] at hb
  rcases hb with rfl | rfl | rfl | rfl | rfl | rfl | rfl | rfl | rfl | rfl | rfl | rfl | rfl | rfl | rfl | rfl <;> first
    | exact W12_of_ne m ρ c _ (by decide)
    | exact (W12_arr m ρ c 0).trans (((dat3 (V11 m ρ) c).arrAt_in 0 rfl _).trans (A_eq3 (V11 m ρ) c 0))
    | exact (W12_arr m ρ c 1).trans (((dat3 (V11 m ρ) c).arrAt_in 1 rfl _).trans (A_eq3 (V11 m ρ) c 1))
    | exact (W12_arr m ρ c 2).trans (((dat3 (V11 m ρ) c).arrAt_in 2 rfl _).trans (A_eq3 (V11 m ρ) c 2))
    | exact (W12_arr m ρ c 3).trans (((dat3 (V11 m ρ) c).arrAt_in 3 rfl _).trans (A_eq3 (V11 m ρ) c 3))
    | exact (W12_arr m ρ c 4).trans (((dat3 (V11 m ρ) c).arrAt_in 4 rfl _).trans (A_eq3 (V11 m ρ) c 4))

theorem region4_kept (c : Dev nD) (b : Ref sig .tc) (hb : b ∈ kept) :
    W14 m ρ c (Proc.devRef .tc b) = W13 m ρ c (Proc.devRef .tc b) := by
  simp only [kept, List.mem_cons, List.not_mem_nil, or_false] at hb
  rcases hb with rfl | rfl | rfl | rfl | rfl | rfl | rfl | rfl | rfl | rfl | rfl | rfl | rfl | rfl | rfl | rfl <;> first
    | exact W14_of_ne m ρ c _ (by decide)
    | exact (W14_arr m ρ c 0).trans (((dat4 (V13 m ρ) c).arrAt_in 0 rfl _).trans (A_eq4 (V13 m ρ) c 0))
    | exact (W14_arr m ρ c 1).trans (((dat4 (V13 m ρ) c).arrAt_in 1 rfl _).trans (A_eq4 (V13 m ρ) c 1))
    | exact (W14_arr m ρ c 2).trans (((dat4 (V13 m ρ) c).arrAt_in 2 rfl _).trans (A_eq4 (V13 m ρ) c 2))
    | exact (W14_arr m ρ c 3).trans (((dat4 (V13 m ρ) c).arrAt_in 3 rfl _).trans (A_eq4 (V13 m ρ) c 3))
    | exact (W14_arr m ρ c 4).trans (((dat4 (V13 m ρ) c).arrAt_in 4 rfl _).trans (A_eq4 (V13 m ρ) c 4))

theorem region5_kept (c : Dev nD) (b : Ref sig .tc) (hb : b ∈ kept) :
    W16 m ρ c (Proc.devRef .tc b) = W15 m ρ c (Proc.devRef .tc b) := by
  simp only [kept, List.mem_cons, List.not_mem_nil, or_false] at hb
  rcases hb with rfl | rfl | rfl | rfl | rfl | rfl | rfl | rfl | rfl | rfl | rfl | rfl | rfl | rfl | rfl | rfl <;> first
    | exact W16_of_ne m ρ c _ (by decide)
    | exact (W16_arr m ρ c 0).trans (((dat5 (V15 m ρ) c).arrAt_in 0 rfl _).trans (A_eq5 (V15 m ρ) c 0))
    | exact (W16_arr m ρ c 1).trans (((dat5 (V15 m ρ) c).arrAt_in 1 rfl _).trans (A_eq5 (V15 m ρ) c 1))
    | exact (W16_arr m ρ c 2).trans (((dat5 (V15 m ρ) c).arrAt_in 2 rfl _).trans (A_eq5 (V15 m ρ) c 2))
    | exact (W16_arr m ρ c 3).trans (((dat5 (V15 m ρ) c).arrAt_in 3 rfl _).trans (A_eq5 (V15 m ρ) c 3))
    | exact (W16_arr m ρ c 4).trans (((dat5 (V15 m ρ) c).arrAt_in 4 rfl _).trans (A_eq5 (V15 m ρ) c 4))

/-! ## Every boundary against the launch memory and the fifth stretch -/

theorem args_subset_kept {b : Ref sig .tc} (hb : b ∈ args) : b ∈ kept := by
  simp only [args, kept, List.mem_cons, List.not_mem_nil, or_false] at hb ⊢
  rcases hb with rfl | rfl | rfl | rfl | rfl | rfl | rfl | rfl | rfl | rfl | rfl | rfl | rfl | rfl <;> simp

/-- At the first region's entry every argument array holds the launch contents. -/
theorem at5_args (c : Dev nD) (b : Ref sig .tc) (hb : b ∈ args) :
    W5 m ρ c (Proc.devRef .tc b) = W0 m ρ c (Proc.devRef .tc b) :=
  (hostOps0_4_args (W4 m ρ c) b hb).trans ((hostOps0_3_args (W3 m ρ c) b hb).trans ((hostOps0_2_args (W2 m ρ c) b hb).trans
    ((hostOps0_1_args (W1 m ρ c) b hb).trans (hostOps0_args (W0 m ρ c) b hb))))

theorem at6 (c : Dev nD) (b : Ref sig .tc) (hb : b ∈ kept) :
    W6 m ρ c (Proc.devRef .tc b) = W5 m ρ c (Proc.devRef .tc b) :=
  region0_kept m ρ c b hb

theorem at7 (c : Dev nD) (b : Ref sig .tc) (hb : b ∈ kept) :
    W7 m ρ c (Proc.devRef .tc b) = W5 m ρ c (Proc.devRef .tc b) :=
  (hostOps1_kept (W6 m ρ c) b hb).trans (at6 m ρ c b hb)

theorem at8 (c : Dev nD) (b : Ref sig .tc) (hb : b ∈ kept) :
    W8 m ρ c (Proc.devRef .tc b) = W5 m ρ c (Proc.devRef .tc b) :=
  (region1_kept m ρ c b hb).trans (at7 m ρ c b hb)

theorem at9 (c : Dev nD) (b : Ref sig .tc) (hb : b ∈ kept) :
    W9 m ρ c (Proc.devRef .tc b) = W5 m ρ c (Proc.devRef .tc b) :=
  (hostOps2_kept (W8 m ρ c) b hb).trans (at8 m ρ c b hb)

theorem at10 (c : Dev nD) (b : Ref sig .tc) (hb : b ∈ kept) :
    W10 m ρ c (Proc.devRef .tc b) = W5 m ρ c (Proc.devRef .tc b) :=
  (region2_kept m ρ c b hb).trans (at9 m ρ c b hb)

theorem at11 (c : Dev nD) (b : Ref sig .tc) (hb : b ∈ kept) :
    W11 m ρ c (Proc.devRef .tc b) = W5 m ρ c (Proc.devRef .tc b) :=
  (hostOps3_kept (W10 m ρ c) b hb).trans (at10 m ρ c b hb)

theorem at12 (c : Dev nD) (b : Ref sig .tc) (hb : b ∈ kept) :
    W12 m ρ c (Proc.devRef .tc b) = W5 m ρ c (Proc.devRef .tc b) :=
  (region3_kept m ρ c b hb).trans (at11 m ρ c b hb)

theorem at13 (c : Dev nD) (b : Ref sig .tc) (hb : b ∈ kept) :
    W13 m ρ c (Proc.devRef .tc b) = W5 m ρ c (Proc.devRef .tc b) :=
  (hostOps4_kept (W12 m ρ c) b hb).trans (at12 m ρ c b hb)

theorem at14 (c : Dev nD) (b : Ref sig .tc) (hb : b ∈ kept) :
    W14 m ρ c (Proc.devRef .tc b) = W5 m ρ c (Proc.devRef .tc b) :=
  (region4_kept m ρ c b hb).trans (at13 m ρ c b hb)

theorem at15 (c : Dev nD) (b : Ref sig .tc) (hb : b ∈ kept) :
    W15 m ρ c (Proc.devRef .tc b) = W5 m ρ c (Proc.devRef .tc b) :=
  (hostOps5_kept (W14 m ρ c) b hb).trans (at14 m ρ c b hb)

theorem at16 (c : Dev nD) (b : Ref sig .tc) (hb : b ∈ kept) :
    W16 m ρ c (Proc.devRef .tc b) = W5 m ρ c (Proc.devRef .tc b) :=
  (region5_kept m ρ c b hb).trans (at15 m ρ c b hb)

theorem at17 (c : Dev nD) (b : Ref sig .tc) (hb : b ∈ kept) :
    W17 m ρ c (Proc.devRef .tc b) = W5 m ρ c (Proc.devRef .tc b) :=
  (hostOps6_kept (W16 m ρ c) b hb).trans (at16 m ρ c b hb)

end Cert.KernelIdeal.Keep

end
-- ==== Proof.HostRead.lean ====
/-
  What the host operations between the regions compute, read against the reference's stages. Each stretch of
  host operations is a fixed chain of pure array functions of the buffers it reads. When those buffers hold the
  reference's values — the previous stage's output, the source-norm column, the index arrays, the stacked weights
  and biases — the stretch's results are the reference's arrays of the same role: the aggregated messages
  (scale the rows by the source norm, gather along the edges' sources, sum into the edges' destinations), the
  layer's weight and bias sliced out of the stacks, and in the end the node rows summed into their graphs.
-/
import proofs.«147925_j10436770529875_1_alg».proof.Proof.Gen.KernelIdeal.Launch
import proofs.«147925_j10436770529875_1_alg».proof.Proof.Gen.ReferenceIdeal.Read
import Idealize.ShloMosaic.Lib.StableHlo.Run

set_option maxRecDepth 16384

noncomputable section

namespace Cert.KernelIdeal.HostRead

open Cert.KernelIdeal Cert.KernelIdeal.Gen Cert.ReferenceIdeal.Read
open Idealize.ShloMosaic Idealize.ShloMosaic.TcCoe Idealize.SL.Sem Idealize.ShloMosaic.StableHlo

variable (W : Valuation τ sig (Elt Ideal))

/-! ## The stretch before graph-convolution stage 1 -/

/-- The aggregated messages of layer 1. -/
theorem agg1 (x0 : (⟨S50000x128, .f32⟩ : BufTy).Contents (Elt Ideal)) (x1 : (⟨S600000, .i32⟩ : BufTy).Contents (Elt Ideal)) (x2 : (⟨S600000, .i32⟩ : BufTy).Contents (Elt Ideal)) (x4 : (⟨S128x128, .f32⟩ : BufTy).Contents (Elt Ideal)) (x5 : (⟨S128, .f32⟩ : BufTy).Contents (Elt Ideal))
    (hh : W (Proc.devRef .tc main_v15) = val_main_v16 (F := Ideal) x0 x4 x5)
    (hn : W (Proc.devRef .tc main_v11) = val_main_v17 (F := Ideal) x1)
    (h1 : W (Proc.devRef .tc main_arg1) = x1) (h2 : W (Proc.devRef .tc main_arg2) = x2) :
    after hostOps1 W (Proc.devRef .tc main_v27) = val_main_v29 (F := Ideal) x0 x1 x2 x4 x5 := by
  dsimp only [hostOps1]
  after_results_simp
  rw [hh, hn, h1, h2]
  rfl

/-- Layer 1's weight matrix, sliced out of the stack. -/
theorem weight1 (x6 : (⟨S5x128x128, .f32⟩ : BufTy).Contents (Elt Ideal)) (h6 : W (Proc.devRef .tc main_arg6) = x6) :
    after hostOps1 W (Proc.devRef .tc main_v29) = val_main_v34 (F := Ideal) x6 := by
  dsimp only [hostOps1]
  after_results_simp
  rw [h6]
  rfl

/-- Layer 1's bias vector, sliced out of the stack. -/
theorem bias1 (x7 : (⟨S5x128, .f32⟩ : BufTy).Contents (Elt Ideal)) (h7 : W (Proc.devRef .tc main_arg7) = x7) :
    after hostOps1 W (Proc.devRef .tc main_v31) = val_main_v37 (F := Ideal) x7 := by
  dsimp only [hostOps1]
  after_results_simp
  rw [h7]
  rfl

/-! ## The stretch before graph-convolution stage 2 -/

/-- The aggregated messages of layer 2. -/
theorem agg2 (x0 : (⟨S50000x128, .f32⟩ : BufTy).Contents (Elt Ideal)) (x1 : (⟨S600000, .i32⟩ : BufTy).Contents (Elt Ideal)) (x2 : (⟨S600000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal))
    (hh : W (Proc.devRef .tc main_v32) = val_main_v43 (F := Ideal) x0 x1 x2 x4 x5 x6 x7)
    (hn : W (Proc.devRef .tc main_v11) = val_main_v17 (F := Ideal) x1)
    (h1 : W (Proc.devRef .tc main_arg1) = x1) (h2 : W (Proc.devRef .tc main_arg2) = x2) :
    after hostOps2 W (Proc.devRef .tc main_v44) = val_main_v56 (F := Ideal) x0 x1 x2 x4 x5 x6 x7 := by
  dsimp only [hostOps2]
  after_results_simp
  rw [hh, hn, h1, h2]
  rfl

/-- Layer 2's weight matrix, sliced out of the stack. -/
theorem weight2 (x6 : (⟨S5x128x128, .f32⟩ : BufTy).Contents (Elt Ideal)) (h6 : W (Proc.devRef .tc main_arg6) = x6) :
    after hostOps2 W (Proc.devRef .tc main_v46) = val_main_v61 (F := Ideal) x6 := by
  dsimp only [hostOps2]
  after_results_simp
  rw [h6]
  rfl

/-- Layer 2's bias vector, sliced out of the stack. -/
theorem bias2 (x7 : (⟨S5x128, .f32⟩ : BufTy).Contents (Elt Ideal)) (h7 : W (Proc.devRef .tc main_arg7) = x7) :
    after hostOps2 W (Proc.devRef .tc main_v48) = val_main_v64 (F := Ideal) x7 := by
  dsimp only [hostOps2]
  after_results_simp
  rw [h7]
  rfl

/-! ## The stretch before graph-convolution stage 3 -/

/-- The aggregated messages of layer 3. -/
theorem agg3 (x0 : (⟨S50000x128, .f32⟩ : BufTy).Contents (Elt Ideal)) (x1 : (⟨S600000, .i32⟩ : BufTy).Contents (Elt Ideal)) (x2 : (⟨S600000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal))
    (hh : W (Proc.devRef .tc main_v49) = val_main_v70 (F := Ideal) x0 x1 x2 x4 x5 x6 x7)
    (hn : W (Proc.devRef .tc main_v11) = val_main_v17 (F := Ideal) x1)
    (h1 : W (Proc.devRef .tc main_arg1) = x1) (h2 : W (Proc.devRef .tc main_arg2) = x2) :
    after hostOps3 W (Proc.devRef .tc main_v61) = val_main_v83 (F := Ideal) x0 x1 x2 x4 x5 x6 x7 := by
  dsimp only [hostOps3]
  after_results_simp
  rw [hh, hn, h1, h2]
  rfl

/-- Layer 3's weight matrix, sliced out of the stack. -/
theorem weight3 (x6 : (⟨S5x128x128, .f32⟩ : BufTy).Contents (Elt Ideal)) (h6 : W (Proc.devRef .tc main_arg6) = x6) :
    after hostOps3 W (Proc.devRef .tc main_v63) = val_main_v88 (F := Ideal) x6 := by
  dsimp only [hostOps3]
  after_results_simp
  rw [h6]
  rfl

/-- Layer 3's bias vector, sliced out of the stack. -/
theorem bias3 (x7 : (⟨S5x128, .f32⟩ : BufTy).Contents (Elt Ideal)) (h7 : W (Proc.devRef .tc main_arg7) = x7) :
    after hostOps3 W (Proc.devRef .tc main_v65) = val_main_v91 (F := Ideal) x7 := by
  dsimp only [hostOps3]
  after_results_simp
  rw [h7]
  rfl

/-! ## The stretch before graph-convolution stage 4 -/

/-- The aggregated messages of layer 4. -/
theorem agg4 (x0 : (⟨S50000x128, .f32⟩ : BufTy).Contents (Elt Ideal)) (x1 : (⟨S600000, .i32⟩ : BufTy).Contents (Elt Ideal)) (x2 : (⟨S600000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal))
    (hh : W (Proc.devRef .tc main_v66) = val_main_v97 (F := Ideal) x0 x1 x2 x4 x5 x6 x7)
    (hn : W (Proc.devRef .tc main_v11) = val_main_v17 (F := Ideal) x1)
    (h1 : W (Proc.devRef .tc main_arg1) = x1) (h2 : W (Proc.devRef .tc main_arg2) = x2) :
    after hostOps4 W (Proc.devRef .tc main_v78) = val_main_v110 (F := Ideal) x0 x1 x2 x4 x5 x6 x7 := by
  dsimp only [hostOps4]
  after_results_simp
  rw [hh, hn, h1, h2]
  rfl

/-- Layer 4's weight matrix, sliced out of the stack. -/
theorem weight4 (x6 : (⟨S5x128x128, .f32⟩ : BufTy).Contents (Elt Ideal)) (h6 : W (Proc.devRef .tc main_arg6) = x6) :
    after hostOps4 W (Proc.devRef .tc main_v80) = val_main_v115 (F := Ideal) x6 := by
  dsimp only [hostOps4]
  after_results_simp
  rw [h6]
  rfl

/-- Layer 4's bias vector, sliced out of the stack. -/
theorem bias4 (x7 : (⟨S5x128, .f32⟩ : BufTy).Contents (Elt Ideal)) (h7 : W (Proc.devRef .tc main_arg7) = x7) :
    after hostOps4 W (Proc.devRef .tc main_v82) = val_main_v118 (F := Ideal) x7 := by
  dsimp only [hostOps4]
  after_results_simp
  rw [h7]
  rfl

/-! ## The stretch before graph-convolution stage 5 -/

/-- The aggregated messages of layer 5. -/
theorem agg5 (x0 : (⟨S50000x128, .f32⟩ : BufTy).Contents (Elt Ideal)) (x1 : (⟨S600000, .i32⟩ : BufTy).Contents (Elt Ideal)) (x2 : (⟨S600000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal))
    (hh : W (Proc.devRef .tc main_v83) = val_main_v124 (F := Ideal) x0 x1 x2 x4 x5 x6 x7)
    (hn : W (Proc.devRef .tc main_v11) = val_main_v17 (F := Ideal) x1)
    (h1 : W (Proc.devRef .tc main_arg1) = x1) (h2 : W (Proc.devRef .tc main_arg2) = x2) :
    after hostOps5 W (Proc.devRef .tc main_v95) = val_main_v137 (F := Ideal) x0 x1 x2 x4 x5 x6 x7 := by
  dsimp only [hostOps5]
  after_results_simp
  rw [hh, hn, h1, h2]
  rfl

/-- Layer 5's weight matrix, sliced out of the stack. -/
theorem weight5 (x6 : (⟨S5x128x128, .f32⟩ : BufTy).Contents (Elt Ideal)) (h6 : W (Proc.devRef .tc main_arg6) = x6) :
    after hostOps5 W (Proc.devRef .tc main_v97) = val_main_v142 (F := Ideal) x6 := by
  dsimp only [hostOps5]
  after_results_simp
  rw [h6]
  rfl

/-- Layer 5's bias vector, sliced out of the stack. -/
theorem bias5 (x7 : (⟨S5x128, .f32⟩ : BufTy).Contents (Elt Ideal)) (h7 : W (Proc.devRef .tc main_arg7) = x7) :
    after hostOps5 W (Proc.devRef .tc main_v99) = val_main_v145 (F := Ideal) x7 := by
  dsimp only [hostOps5]
  after_results_simp
  rw [h7]
  rfl

/-! ## The stretch before the pooling head -/

/-- The node rows of the last stage summed into their graphs. -/
theorem pooled (x0 : (⟨S50000x128, .f32⟩ : BufTy).Contents (Elt Ideal)) (x1 : (⟨S600000, .i32⟩ : BufTy).Contents (Elt Ideal)) (x2 : (⟨S600000, .i32⟩ : BufTy).Contents (Elt Ideal)) (x3 : (⟨S50000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal))
    (hh : W (Proc.devRef .tc main_v100) = val_main_v150 (F := Ideal) x0 x1 x2 x4 x5 x6 x7)
    (h3 : W (Proc.devRef .tc main_arg3) = x3) :
    after hostOps6 W (Proc.devRef .tc main_v103) = val_main_v153 (F := Ideal) x0 x1 x2 x3 x4 x5 x6 x7 := by
  dsimp only [hostOps6]
  after_results_simp
  rw [hh, h3]
  rfl

end Cert.KernelIdeal.HostRead

end
-- ==== Proof.LibColumn.lean ====
/-
  A vector read as a column. For a vector x of length a, the cast of x to shape [a, 1] and the broadcast of x
  along axis 0 into shape [a, 1] are the same array: entry (r, 0) of either is x(r). Stated for any element
  type and any length.
-/
import Idealize.ShloMosaic.Lib.Pipeline.Value
import Idealize.ShloMosaic.Lib.ValueIdx

namespace Cert.LibColumn

open Idealize.ShloMosaic Idealize.ShloMosaic.ValueIdx

variable {α : Type}

/-- Entry (r, 0) of the cast of a length-a vector to shape [a, 1] is the vector's entry r. -/
theorem shapeCast_col_apply {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 (j 0)) := by
  have h1 : (j 1).val = 0 := by
    have := (j 1).isLt
    simp only [Matrix.cons_val_one, Matrix.cons_val_zero] at this
    omega
  refine shapeCast_apply x h j (ix1 (j 0)) ?_
  rw [Shape.rowMajor_val_one, Shape.rowMajor_val_two, h1]
  simp
  rfl

/-- Entry (r, 0) of the broadcast of a length-a vector along axis 0 into shape [a, 1] is the vector's entry r. -/
theorem broadcastInDim_col_apply {a : ℕ} (x : (⟨1, ![a]⟩ : Shape).Idx → α)
    (hb : (⟨1, ![a]⟩ : Shape).BroadcastsInDim ⟨2, ![a, 1]⟩ ![0]) (j : (⟨2, ![a, 1]⟩ : Shape).Idx) :
    broadcastInDim ⟨2, ![a, 1]⟩ ![0] hb x j = x (ix1 (j 0)) := by
  refine broadcastInDim_apply ![0] hb x j (ix1 (j 0)) ?_
  intro d
  match d with
  | ⟨0, _⟩ =>
    show (j 0).val = if a = 1 then 0 else (j 0).val
    split_ifs with ha
    · have := (j 0).isLt
      simp only [Matrix.cons_val_zero] at this
      omega
    · rfl

/-- The cast to a column and the broadcast to a column are one array. -/
theorem shapeCast_col_eq_broadcastInDim {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x :=
  funext fun j => (shapeCast_col_apply x h j).trans (broadcastInDim_col_apply x hb j).symm

end Cert.LibColumn
-- ==== Proof.Norms.lean ====
/-
  The two degree norms. Before the first region the host operations count, for every node, the edges leaving it
  and the edges entering it (ones summed into the edges' sources, and into their destinations), clamp each count
  below at one, raise it to the power -1/2 and lay the vector out as a column. The reference computes the same two
  vectors and broadcasts each to a column where it is used. Read stretch by stretch, the kernel program's two
  columns are the reference's: the clamp is an outlined function whose operands pass through re-typings that
  change nothing, and the cast of a vector to a column is its broadcast to a column.
-/
import proofs.«147925_j10436770529875_1_alg».proof.Proof.Keep
import proofs.«147925_j10436770529875_1_alg».proof.Proof.Gen.ReferenceIdeal.Read
import proofs.«147925_j10436770529875_1_alg».proof.Proof.LibColumn
import Idealize.ShloMosaic.Lib.StableHlo.Run

set_option maxRecDepth 16384

noncomputable section

namespace Cert.KernelIdeal.Norms

open Cert.KernelIdeal Cert.KernelIdeal.Gen Cert.ReferenceIdeal.Read
open Idealize.ShloMosaic Idealize.ShloMosaic.TcCoe Idealize.SL.Sem Idealize.ShloMosaic.StableHlo

/-! ## Re-typing a buffer's contents at its own type changes nothing -/

theorem toBuf_main_cst_1 (v : (⟨S_, .f32⟩ : BufTy).Contents (Elt Ideal)) :
    (TRef.of (T := ⟨S_, .f32⟩) main_cst_1 : TRef sig ⟨S_, .f32⟩).toBuf (Val := Elt Ideal) v = v := rfl
theorem ofBuf_main_cst_1 (v : main_cst_1.ty.Contents (Elt Ideal)) :
    (TRef.of (T := ⟨S_, .f32⟩) main_cst_1 : TRef sig ⟨S_, .f32⟩).ofBuf (Val := Elt Ideal) v = v := rfl

theorem toBuf_main_call0_v0 (v : (⟨S_, .f32⟩ : BufTy).Contents (Elt Ideal)) :
    (TRef.of (T := ⟨S_, .f32⟩) main_call0_v0 : TRef sig ⟨S_, .f32⟩).toBuf (Val := Elt Ideal) v = v := rfl
theorem ofBuf_main_call0_v0 (v : main_call0_v0.ty.Contents (Elt Ideal)) :
    (TRef.of (T := ⟨S_, .f32⟩) main_call0_v0 : TRef sig ⟨S_, .f32⟩).ofBuf (Val := Elt Ideal) v = v := rfl

theorem toBuf_main_call0_v1 (v : (⟨S50000, .f32⟩ : BufTy).Contents (Elt Ideal)) :
    (TRef.of (T := ⟨S50000, .f32⟩) main_call0_v1 : TRef sig ⟨S50000, .f32⟩).toBuf (Val := Elt Ideal) v = v := rfl
theorem ofBuf_main_call0_v1 (v : main_call0_v1.ty.Contents (Elt Ideal)) :
    (TRef.of (T := ⟨S50000, .f32⟩) main_call0_v1 : TRef sig ⟨S50000, .f32⟩).ofBuf (Val := Elt Ideal) v = v := rfl

theorem toBuf_main_v3 (v : (⟨S50000, .f32⟩ : BufTy).Contents (Elt Ideal)) :
    (TRef.of (T := ⟨S50000, .f32⟩) main_v3 : TRef sig ⟨S50000, .f32⟩).toBuf (Val := Elt Ideal) v = v := rfl
theorem ofBuf_main_v3 (v : main_v3.ty.Contents (Elt Ideal)) :
    (TRef.of (T := ⟨S50000, .f32⟩) main_v3 : TRef sig ⟨S50000, .f32⟩).ofBuf (Val := Elt Ideal) v = v := rfl

theorem toBuf_main_v4 (v : (⟨S50000, .f32⟩ : BufTy).Contents (Elt Ideal)) :
    (TRef.of (T := ⟨S50000, .f32⟩) main_v4 : TRef sig ⟨S50000, .f32⟩).toBuf (Val := Elt Ideal) v = v := rfl
theorem ofBuf_main_v4 (v : main_v4.ty.Contents (Elt Ideal)) :
    (TRef.of (T := ⟨S50000, .f32⟩) main_v4 : TRef sig ⟨S50000, .f32⟩).ofBuf (Val := Elt Ideal) v = v := rfl

theorem toBuf_main_cst_3 (v : (⟨S_, .f32⟩ : BufTy).Contents (Elt Ideal)) :
    (TRef.of (T := ⟨S_, .f32⟩) main_cst_3 : TRef sig ⟨S_, .f32⟩).toBuf (Val := Elt Ideal) v = v := rfl
theorem ofBuf_main_cst_3 (v : main_cst_3.ty.Contents (Elt Ideal)) :
    (TRef.of (T := ⟨S_, .f32⟩) main_cst_3 : TRef sig ⟨S_, .f32⟩).ofBuf (Val := Elt Ideal) v = v := rfl

theorem toBuf_main_call1_v0 (v : (⟨S_, .f32⟩ : BufTy).Contents (Elt Ideal)) :
    (TRef.of (T := ⟨S_, .f32⟩) main_call1_v0 : TRef sig ⟨S_, .f32⟩).toBuf (Val := Elt Ideal) v = v := rfl
theorem ofBuf_main_call1_v0 (v : main_call1_v0.ty.Contents (Elt Ideal)) :
    (TRef.of (T := ⟨S_, .f32⟩) main_call1_v0 : TRef sig ⟨S_, .f32⟩).ofBuf (Val := Elt Ideal) v = v := rfl

theorem toBuf_main_call1_v1 (v : (⟨S50000, .f32⟩ : BufTy).Contents (Elt Ideal)) :
    (TRef.of (T := ⟨S50000, .f32⟩) main_call1_v1 : TRef sig ⟨S50000, .f32⟩).toBuf (Val := Elt Ideal) v = v := rfl
theorem ofBuf_main_call1_v1 (v : main_call1_v1.ty.Contents (Elt Ideal)) :
    (TRef.of (T := ⟨S50000, .f32⟩) main_call1_v1 : TRef sig ⟨S50000, .f32⟩).ofBuf (Val := Elt Ideal) v = v := rfl

theorem toBuf_main_v7 (v : (⟨S50000, .f32⟩ : BufTy).Contents (Elt Ideal)) :
    (TRef.of (T := ⟨S50000, .f32⟩) main_v7 : TRef sig ⟨S50000, .f32⟩).toBuf (Val := Elt Ideal) v = v := rfl
theorem ofBuf_main_v7 (v : main_v7.ty.Contents (Elt Ideal)) :
    (TRef.of (T := ⟨S50000, .f32⟩) main_v7 : TRef sig ⟨S50000, .f32⟩).ofBuf (Val := Elt Ideal) v = v := rfl

theorem toBuf_main_v8 (v : (⟨S50000, .f32⟩ : BufTy).Contents (Elt Ideal)) :
    (TRef.of (T := ⟨S50000, .f32⟩) main_v8 : TRef sig ⟨S50000, .f32⟩).toBuf (Val := Elt Ideal) v = v := rfl
theorem ofBuf_main_v8 (v : main_v8.ty.Contents (Elt Ideal)) :
    (TRef.of (T := ⟨S50000, .f32⟩) main_v8 : TRef sig ⟨S50000, .f32⟩).ofBuf (Val := Elt Ideal) v = v := rfl

variable (W : Valuation τ sig (Elt Ideal))

/-! ## The first stretch: the out-degree counts -/

theorem outCount (x1 : (⟨S600000, .i32⟩ : BufTy).Contents (Elt Ideal)) (h1 : W (Proc.devRef .tc main_arg1) = x1) :
    after hostOps0 W (Proc.devRef .tc main_v3) = val_main_v3 (F := Ideal) x1 := by
  dsimp only [hostOps0]
  after_results_simp
  rw [h1]
  rfl

theorem ones0 : after hostOps0 W (Proc.devRef .tc main_v0) = val_main_v0 (F := Ideal) := by
  dsimp only [hostOps0]
  after_results_simp
  rfl

theorem one1 : after hostOps0 W (Proc.devRef .tc main_cst_1) = val_main_cst_1 (F := Ideal) := by
  dsimp only [hostOps0]
  after_results_simp
  rfl

/-! ## The second stretch: the out-degrees clamped below at one -/

theorem outDeg (x1 : (⟨S600000, .i32⟩ : BufTy).Contents (Elt Ideal)) (h3 : W (Proc.devRef .tc main_v3) = val_main_v3 (F := Ideal) x1)
    (hc : W (Proc.devRef .tc main_cst_1) = val_main_cst_1 (F := Ideal)) :
    after hostOps0_1 W (Proc.devRef .tc main_v4) = val_main_v4 (F := Ideal) x1 := by
  dsimp only [hostOps0_1]
  after_results_simp
  rw [toBuf_main_v4, ofBuf_main_call0_v1, toBuf_main_call0_v1, ofBuf_main_call0_v0, toBuf_main_call0_v0,
    ofBuf_main_cst_1, ofBuf_main_v3, h3, hc]
  rfl

theorem ones0_kept1 : after hostOps0_1 W (Proc.devRef .tc main_v0) = W (Proc.devRef .tc main_v0) := by
  stretch_keeps

/-! ## The third stretch: the in-degree counts -/

theorem inCount (x2 : (⟨S600000, .i32⟩ : BufTy).Contents (Elt Ideal)) (h2 : W (Proc.devRef .tc main_arg2) = x2)
    (h0 : W (Proc.devRef .tc main_v0) = val_main_v0 (F := Ideal)) :
    after hostOps0_2 W (Proc.devRef .tc main_v7) = val_main_v7 (F := Ideal) x2 := by
  dsimp only [hostOps0_2]
  after_results_simp
  rw [h2, h0]
  rfl

theorem one3 : after hostOps0_2 W (Proc.devRef .tc main_cst_3) = val_main_cst_3 (F := Ideal) := by
  dsimp only [hostOps0_2]
  after_results_simp
  rfl

theorem outDeg_kept2 : after hostOps0_2 W (Proc.devRef .tc main_v4) = W (Proc.devRef .tc main_v4) := by
  stretch_keeps

/-! ## The fourth stretch: the in-degrees clamped below at one -/

theorem inDeg (x2 : (⟨S600000, .i32⟩ : BufTy).Contents (Elt Ideal)) (h7 : W (Proc.devRef .tc main_v7) = val_main_v7 (F := Ideal) x2)
    (hc : W (Proc.devRef .tc main_cst_3) = val_main_cst_3 (F := Ideal)) :
    after hostOps0_3 W (Proc.devRef .tc main_v8) = val_main_v8 (F := Ideal) x2 := by
  dsimp only [hostOps0_3]
  after_results_simp
  rw [toBuf_main_v8, ofBuf_main_call1_v1, toBuf_main_call1_v1, ofBuf_main_call1_v0, toBuf_main_call1_v0,
    ofBuf_main_cst_3, ofBuf_main_v7, h7, hc]
  rfl

theorem outDeg_kept3 : after hostOps0_3 W (Proc.devRef .tc main_v4) = W (Proc.devRef .tc main_v4) := by
  stretch_keeps

/-! ## The fifth stretch: the powers and the columns -/

theorem srcCol (x1 : (⟨S600000, .i32⟩ : BufTy).Contents (Elt Ideal)) (h4 : W (Proc.devRef .tc main_v4) = val_main_v4 (F := Ideal) x1) :
    after hostOps0_4 W (Proc.devRef .tc main_v11) = val_main_v17 (F := Ideal) x1 := by
  dsimp only [hostOps0_4]
  after_results_simp
  rw [h4]
  refine Eq.trans ?_ (Cert.LibColumn.shapeCast_col_eq_broadcastInDim (a := 50000) (val_main_v10 (F := Ideal) x1)
    shapeCasts_S50000_S50000x1 Cert.ReferenceIdeal.Gen.bcast_S50000_S50000x1_0)
  rfl

theorem dstCol (x2 : (⟨S600000, .i32⟩ : BufTy).Contents (Elt Ideal)) (h8 : W (Proc.devRef .tc main_v8) = val_main_v8 (F := Ideal) x2) :
    after hostOps0_4 W (Proc.devRef .tc main_v14) = val_main_v30 (F := Ideal) x2 := by
  dsimp only [hostOps0_4]
  after_results_simp
  rw [h8]
  refine Eq.trans ?_ (Cert.LibColumn.shapeCast_col_eq_broadcastInDim (a := 50000) (val_main_v12 (F := Ideal) x2)
    shapeCasts_S50000_S50000x1 Cert.ReferenceIdeal.Gen.bcast_S50000_S50000x1_0)
  rfl

/-! ## The two columns when the first region is entered -/

variable (m : (ℓ : Loc nD τ sig) → Buf (Elt Ideal) ℓ) (ρ : Dev nD → PrngReg) (c : Dev nD)

/-- The source-norm column is the reference's, of the launch contents of the edges' sources. -/
theorem srcNorm : W5 m ρ c (Proc.devRef .tc main_v11)
    = val_main_v17 (F := Ideal) (m ((c : Thread nD τ).loc main_arg1)) :=
  srcCol (W4 m ρ c) _ ((outDeg_kept3 (W3 m ρ c)).trans ((outDeg_kept2 (W2 m ρ c)).trans
    (outDeg (W1 m ρ c) _ (outCount (W0 m ρ c) _ rfl) (one1 (W0 m ρ c)))))

/-- The destination-norm column is the reference's, of the launch contents of the edges' destinations. -/
theorem dstNorm : W5 m ρ c (Proc.devRef .tc main_v14)
    = val_main_v30 (F := Ideal) (m ((c : Thread nD τ).loc main_arg2)) :=
  dstCol (W4 m ρ c) _ (inDeg (W3 m ρ c) _
    (inCount (W2 m ρ c) _
      ((Keep.hostOps0_1_args (W1 m ρ c) main_arg2 (by decide)).trans (Keep.hostOps0_args (W0 m ρ c) main_arg2 (by decide)))
      ((ones0_kept1 (W1 m ρ c)).trans (ones0 (W0 m ρ c))))
    (one3 (W2 m ρ c)))

end Cert.KernelIdeal.Norms

end
-- ==== Proof.Spec.lean ====
/-
  The three dense stages of the network as whole-array functions over the extended reals, entry by entry.
  A linear stage is x·W + b: entry (r, c) is the sum over k of x(r, k)·W(k, c), plus b(c).
  The graph-convolution stage scales row r of the aggregated messages by the destination norm of node r
  before the product, optionally clamps the result at zero, adds the residual and clamps again.
  The pooling head is three linear stages with a clamp at zero after the first two.
  No program is imported here: these are the functions both programs are shown to compute.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `r` rows and `c` columns. -/
abbrev Mat (r c : Nat) : Type := FVec Ideal (⟨2, ![r, c]⟩ : Shape) .f32
/-- A vector of extended reals of length `n`. -/
abbrev Row (n : Nat) : Type := FVec Ideal (⟨1, ![n]⟩ : Shape) .f32

/-- Entry (r, c) of x·W + b. -/
def linearAt {R K C : Nat} (x : Mat R K) (w : Mat K C) (b : Row C) (r : Fin R) (c : Fin C) : EReal :=
  (∑ k : Fin K, x (ix2 r k) * w (ix2 k c)) + b (ix1 c)

/-- The projection stage x·W + b on 50000 node rows of 128 features. -/
def proj (x : Mat 50000 128) (w : Mat 128 128) (b : Row 128) : Mat 50000 128 :=
  fun i => linearAt x w b (i 0) (i 1)

/-- Entry (r, c) of the graph-convolution stage: with s(r, k) = agg(r, k)·nd(r, 0) and
    t = (s·W + b)(r, c), the entry is max(h(r, c) + max(t, 0), 0) when the inner clamp is on
    and max(h(r, c) + t, 0) when it is off. -/
def gcnAt (inner : Bool) (agg : Mat 50000 128) (nd : Mat 50000 1) (w : Mat 128 128) (b : Row 128)
    (h : Mat 50000 128) (r : Fin 50000) (c : Fin 128) : EReal :=
  let t : EReal := (∑ k : Fin 128, (agg (ix2 r k) * nd (ix2 r 0)) * w (ix2 k c)) + b (ix1 c)
  max (h (ix2 r c) + (if inner then max t 0 else t)) 0

/-- The graph-convolution stage as a whole array. -/
def gcn (inner : Bool) (agg : Mat 50000 128) (nd : Mat 50000 1) (w : Mat 128 128) (b : Row 128)
    (h : Mat 50000 128) : Mat 50000 128 :=
  fun i => gcnAt inner agg nd w b h (i 0) (i 1)

/-- The first hidden layer of the pooling head, clamped at zero. -/
def hid0 (x : Mat 512 128) (w0 : Mat 128 256) (b0 : Row 256) : Mat 512 256 :=
  fun i => max (linearAt x w0 b0 (i 0) (i 1)) 0

/-- The second hidden layer of the pooling head, clamped at zero. -/
def hid1 (x : Mat 512 128) (w0 : Mat 128 256) (b0 : Row 256) (w1 : Mat 256 256) (b1 : Row 256) : Mat 512 256 :=
  fun i => max (linearAt (hid0 x w0 b0) w1 b1 (i 0) (i 1)) 0

/-- The pooling head: the last linear layer over the two clamped hidden layers. -/
def mlp (x : Mat 512 128) (w0 : Mat 128 256) (b0 : Row 256) (w1 : Mat 256 256) (b1 : Row 256)
    (w2 : Mat 256 256) (b2 : Row 256) : Mat 512 256 :=
  fun i => linearAt (hid1 x w0 b0 w1 b1) w2 b2 (i 0) (i 1)

end Cert.Spec

end
-- ==== Proof.ProjKernel.lean ====
/-
  The projection region of the kernel program leaves x·W + b in its output array.
  One grid point t of 25 reads rows 2000·t … 2000·t + 1999 of x and all of W and b, and stores, at
  row p and column q of its block, the sum over k of x(2000·t + p, k)·W(k, q) plus b(q); the 25 row
  blocks tile the 50000 rows, so the array ends as the whole-array function of the specification.
-/
import proofs.«147925_j10436770529875_1_alg».proof.Proof.Gen.KernelIdeal.Frame
import proofs.«147925_j10436770529875_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an entry -/

/-- The dimension numbers of the body's product: rows × contraction times contraction × columns. -/
abbrev D0 : DotDims S2000x128 S128x128 S2000x128 := dot_S2000x128_S128x128_S2000x128_1_0_0_1_n_n

theorem lhs_0 (i : S2000x128.Idx) (q : D0.contr.Idx) : (D0.lhsIdx i q 0).val = (i 0).val := by
  unfold DotDims.lhsIdx
  rw [dif_neg (show ¬(0 : Fin S2000x128.rank) ∈ D0.lhsBatch by decide), dif_pos (show (0 : Fin S2000x128.rank) ∈ D0.lhsNonContracting by decide)]
  rfl
theorem lhs_1 (i : S2000x128.Idx) (q : D0.contr.Idx) : (D0.lhsIdx i q 1).val = (q ⟨0, by decide⟩).val :=
  D0.lhsIdx_val_of_single rfl i q
theorem rhs_0 (i : S2000x128.Idx) (q : D0.contr.Idx) : (D0.rhsIdx i q 0).val = (q ⟨0, by decide⟩).val :=
  D0.rhsIdx_val_of_single rfl i q
theorem rhs_1 (i : S2000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- The product into a zero accumulator at (p, q): the sum over k of l(p, k)·r(k, q). -/
theorem matmul_at (l : FVec Ideal S2000x128 .bf16) (r : FVec Ideal S128x128 .bf16) (p : Fin 2000) (q : Fin 128) :
    matmul D0 none l r (constant (F := Ideal) S2000x128 .f32 0x00000000#32) (ix2 p q)
      = ∑ k : Fin 128, l (ix2 p k) * r (ix2 k q) := by
  refine (Ideal.matmul_constant_zero_apply D0 none l r (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs_0 _ _
    | ⟨1, _⟩ => exact (lhs_1 _ _).trans hk)
  have er : D0.rhsIdx (ix2 p q) ((contrEquiv1 D0 128 rfl rfl).symm k) = ix2 k q := funext fun a => Fin.ext (by
    match a with
    | ⟨0, _⟩ => exact (rhs_0 _ _).trans hk
    | ⟨1, _⟩ => exact rhs_1 _ _)
  rw [el, er]

/-- The bias row given a unit leading axis and repeated down the 2000 rows reads b(q) at (p, q). -/
theorem bias_at {α : Type} (b : S128.Idx → α) (h1 : S128.ShapeCasts S1x128) (h2 : S1x128.Broadcasts S2000x128)
    (p : Fin 2000) (q : Fin 128) :
    broadcastTo S2000x128 (shapeCast S1x128 b h1) h2 (ix2 p q) = b (ix1 q) := by
  refine (broadcastTo_apply (shapeCast S1x128 b h1) h2 (ix2 p q) (ix2 (0 : Fin 1) q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  · refine (shapeCast_addUnit_apply ![128] b h1 (ix2 (0 : Fin 1) q)).trans ?_
    exact congrArg b (funext fun a => by match a with | ⟨0, _⟩ => rfl)

/-- The body's stored value at (p, q): the sum over k of x(p, k)·W(k, q), plus b(q). -/
theorem pay_at (v0 : Vec Ideal S2000x128 .f32) (v2 : Vec Ideal S128x128 .f32) (v5 : Vec Ideal S128 .f32)
    (p : Fin 2000) (q : Fin 128) :
    Gen.k0_pay1 (F := Ideal) v0 v2 v5 (ix2 p q) = (∑ k : Fin 128, v0 (ix2 p k) * v2 (ix2 k q)) + v5 (ix1 q) := by
  unfold Gen.k0_pay1
  refine (addf_apply _ _ (ix2 p q)).trans ?_
  refine congrArg₂ (· + ·) ?_ ?_
  · exact matmul_at (truncf .bf16 v0 bitsLt_bf16_f32) (truncf .bf16 v2 bitsLt_bf16_f32) p q
  · exact bias_at v5 shapeCasts_S128_S1x128 broadcasts_S1x128_S2000x128 p q

/-! ## The windows' blocks -/

theorem hz2 : (![0, 0] : Fin 2 → Nat) = fun _ => 0 := funext fun a => by fin_cases a <;> rfl
theorem hz1 : (![0] : Fin 1 → Nat) = fun _ => 0 := funext fun a => by fin_cases a; rfl

/-- The printed index maps over the grid: point t takes row block t of x and of the output, and block 0 of W and b. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section Blocks
variable (V : (c : Dev nD) → (b : Ref sig .tc) → Buf (Elt Ideal) ((c : Thread nD τ).loc b))

/-- Row p of point t's block of x is row 2000·t + p of x. -/
theorem blk0_at (c : Dev nD) (t : Fin cfg0.N) (p : Fin 2000) (k : Fin 128) (i : S50000x128.Idx)
    (h0 : (i 0).val = t.val * 2000 + p.val) (h1 : (i 1).val = k.val) :
    (Gen.iblk0 V c 0 t : Vec Ideal S2000x128 .f32) (ix2 p k) = (V c main_arg0 : Vec Ideal S50000x128 .f32) i := by
  obtain ⟨f0, f1, -⟩ := idx_facts t
  unfold Gen.iblk0
  show (V c main_arg0 : Vec Ideal S50000x128 .f32) (((cfg0.win 0).blk t).view.emb (ix2 p k)) = (V c main_arg0 : Vec Ideal S50000x128 .f32) i
  refine congrArg (V c main_arg0 : Vec Ideal S50000x128 .f32) (funext fun a => Fin.ext ?_)
  match a with
  | ⟨0, _⟩ => show win0_0.index t (0 : Fin 2) * 2000 + 1 * p.val = (i 0).val; rw [f0, h0]; omega
  | ⟨1, _⟩ => show win0_0.index t (1 : Fin 2) * 128 + 1 * k.val = (i 1).val; rw [f1, h1]; omega

/-- Every point's block of W is W. -/
theorem blk1_at (c : Dev nD) (t : Fin cfg0.N) (k q : Fin 128) :
    (Gen.iblk0 V c 1 t : Vec Ideal S128x128 .f32) (ix2 k q) = (V c main_arg4 : Vec Ideal S128x128 .f32) (ix2 k q) := by
  obtain ⟨-, -, f2, f3, -⟩ := idx_facts t
  unfold Gen.iblk0
  show (V c main_arg4 : Vec Ideal S128x128 .f32) (((cfg0.win 1).blk t).view.emb (ix2 k q)) = (V c main_arg4 : Vec Ideal S128x128 .f32) (ix2 k q)
  refine congrArg (V c main_arg4 : Vec Ideal S128x128 .f32) (funext fun a => Fin.ext ?_)
  match a with
  | ⟨0, _⟩ => show win0_1.index t (0 : Fin 2) * 128 + 1 * k.val = k.val; rw [f2]; omega
  | ⟨1, _⟩ => show win0_1.index t (1 : Fin 2) * 128 + 1 * q.val = q.val; rw [f3]; omega

/-- Every point's block of b is b. -/
theorem blk2_at (c : Dev nD) (t : Fin cfg0.N) (q : Fin 128) :
    (Gen.iblk0 V c 2 t : Vec Ideal S128 .f32) (ix1 q) = (V c main_arg5 : Vec Ideal S128 .f32) (ix1 q) := by
  obtain ⟨-, -, -, -, f4, -⟩ := idx_facts t
  unfold Gen.iblk0
  show (V c main_arg5 : Vec Ideal S128 .f32) (((cfg0.win 2).blk t).view.emb (ix1 q)) = (V c main_arg5 : Vec Ideal S128 .f32) (ix1 q)
  refine congrArg (V c main_arg5 : Vec Ideal S128 .f32) (funext fun a => Fin.ext ?_)
  match a with
  | ⟨0, _⟩ => show win0_2.index t (0 : Fin 1) * 128 + 1 * q.val = q.val; rw [f4]; omega

end Blocks

/-! ## From blocks to the array -/

/-- One stored entry against the whole-array function: if the block of x holds rows 2000·n + p of x, and the
    blocks of W and b are W and b, the body's value at (p, q) is the projection at row 2000·n + p, column q. -/
theorem point (A0 : Vec Ideal S50000x128 .f32) (A1 : Vec Ideal S128x128 .f32) (A2 : Vec Ideal S128 .f32)
    (B0 : Vec Ideal S2000x128 .f32) (B1 : Vec Ideal S128x128 .f32) (B2 : Vec Ideal S128 .f32) (n : Nat)
    (h0 : ∀ (p : Fin 2000) (k : Fin 128) (i : S50000x128.Idx), (i 0).val = n * 2000 + p.val → (i 1).val = k.val → B0 (ix2 p k) = A0 i)
    (h1 : ∀ k q : Fin 128, B1 (ix2 k q) = A1 (ix2 k q))
    (h2 : ∀ q : Fin 128, B2 (ix1 q) = A2 (ix1 q))
    (p : Fin 2000) (q : Fin 128) (i : S50000x128.Idx) (hi0 : (i 0).val = n * 2000 + p.val) (hi1 : (i 1).val = q.val) :
    Gen.k0_pay1 (F := Ideal) B0 B1 B2 (ix2 p q) = Cert.Spec.proj A0 A1 A2 i := by
  rw [pay_at]
  obtain ⟨r, c, rfl⟩ : ∃ (r : Fin 50000) (c : Fin 128), i = ix2 r c := ⟨i 0, i 1, eq_ix2 i⟩
  obtain rfl : c = q := Fin.ext hi1
  show _ = (∑ k : Fin 128, A0 (ix2 r k) * A1 (ix2 k c)) + A2 (ix1 c)
  rw [h2]
  refine congrArg (· + A2 (ix1 c)) (Finset.sum_congr rfl fun k _ => ?_)
  rw [h0 p k (ix2 r k) hi0 rfl, h1]

section Array
variable (V : (c : Dev nD) → (b : Ref sig .tc) → Buf (Elt Ideal) ((c : Thread nD τ).loc b))

/-- What point t writes back is block t of the projection of the arrays as the region finds them. -/
theorem flushed_eq (c : Dev nD) (t : Fin cfg0.N) :
    (Gen.dat0 (F := Ideal) V c).flushed 3 t
      = ((cfg0.win 3).blk t).view.read (Elt Ideal) (Cert.Spec.proj (V c main_arg0) (V c main_arg4) (V c main_arg5)) := by
  show (cfg0.win 3).cut (grid0.coords t) ((Gen.dat0 (F := Ideal) V c).after 3 t) = _
  rw [Gen.after0_3]
  unfold Gen.out0_3
  rw [View.canon_unit_zero hz2]
  simp only [View.ld_unit_zero (S := S2000x128) hz2, View.ld_unit_zero (S := S128x128) hz2, View.ld_unit_zero (S := S128) hz1]
  obtain ⟨-, -, -, -, -, f5, f6⟩ := idx_facts t
  funext j
  obtain ⟨p, q, rfl⟩ : ∃ (p : Fin 2000) (q : Fin 128), j = ix2 p q := ⟨j 0, j 1, eq_ix2 j⟩
  show Gen.k0_pay1 (F := Ideal) (Gen.iblk0 V c 0 t) (Gen.iblk0 V c 1 t) (Gen.iblk0 V c 2 t) (ix2 p q)
    = Cert.Spec.proj (V c main_arg0) (V c main_arg4) (V c main_arg5) (((cfg0.win 3).blk t).view.emb (ix2 p q))
  refine point (V c main_arg0) (V c main_arg4) (V c main_arg5) (Gen.iblk0 V c 0 t) (Gen.iblk0 V c 1 t) (Gen.iblk0 V c 2 t) t.val
    (fun p k i h0 h1 => blk0_at V c t p k i h0 h1) (fun k q => blk1_at V c t k q) (fun q => blk2_at V c t q)
    p q (((cfg0.win 3).blk t).view.emb (ix2 p q)) ?_ ?_
  · show win0_3.index t (0 : Fin 2) * 2000 + 1 * p.val = t.val * 2000 + p.val; rw [f5]; omega
  · show win0_3.index t (1 : Fin 2) * 128 + 1 * q.val = q.val; rw [f6]; omega

/-- Row r of the output is in the block of point r / 2000. -/
theorem cover (i : S50000x128.Idx) :
    ∃ t : Fin cfg0.N, (cfg0.win 3).flush t = true ∧ i ∈ ((cfg0.win 3).blk t).view.set := by
  have hN : cfg0.N = 25 := Gen.N_0
  have hi0 : (i 0).val < 50000 := (i 0).isLt
  have hi1 : (i 1).val < 128 := (i 1).isLt
  have ht : (i 0).val / 2000 < cfg0.N := by rw [hN]; omega
  obtain ⟨-, -, -, -, -, f5, f6⟩ := idx_facts ⟨(i 0).val / 2000, ht⟩
  have f5' : win0_3.index ⟨(i 0).val / 2000, ht⟩ (0 : Fin 2) = (i 0).val / 2000 := f5
  refine ⟨⟨(i 0).val / 2000, ht⟩, Gen.flush0_3 _, ?_⟩
  show i ∈ ((View.whole main_v15).slice (win0_3.rect ⟨(i 0).val / 2000, ht⟩)).set
  rw [View.set_slice_whole, Rect.mem_set_unit]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [f5']; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [f6]; omega

/-- The output array after the region: the projection of the arrays as the region finds them. -/
theorem arr (c : Dev nD) :
    (Gen.dat0 (F := Ideal) V c).arrAt 3 cfg0.N
      = Cert.Spec.proj (V c (Pipeline.arrRef spec0 0)) (V c (Pipeline.arrRef spec0 1)) (V c (Pipeline.arrRef spec0 2)) :=
  (Gen.dat0 (F := Ideal) V c).arrAt_eq_of_cover 3 (Cert.Spec.proj (V c main_arg0) (V c main_arg4) (V c main_arg5))
    (fun t _ => flushed_eq V c t) cover

end Array

end Cert.KernelIdeal.Stage0

end
-- ==== Proof.ProjRef.lean ====
/-
  The reference's projection stage is the linear stage x·W + b of the specification, entry by entry:
  the product's entry (r, c) is the sum over k of x(r, k)·W(k, c), and the two broadcasts place b(c) at (r, c).
-/
import proofs.«147925_j10436770529875_1_alg».proof.Proof.Gen.ReferenceIdeal.Read
import proofs.«147925_j10436770529875_1_alg».proof.Proof.Spec

noncomputable section

namespace Cert.ReferenceIdeal.Stage

open Cert.ReferenceIdeal Cert.ReferenceIdeal.Read Idealize.ShloMosaic Idealize.ShloMosaic.ValueIdx

/-- The projection stage of the reference is x·W + b. -/
theorem h0 (x0 : (⟨S50000x128, .f32⟩ : BufTy).Contents (Elt Ideal)) (x4 : (⟨S128x128, .f32⟩ : BufTy).Contents (Elt Ideal))
    (x5 : (⟨S128, .f32⟩ : BufTy).Contents (Elt Ideal)) :
    val_main_v16 (F := Ideal) x0 x4 x5 = Cert.Spec.proj x0 x4 x5 := by
  funext i
  obtain ⟨r, c, rfl⟩ : ∃ (r : Fin 50000) (c : Fin 128), i = ix2 r c := ⟨i 0, i 1, eq_ix2 i⟩
  rw [val_main_v16_apply, val_main_v13_apply, val_main_v15_apply, val_main_v14_apply]
  have el : ∀ k : Fin 128, lidx_main_v13 (ix2 r c) k = ix2 r k := fun k =>
    funext fun a => Fin.ext (by match a with | ⟨0, _⟩ => rfl | ⟨1, _⟩ => rfl)
  have er : ∀ k : Fin 128, ridx_main_v13 (ix2 r c) k = ix2 k c := fun k =>
    funext fun a => Fin.ext (by match a with | ⟨0, _⟩ => rfl | ⟨1, _⟩ => rfl)
  have eb : idx_main_v14 (idx_main_v15 (ix2 r c)) = ix1 c :=
    funext fun a => Fin.ext (by match a with | ⟨0, _⟩ => rfl)
  simp only [el, er, eb, Ideal.addf_def]
  rfl

end Cert.ReferenceIdeal.Stage

end
-- ==== Proof.GcnKernelLib.lean ====
/-
  The fused graph-convolution block at one element, over the extended reals.
  A block of 2000 rows is max(h + max((agg·nd)·W + b, 0), 0) (the inner clamp present in four of the five stages);
  at row p and column q it is the sum over k of (agg(p, k)·nd(p, 0))·W(k, q), plus b(q), clamped, added to h(p, q),
  clamped. When the five blocks are rows r … of the five arrays, that is the stage's whole-array function at (r, q). Also here: a column [a, 1] broadcast along its unit axis reads its row's one entry, and a vector [b]
  laid out as one row and broadcast over the rows reads its column's entry.
-/
import proofs.«147925_j10436770529875_1_alg».proof.Proof.Gen.KernelIdeal.Skeleton
import proofs.«147925_j10436770529875_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.StageG

open Cert.KernelIdeal Cert.KernelIdeal.Gen Idealize.ShloMosaic Idealize.ShloMosaic.ValueIdx

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` laid out as the row `[1, b]` and broadcast to `[a, b]` reads, at `(p, c)`, its entry `c`. -/
theorem row_of_vector_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The product's left index at output `j` and contraction index `k`: row of `j`, column `k`. -/
theorem dot_lhs_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_lhs_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k
/-- The product's right index: row `k`, column of `j`. -/
theorem dot_rhs_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k
theorem dot_rhs_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into the zero accumulator at `(p, q)`: the sum over the one contracted axis. -/
theorem matmul_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact dot_lhs_0 _ _
      | ⟨1, _⟩ => exact (dot_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (dot_rhs_0 _ _).trans hk
      | ⟨1, _⟩ => exact dot_rhs_1 _ _)
  rw [el, er]

/-- The pre-activation of the block at `(p, q)`: the scaled rows times the weight, plus the bias. -/
def pre (x0 : Vec Ideal S2000x128 .f32) (x1 : Vec Ideal S2000x1 .f32) (x2 : Vec Ideal S128x128 .f32)
    (x3 : Vec Ideal S128 .f32) (p : Fin 2000) (q : Fin 128) : EReal :=
  (∑ k : Fin 128, (x0 (ix2 p k) * x1 (ix2 p 0)) * x2 (ix2 k q)) + x3 (ix1 q)

/-- The block with the inner clamp, at `(p, q)`. -/
theorem pay_inner_apply (x0 : Vec Ideal S2000x128 .f32) (x1 : Vec Ideal S2000x1 .f32) (x2 : Vec Ideal S128x128 .f32)
    (x3 : Vec Ideal S128 .f32) (x4 : Vec Ideal S2000x128 .f32) (p : Fin 2000) (q : Fin 128) :
    k1_pay1 (F := Ideal) x0 x1 x2 x3 x4 (ix2 p q) = max (x4 (ix2 p q) + max (pre x0 x1 x2 x3 p q) 0) 0 := by
  unfold k1_pay1
  simp only [shapeCast_self]
  show max (x4 (ix2 p q) + max (matmul dot_S2000x128_S128x128_S2000x128_1_0_0_1_n_n none _ _ (constant (F := Ideal) S2000x128 .f32 0x00000000#32) (ix2 p q) + broadcastTo S2000x128 (shapeCast S1x128 x3 shapeCasts_S128_S1x128) broadcasts_S1x128_S2000x128 (ix2 p q)) (Ideal.ofBits .f32 0x00000000#32)) (Ideal.ofBits .f32 0x00000000#32) = _
  rw [matmul_apply, row_of_vector_apply, Ideal.ofBits_zero_f32]
  unfold pre
  refine congrArg (fun s : EReal => max (x4 (ix2 p q) + max (s + x3 (ix1 q)) 0) 0) (Finset.sum_congr rfl fun k _ => ?_)
  show (x0 (ix2 p k) * broadcastTo S2000x128 x1 broadcasts_S2000x1_S2000x128 (ix2 p k)) * x2 (ix2 k q) = _
  rw [broadcastTo_a1_ab_apply]

/-- The four clamped stages have one and the same block function. -/
theorem k2_pay1_eq (x0 : Vec Ideal S2000x128 .f32) (x1 : Vec Ideal S2000x1 .f32) (x2 : Vec Ideal S128x128 .f32)
    (x3 : Vec Ideal S128 .f32) (x4 : Vec Ideal S2000x128 .f32) :
    k2_pay1 (F := Ideal) x0 x1 x2 x3 x4 = k1_pay1 (F := Ideal) x0 x1 x2 x3 x4 := rfl
theorem k3_pay1_eq (x0 : Vec Ideal S2000x128 .f32) (x1 : Vec Ideal S2000x1 .f32) (x2 : Vec Ideal S128x128 .f32)
    (x3 : Vec Ideal S128 .f32) (x4 : Vec Ideal S2000x128 .f32) :
    k3_pay1 (F := Ideal) x0 x1 x2 x3 x4 = k1_pay1 (F := Ideal) x0 x1 x2 x3 x4 := rfl
theorem k4_pay1_eq (x0 : Vec Ideal S2000x128 .f32) (x1 : Vec Ideal S2000x1 .f32) (x2 : Vec Ideal S128x128 .f32)
    (x3 : Vec Ideal S128 .f32) (x4 : Vec Ideal S2000x128 .f32) :
    k4_pay1 (F := Ideal) x0 x1 x2 x3 x4 = k1_pay1 (F := Ideal) x0 x1 x2 x3 x4 := rfl

/-- The last stage's block, without the inner clamp, at `(p, q)`. -/
theorem pay_plain_apply (x0 : Vec Ideal S2000x128 .f32) (x1 : Vec Ideal S2000x1 .f32) (x2 : Vec Ideal S128x128 .f32)
    (x3 : Vec Ideal S128 .f32) (x4 : Vec Ideal S2000x128 .f32) (p : Fin 2000) (q : Fin 128) :
    k5_pay1 (F := Ideal) x0 x1 x2 x3 x4 (ix2 p q) = max (x4 (ix2 p q) + pre x0 x1 x2 x3 p q) 0 := by
  unfold k5_pay1
  simp only [shapeCast_self]
  show max (x4 (ix2 p q) + (matmul dot_S2000x128_S128x128_S2000x128_1_0_0_1_n_n none _ _ (constant (F := Ideal) S2000x128 .f32 0x00000000#32) (ix2 p q) + broadcastTo S2000x128 (shapeCast S1x128 x3 shapeCasts_S128_S1x128) broadcasts_S1x128_S2000x128 (ix2 p q))) (Ideal.ofBits .f32 0x00000000#32) = _
  rw [matmul_apply, row_of_vector_apply, Ideal.ofBits_zero_f32]
  unfold pre
  refine congrArg (fun s : EReal => max (x4 (ix2 p q) + (s + x3 (ix1 q))) 0) (Finset.sum_congr rfl fun k _ => ?_)
  show (x0 (ix2 p k) * broadcastTo S2000x128 x1 broadcasts_S2000x1_S2000x128 (ix2 p k)) * x2 (ix2 k q) = _
  rw [broadcastTo_a1_ab_apply]

/-- Blocks that are rows `r` of the aggregated messages, the norm and the residual, and the whole weight and bias,
    give at `(p, q)` the stage's whole-array function at `(r, q)`: the clamped stages … -/
theorem gcn_inner_at (A0 : Cert.Spec.Mat 50000 128) (A1 : Cert.Spec.Mat 50000 1) (A2 : Cert.Spec.Mat 128 128)
    (A3 : Cert.Spec.Row 128) (A4 : Cert.Spec.Mat 50000 128)
    (x0 : Vec Ideal S2000x128 .f32) (x1 : Vec Ideal S2000x1 .f32) (x2 : Vec Ideal S128x128 .f32)
    (x3 : Vec Ideal S128 .f32) (x4 : Vec Ideal S2000x128 .f32) (p : Fin 2000) (q : Fin 128) (r : Fin 50000)
    (h0 : ∀ k : Fin 128, x0 (ix2 p k) = A0 (ix2 r k)) (h1 : x1 (ix2 p 0) = A1 (ix2 r 0))
    (h2 : ∀ k : Fin 128, x2 (ix2 k q) = A2 (ix2 k q)) (h3 : x3 (ix1 q) = A3 (ix1 q))
    (h4 : x4 (ix2 p q) = A4 (ix2 r q)) :
    max (x4 (ix2 p q) + max (pre x0 x1 x2 x3 p q) 0) 0 = Cert.Spec.gcn true A0 A1 A2 A3 A4 (ix2 r q) := by
  show _ = Cert.Spec.gcnAt true A0 A1 A2 A3 A4 r q
  unfold pre Cert.Spec.gcnAt
  rw [h1, h3, h4]
  simp only [h0, h2, if_true]

/-- … and the last stage. -/
theorem gcn_plain_at (A0 : Cert.Spec.Mat 50000 128) (A1 : Cert.Spec.Mat 50000 1) (A2 : Cert.Spec.Mat 128 128)
    (A3 : Cert.Spec.Row 128) (A4 : Cert.Spec.Mat 50000 128)
    (x0 : Vec Ideal S2000x128 .f32) (x1 : Vec Ideal S2000x1 .f32) (x2 : Vec Ideal S128x128 .f32)
    (x3 : Vec Ideal S128 .f32) (x4 : Vec Ideal S2000x128 .f32) (p : Fin 2000) (q : Fin 128) (r : Fin 50000)
    (h0 : ∀ k : Fin 128, x0 (ix2 p k) = A0 (ix2 r k)) (h1 : x1 (ix2 p 0) = A1 (ix2 r 0))
    (h2 : ∀ k : Fin 128, x2 (ix2 k q) = A2 (ix2 k q)) (h3 : x3 (ix1 q) = A3 (ix1 q))
    (h4 : x4 (ix2 p q) = A4 (ix2 r q)) :
    max (x4 (ix2 p q) + pre x0 x1 x2 x3 p q) 0 = Cert.Spec.gcn false A0 A1 A2 A3 A4 (ix2 r q) := by
  show _ = Cert.Spec.gcnAt false A0 A1 A2 A3 A4 r q
  unfold pre Cert.Spec.gcnAt
  rw [h1, h3, h4]
  simp only [h0, h2, Bool.false_eq_true, if_false]

end Cert.KernelIdeal.StageG

end
-- ==== Proof.GcnKernel1.lean ====
/-
  Graph-convolution stage 1 of the kernel program as a whole array: after the region's 25 grid points the output
  array is the stage's function of the five arrays the region reads. Point t writes rows 2000·t … 2000·t + 1999:
  its blocks of the aggregated messages, the norm and the residual are those rows, the weight and bias blocks are the
  whole arrays, so what it writes back is that block of the whole-array function; row r is written by point r / 2000.
-/
import proofs.«147925_j10436770529875_1_alg».proof.Proof.Gen.KernelIdeal.Frame
import proofs.«147925_j10436770529875_1_alg».proof.Proof.Spec
import proofs.«147925_j10436770529875_1_alg».proof.Proof.GcnKernelLib
import Idealize.ShloMosaic.Lib.Pipeline.Value
import Idealize.ShloMosaic.Lib.ValueIdx

noncomputable section

namespace Cert.KernelIdeal.StageG

open Cert.KernelIdeal Cert.KernelIdeal.Gen Idealize.ShloMosaic Idealize.ShloMosaic.TcCoe Idealize.SL.Sem
open Idealize.ShloMosaic.ValueIdx
open Idealize.ShloMosaic.Pipeline (Dat)

theorem zero2_1 : (![0, 0] : Fin 2 → Nat) = fun _ => 0 := funext fun a => by fin_cases a <;> rfl
theorem zero1_1 : (![0] : Fin 1 → Nat) = fun _ => 0 := funext fun a => by fin_cases a; rfl

/-- The block index maps over the grid: the row-blocked windows sit at block row `t`, column block 0; the weight and
    the bias at block 0. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

section Blocks
variable (V : (c : Dev nD) → (b : Ref sig .tc) → Buf (Elt Ideal) ((c : Thread nD τ).loc b))

/-- Row `p` of point `t`'s block of the aggregated messages is row 2000·t + p of the array. -/
theorem agg1_at (c : Dev nD) (t : Fin cfg1.N) (p : Fin 2000) (k : Fin 128) (i : S50000x128.Idx)
    (h0 : (i 0).val = t.val * 2000 + p.val) (h1 : (i 1).val = k.val) :
    (iblk1 V c 0 t : Vec Ideal S2000x128 .f32) (ix2 p k) = (V c main_v27 : Vec Ideal S50000x128 .f32) i := by
  obtain ⟨f0, f1, -⟩ := index_facts1 t
  unfold iblk1
  show (V c main_v27 : Vec Ideal S50000x128 .f32) (((cfg1.win 0).blk t).view.emb (ix2 p k)) = (V c main_v27 : Vec Ideal S50000x128 .f32) i
  refine congrArg (V c main_v27 : Vec Ideal S50000x128 .f32) (funext fun a => Fin.ext ?_)
  match a with
  | ⟨0, _⟩ => show win1_0.index t (0 : Fin 2) * 2000 + 1 * p.val = (i 0).val; rw [f0, h0]; omega
  | ⟨1, _⟩ => show win1_0.index t (1 : Fin 2) * 128 + 1 * k.val = (i 1).val; rw [f1, h1]; omega

/-- Row `p` of point `t`'s block of the destination norm is row 2000·t + p of the column. -/
theorem norm1_at (c : Dev nD) (t : Fin cfg1.N) (p : Fin 2000) (i : S50000x1.Idx)
    (h0 : (i 0).val = t.val * 2000 + p.val) :
    (iblk1 V c 1 t : Vec Ideal S2000x1 .f32) (ix2 p (0 : Fin 1)) = (V c main_v14 : Vec Ideal S50000x1 .f32) i := by
  obtain ⟨-, -, f0, f1, -⟩ := index_facts1 t
  have h1 : (i 1).val = 0 := by have : (i 1).val < 1 := (i 1).isLt; omega
  unfold iblk1
  show (V c main_v14 : Vec Ideal S50000x1 .f32) (((cfg1.win 1).blk t).view.emb (ix2 p (0 : Fin 1))) = (V c main_v14 : Vec Ideal S50000x1 .f32) i
  refine congrArg (V c main_v14 : Vec Ideal S50000x1 .f32) (funext fun a => Fin.ext ?_)
  match a with
  | ⟨0, _⟩ => show win1_1.index t (0 : Fin 2) * 2000 + 1 * p.val = (i 0).val; rw [f0, h0]; omega
  | ⟨1, _⟩ => show win1_1.index t (1 : Fin 2) * 1 + 1 * 0 = (i 1).val; rw [f1, h1]

/-- Every point's block of the weight is the weight. -/
theorem weight1_at (c : Dev nD) (t : Fin cfg1.N) (k q : Fin 128) :
    (iblk1 V c 2 t : Vec Ideal S128x128 .f32) (ix2 k q) = (V c main_v29 : Vec Ideal S128x128 .f32) (ix2 k q) := by
  obtain ⟨-, -, -, -, f0, f1, -⟩ := index_facts1 t
  unfold iblk1
  show (V c main_v29 : Vec Ideal S128x128 .f32) (((cfg1.win 2).blk t).view.emb (ix2 k q)) = (V c main_v29 : Vec Ideal S128x128 .f32) (ix2 k q)
  refine congrArg (V c main_v29 : Vec Ideal S128x128 .f32) (funext fun a => Fin.ext ?_)
  match a with
  | ⟨0, _⟩ => show win1_2.index t (0 : Fin 2) * 128 + 1 * k.val = k.val; rw [f0]; omega
  | ⟨1, _⟩ => show win1_2.index t (1 : Fin 2) * 128 + 1 * q.val = q.val; rw [f1]; omega

/-- Every point's block of the bias is the bias. -/
theorem bias1_at (c : Dev nD) (t : Fin cfg1.N) (q : Fin 128) :
    (iblk1 V c 3 t : Vec Ideal S128 .f32) (ix1 q) = (V c main_v31 : Vec Ideal S128 .f32) (ix1 q) := by
  obtain ⟨-, -, -, -, -, -, f0, -⟩ := index_facts1 t
  unfold iblk1
  show (V c main_v31 : Vec Ideal S128 .f32) (((cfg1.win 3).blk t).view.emb (ix1 q)) = (V c main_v31 : Vec Ideal S128 .f32) (ix1 q)
  refine congrArg (V c main_v31 : Vec Ideal S128 .f32) (funext fun a => Fin.ext ?_)
  match a with
  | ⟨0, _⟩ => show win1_3.index t (0 : Fin 1) * 128 + 1 * q.val = q.val; rw [f0]; omega

/-- Row `p` of point `t`'s block of the residual is row 2000·t + p of the array. -/
theorem res1_at (c : Dev nD) (t : Fin cfg1.N) (p : Fin 2000) (k : Fin 128) (i : S50000x128.Idx)
    (h0 : (i 0).val = t.val * 2000 + p.val) (h1 : (i 1).val = k.val) :
    (iblk1 V c 4 t : Vec Ideal S2000x128 .f32) (ix2 p k) = (V c main_v15 : Vec Ideal S50000x128 .f32) i := by
  obtain ⟨-, -, -, -, -, -, -, f0, f1, -⟩ := index_facts1 t
  unfold iblk1
  show (V c main_v15 : Vec Ideal S50000x128 .f32) (((cfg1.win 4).blk t).view.emb (ix2 p k)) = (V c main_v15 : Vec Ideal S50000x128 .f32) i
  refine congrArg (V c main_v15 : Vec Ideal S50000x128 .f32) (funext fun a => Fin.ext ?_)
  match a with
  | ⟨0, _⟩ => show win1_4.index t (0 : Fin 2) * 2000 + 1 * p.val = (i 0).val; rw [f0, h0]; omega
  | ⟨1, _⟩ => show win1_4.index t (1 : Fin 2) * 128 + 1 * k.val = (i 1).val; rw [f1, h1]; omega

/-- What point `t` writes back is block `t` of the stage's function of the arrays as the region finds them. -/
theorem flushed1_eq (c : Dev nD) (t : Fin cfg1.N) :
    (dat1 (F := Ideal) V c).flushed 5 t
      = ((cfg1.win 5).blk t).view.read (Elt Ideal) (Cert.Spec.gcn true (V c main_v27) (V c main_v14) (V c main_v29) (V c main_v31) (V c main_v15)) := by
  show (cfg1.win 5).cut (grid1.coords t) ((dat1 (F := Ideal) V c).after 5 t) = _
  rw [after1_5]
  unfold out1_5
  rw [View.canon_unit_zero zero2_1]
  simp only [View.ld_unit_zero (S := S2000x128) zero2_1, View.ld_unit_zero (S := S2000x1) zero2_1,
    View.ld_unit_zero (S := S128x128) zero2_1, View.ld_unit_zero (S := S128) zero1_1]
  have ht : t.val < 25 := Nat.lt_of_lt_of_eq t.isLt N_1
  obtain ⟨-, -, -, -, -, -, -, -, -, f0, f1⟩ := index_facts1 t
  funext j
  obtain ⟨p, q, rfl⟩ : ∃ (p : Fin 2000) (q : Fin 128), j = ix2 p q := ⟨j 0, j 1, eq_ix2 j⟩
  have hp : p.val < 2000 := p.isLt
  have hr : t.val * 2000 + p.val < 50000 := by omega
  have he : ((cfg1.win 5).blk t).view.emb (ix2 p q) = (ix2 (⟨t.val * 2000 + p.val, hr⟩ : Fin 50000) q : S50000x128.Idx) :=
    funext fun a => Fin.ext (by
      match a with
      | ⟨0, _⟩ => show win1_5.index t (0 : Fin 2) * 2000 + 1 * p.val = t.val * 2000 + p.val; rw [f0]; omega
      | ⟨1, _⟩ => show win1_5.index t (1 : Fin 2) * 128 + 1 * q.val = q.val; rw [f1]; omega)
  show k1_pay1 (F := Ideal) (iblk1 V c 0 t) (iblk1 V c 1 t) (iblk1 V c 2 t) (iblk1 V c 3 t) (iblk1 V c 4 t) (ix2 p q)
    = Cert.Spec.gcn true (V c main_v27) (V c main_v14) (V c main_v29) (V c main_v31) (V c main_v15) (((cfg1.win 5).blk t).view.emb (ix2 p q))
  rw [he]
  refine (pay_inner_apply (iblk1 V c 0 t) (iblk1 V c 1 t) (iblk1 V c 2 t) (iblk1 V c 3 t) (iblk1 V c 4 t) p q).trans ?_
  exact gcn_inner_at (V c main_v27) (V c main_v14) (V c main_v29) (V c main_v31) (V c main_v15)
    (iblk1 V c 0 t) (iblk1 V c 1 t) (iblk1 V c 2 t) (iblk1 V c 3 t) (iblk1 V c 4 t) p q (⟨t.val * 2000 + p.val, hr⟩ : Fin 50000)
    (fun k => agg1_at V c t p k (ix2 (⟨t.val * 2000 + p.val, hr⟩ : Fin 50000) k) rfl rfl)
    (norm1_at V c t p (ix2 (⟨t.val * 2000 + p.val, hr⟩ : Fin 50000) (0 : Fin 1)) rfl)
    (fun k => weight1_at V c t k q) (bias1_at V c t q)
    (res1_at V c t p q (ix2 (⟨t.val * 2000 + p.val, hr⟩ : Fin 50000) q) rfl rfl)

/-- Every row of the output array is in the block of the point that is its row's quotient by 2000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 2000 < cfg1.N := Nat.lt_of_lt_of_eq (by omega : (i 0).val / 2000 < 25) N_1.symm
  generalize hT : (⟨(i 0).val / 2000, hlt⟩ : Fin cfg1.N) = t
  have htv : t.val = (i 0).val / 2000 := by rw [← hT]
  obtain ⟨-, -, -, -, -, -, -, -, -, f0, f1⟩ := index_facts1 t
  refine ⟨t, flush1_5 t, ?_⟩
  show i ∈ ((View.whole main_v32).slice (win1_5.rect t)).set
  rw [View.set_slice_whole, Rect.mem_set_unit]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- The output array of stage 1 after its region: the clamped stage's function of the five arrays the region reads. -/
theorem arr1 (c : Dev nD) :
    (dat1 (F := Ideal) V c).arrAt 5 cfg1.N
      = Cert.Spec.gcn true (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5
    (Cert.Spec.gcn true (V c main_v27) (V c main_v14) (V c main_v29) (V c main_v31) (V c main_v15))
    (fun t _ => flushed1_eq V c t) cover1

end Blocks

end Cert.KernelIdeal.StageG

end
-- ==== Proof.GcnKernel2.lean ====
/-
  The second graph-convolution region of the kernel program leaves the stage's whole-array function in its output.
  One grid point t of 25 reads rows 2000·t … 2000·t + 1999 of the aggregated messages, of the destination norm
  and of the residual, and all of the weight and the bias, and stores at row p, column q of its block the stage's
  value at row 2000·t + p, column q; the 25 row blocks tile the 50000 rows.
-/
import proofs.«147925_j10436770529875_1_alg».proof.Proof.Gen.KernelIdeal.Frame
import proofs.«147925_j10436770529875_1_alg».proof.Proof.Spec
import proofs.«147925_j10436770529875_1_alg».proof.Proof.GcnKernelLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.StageG2

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: point t takes row block t of the three row-blocked inputs and of the
    output, and block 0 of the weight and the bias. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

section Blocks
variable (V : (c : Dev nD) → (b : Ref sig .tc) → Buf (Elt Ideal) ((c : Thread nD τ).loc b))

/-- Row p of point t's block of the aggregated messages is row 2000·t + p of the array. -/
theorem blk0_at (c : Dev nD) (t : Fin cfg2.N) (p : Fin 2000) (k : Fin 128) (i : S50000x128.Idx)
    (h0 : (i 0).val = t.val * 2000 + p.val) (h1 : (i 1).val = k.val) :
    (Gen.iblk2 V c 0 t : Vec Ideal S2000x128 .f32) (ix2 p k) = (V c main_v44 : Vec Ideal S50000x128 .f32) i := by
  obtain ⟨f0, f1, -⟩ := idx_facts t
  unfold Gen.iblk2
  show (V c main_v44 : Vec Ideal S50000x128 .f32) (((cfg2.win 0).blk t).view.emb (ix2 p k)) = (V c main_v44 : Vec Ideal S50000x128 .f32) i
  refine congrArg (V c main_v44 : Vec Ideal S50000x128 .f32) (funext fun a => Fin.ext ?_)
  match a with
  | ⟨0, _⟩ => show win2_0.index t (0 : Fin 2) * 2000 + 1 * p.val = (i 0).val; rw [f0, h0]; omega
  | ⟨1, _⟩ => show win2_0.index t (1 : Fin 2) * 128 + 1 * k.val = (i 1).val; rw [f1, h1]; omega

/-- Row p of point t's block of the destination norm is row 2000·t + p of the column. -/
theorem blk1_at (c : Dev nD) (t : Fin cfg2.N) (p : Fin 2000) (i : S50000x1.Idx)
    (h0 : (i 0).val = t.val * 2000 + p.val) :
    (Gen.iblk2 V c 1 t : Vec Ideal S2000x1 .f32) (ix2 p (0 : Fin 1)) = (V c main_v14 : Vec Ideal S50000x1 .f32) i := by
  obtain ⟨-, -, f2, f3, -⟩ := idx_facts t
  have h1 : (i 1).val = 0 := by have : (i 1).val < 1 := (i 1).isLt; omega
  unfold Gen.iblk2
  show (V c main_v14 : Vec Ideal S50000x1 .f32) (((cfg2.win 1).blk t).view.emb (ix2 p (0 : Fin 1))) = (V c main_v14 : Vec Ideal S50000x1 .f32) i
  refine congrArg (V c main_v14 : Vec Ideal S50000x1 .f32) (funext fun a => Fin.ext ?_)
  match a with
  | ⟨0, _⟩ => show win2_1.index t (0 : Fin 2) * 2000 + 1 * p.val = (i 0).val; rw [f2, h0]; omega
  | ⟨1, _⟩ => show win2_1.index t (1 : Fin 2) * 1 + 1 * 0 = (i 1).val; rw [f3, h1]

/-- Every point's block of the weight is the weight. -/
theorem blk2_at (c : Dev nD) (t : Fin cfg2.N) (k q : Fin 128) :
    (Gen.iblk2 V c 2 t : Vec Ideal S128x128 .f32) (ix2 k q) = (V c main_v46 : Vec Ideal S128x128 .f32) (ix2 k q) := by
  obtain ⟨-, -, -, -, f4, f5, -⟩ := idx_facts t
  unfold Gen.iblk2
  show (V c main_v46 : Vec Ideal S128x128 .f32) (((cfg2.win 2).blk t).view.emb (ix2 k q)) = (V c main_v46 : Vec Ideal S128x128 .f32) (ix2 k q)
  refine congrArg (V c main_v46 : Vec Ideal S128x128 .f32) (funext fun a => Fin.ext ?_)
  match a with
  | ⟨0, _⟩ => show win2_2.index t (0 : Fin 2) * 128 + 1 * k.val = k.val; rw [f4]; omega
  | ⟨1, _⟩ => show win2_2.index t (1 : Fin 2) * 128 + 1 * q.val = q.val; rw [f5]; omega

/-- Every point's block of the bias is the bias. -/
theorem blk3_at (c : Dev nD) (t : Fin cfg2.N) (q : Fin 128) :
    (Gen.iblk2 V c 3 t : Vec Ideal S128 .f32) (ix1 q) = (V c main_v48 : Vec Ideal S128 .f32) (ix1 q) := by
  obtain ⟨-, -, -, -, -, -, f6, -⟩ := idx_facts t
  unfold Gen.iblk2
  show (V c main_v48 : Vec Ideal S128 .f32) (((cfg2.win 3).blk t).view.emb (ix1 q)) = (V c main_v48 : Vec Ideal S128 .f32) (ix1 q)
  refine congrArg (V c main_v48 : Vec Ideal S128 .f32) (funext fun a => Fin.ext ?_)
  match a with
  | ⟨0, _⟩ => show win2_3.index t (0 : Fin 1) * 128 + 1 * q.val = q.val; rw [f6]; omega

/-- Row p of point t's block of the residual is row 2000·t + p of the array. -/
theorem blk4_at (c : Dev nD) (t : Fin cfg2.N) (p : Fin 2000) (k : Fin 128) (i : S50000x128.Idx)
    (h0 : (i 0).val = t.val * 2000 + p.val) (h1 : (i 1).val = k.val) :
    (Gen.iblk2 V c 4 t : Vec Ideal S2000x128 .f32) (ix2 p k) = (V c main_v32 : Vec Ideal S50000x128 .f32) i := by
  obtain ⟨-, -, -, -, -, -, -, f7, f8, -⟩ := idx_facts t
  unfold Gen.iblk2
  show (V c main_v32 : Vec Ideal S50000x128 .f32) (((cfg2.win 4).blk t).view.emb (ix2 p k)) = (V c main_v32 : Vec Ideal S50000x128 .f32) i
  refine congrArg (V c main_v32 : Vec Ideal S50000x128 .f32) (funext fun a => Fin.ext ?_)
  match a with
  | ⟨0, _⟩ => show win2_4.index t (0 : Fin 2) * 2000 + 1 * p.val = (i 0).val; rw [f7, h0]; omega
  | ⟨1, _⟩ => show win2_4.index t (1 : Fin 2) * 128 + 1 * k.val = (i 1).val; rw [f8, h1]; omega

/-- What point t writes back is block t of the stage's function of the arrays as the region finds them. -/
theorem flushed_eq (c : Dev nD) (t : Fin cfg2.N) :
    (Gen.dat2 (F := Ideal) V c).flushed 5 t
      = ((cfg2.win 5).blk t).view.read (Elt Ideal)
          (Cert.Spec.gcn true (V c main_v44) (V c main_v14) (V c main_v46) (V c main_v48) (V c main_v32)) := by
  show (cfg2.win 5).cut (grid2.coords t) ((Gen.dat2 (F := Ideal) V c).after 5 t) = _
  rw [Gen.after2_5]
  unfold Gen.out2_5
  rw [View.canon_unit_zero hz2]
  simp only [View.ld_unit_zero (S := S2000x128) hz2, View.ld_unit_zero (S := S2000x1) hz2,
    View.ld_unit_zero (S := S128x128) hz2, View.ld_unit_zero (S := S128) hz1]
  have hN : cfg2.N = 25 := Gen.N_2
  have ht : t.val < 25 := hN ▸ t.isLt
  obtain ⟨-, -, -, -, -, -, -, -, -, f9, f10⟩ := idx_facts t
  funext j
  obtain ⟨p, q, rfl⟩ : ∃ (p : Fin 2000) (q : Fin 128), j = ix2 p q := ⟨j 0, j 1, eq_ix2 j⟩
  have hp : p.val < 2000 := p.isLt
  have hr : t.val * 2000 + p.val < 50000 := by omega
  have he : ((cfg2.win 5).blk t).view.emb (ix2 p q) = (ix2 (⟨t.val * 2000 + p.val, hr⟩ : Fin 50000) q : S50000x128.Idx) :=
    funext fun a => Fin.ext (by
      match a with
      | ⟨0, _⟩ => show win2_5.index t (0 : Fin 2) * 2000 + 1 * p.val = t.val * 2000 + p.val; rw [f9]; omega
      | ⟨1, _⟩ => show win2_5.index t (1 : Fin 2) * 128 + 1 * q.val = q.val; rw [f10]; omega)
  show Gen.k2_pay1 (F := Ideal) (Gen.iblk2 V c 0 t) (Gen.iblk2 V c 1 t) (Gen.iblk2 V c 2 t) (Gen.iblk2 V c 3 t) (Gen.iblk2 V c 4 t) (ix2 p q)
    = Cert.Spec.gcn true (V c main_v44) (V c main_v14) (V c main_v46) (V c main_v48) (V c main_v32)
        (((cfg2.win 5).blk t).view.emb (ix2 p q))
  rw [he]
  refine ((congrFun (StageG.k2_pay1_eq (Gen.iblk2 V c 0 t) (Gen.iblk2 V c 1 t) (Gen.iblk2 V c 2 t) (Gen.iblk2 V c 3 t) (Gen.iblk2 V c 4 t)) (ix2 p q)).trans
    (StageG.pay_inner_apply (Gen.iblk2 V c 0 t) (Gen.iblk2 V c 1 t) (Gen.iblk2 V c 2 t) (Gen.iblk2 V c 3 t) (Gen.iblk2 V c 4 t) p q)).trans ?_
  exact StageG.gcn_inner_at (V c main_v44) (V c main_v14) (V c main_v46) (V c main_v48) (V c main_v32)
    (Gen.iblk2 V c 0 t) (Gen.iblk2 V c 1 t) (Gen.iblk2 V c 2 t) (Gen.iblk2 V c 3 t) (Gen.iblk2 V c 4 t) p q ⟨t.val * 2000 + p.val, hr⟩
    (fun k => blk0_at V c t p k (ix2 (⟨t.val * 2000 + p.val, hr⟩ : Fin 50000) k) rfl rfl)
    (blk1_at V c t p (ix2 (⟨t.val * 2000 + p.val, hr⟩ : Fin 50000) (0 : Fin 1)) rfl)
    (fun k => blk2_at V c t k q) (blk3_at V c t q)
    (blk4_at V c t p q (ix2 (⟨t.val * 2000 + p.val, hr⟩ : Fin 50000) q) rfl rfl)

/-- Row r of the output is in the block of point r / 2000. -/
theorem cover (i : S50000x128.Idx) :
    ∃ t : Fin cfg2.N, (cfg2.win 5).flush t = true ∧ i ∈ ((cfg2.win 5).blk t).view.set := by
  have hN : cfg2.N = 25 := Gen.N_2
  have hi0 : (i 0).val < 50000 := (i 0).isLt
  have hi1 : (i 1).val < 128 := (i 1).isLt
  have ht : (i 0).val / 2000 < cfg2.N := by rw [hN]; omega
  obtain ⟨-, -, -, -, -, -, -, -, -, f9, f10⟩ := idx_facts ⟨(i 0).val / 2000, ht⟩
  have f9' : win2_5.index ⟨(i 0).val / 2000, ht⟩ (0 : Fin 2) = (i 0).val / 2000 := f9
  refine ⟨⟨(i 0).val / 2000, ht⟩, Gen.flush2_5 _, ?_⟩
  show i ∈ ((View.whole main_v49).slice (win2_5.rect ⟨(i 0).val / 2000, ht⟩)).set
  rw [View.set_slice_whole, Rect.mem_set_unit]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [f9']; omega
  | ⟨1, _⟩ =>
    show win2_5.index ⟨(i 0).val / 2000, ht⟩ (1 : Fin 2) * 128 ≤ (i 1).val
      ∧ (i 1).val < win2_5.index ⟨(i 0).val / 2000, ht⟩ (1 : Fin 2) * 128 + 128
    rw [f10]; omega

/-- The output array after the region: the stage's function of the arrays as the region finds them. -/
theorem arr2 (c : Dev nD) :
    (Gen.dat2 (F := Ideal) V c).arrAt 5 cfg2.N
      = Cert.Spec.gcn true (V c (Pipeline.arrRef spec2 0)) (V c (Pipeline.arrRef spec2 1)) (V c (Pipeline.arrRef spec2 2))
          (V c (Pipeline.arrRef spec2 3)) (V c (Pipeline.arrRef spec2 4)) :=
  (Gen.dat2 (F := Ideal) V c).arrAt_eq_of_cover 5
    (Cert.Spec.gcn true (V c main_v44) (V c main_v14) (V c main_v46) (V c main_v48) (V c main_v32))
    (fun t _ => flushed_eq V c t) cover

end Blocks

end Cert.KernelIdeal.StageG2

end
-- ==== Proof.GcnKernel3.lean ====
/-
  The third graph-convolution region of the kernel program leaves the stage's whole-array function in its output.
  One grid point t of 25 reads rows 2000·t … 2000·t + 1999 of the aggregated messages, of the destination norm
  and of the residual, and all of the weight and the bias, and stores at row p, column q of its block the stage's
  value at row 2000·t + p, column q; the 25 row blocks tile the 50000 rows.
-/
import proofs.«147925_j10436770529875_1_alg».proof.Proof.Gen.KernelIdeal.Frame
import proofs.«147925_j10436770529875_1_alg».proof.Proof.Spec
import proofs.«147925_j10436770529875_1_alg».proof.Proof.GcnKernelLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.StageG3

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: point t takes row block t of the three row-blocked inputs and of the
    output, and block 0 of the weight and the bias. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

section Blocks
variable (V : (c : Dev nD) → (b : Ref sig .tc) → Buf (Elt Ideal) ((c : Thread nD τ).loc b))

/-- Row p of point t's block of the aggregated messages is row 2000·t + p of the array. -/
theorem blk0_at (c : Dev nD) (t : Fin cfg3.N) (p : Fin 2000) (k : Fin 128) (i : S50000x128.Idx)
    (h0 : (i 0).val = t.val * 2000 + p.val) (h1 : (i 1).val = k.val) :
    (Gen.iblk3 V c 0 t : Vec Ideal S2000x128 .f32) (ix2 p k) = (V c main_v61 : Vec Ideal S50000x128 .f32) i := by
  obtain ⟨f0, f1, -⟩ := idx_facts t
  unfold Gen.iblk3
  show (V c main_v61 : Vec Ideal S50000x128 .f32) (((cfg3.win 0).blk t).view.emb (ix2 p k)) = (V c main_v61 : Vec Ideal S50000x128 .f32) i
  refine congrArg (V c main_v61 : Vec Ideal S50000x128 .f32) (funext fun a => Fin.ext ?_)
  match a with
  | ⟨0, _⟩ => show win3_0.index t (0 : Fin 2) * 2000 + 1 * p.val = (i 0).val; rw [f0, h0]; omega
  | ⟨1, _⟩ => show win3_0.index t (1 : Fin 2) * 128 + 1 * k.val = (i 1).val; rw [f1, h1]; omega

/-- Row p of point t's block of the destination norm is row 2000·t + p of the column. -/
theorem blk1_at (c : Dev nD) (t : Fin cfg3.N) (p : Fin 2000) (i : S50000x1.Idx)
    (h0 : (i 0).val = t.val * 2000 + p.val) :
    (Gen.iblk3 V c 1 t : Vec Ideal S2000x1 .f32) (ix2 p (0 : Fin 1)) = (V c main_v14 : Vec Ideal S50000x1 .f32) i := by
  obtain ⟨-, -, f2, f3, -⟩ := idx_facts t
  have h1 : (i 1).val = 0 := by have : (i 1).val < 1 := (i 1).isLt; omega
  unfold Gen.iblk3
  show (V c main_v14 : Vec Ideal S50000x1 .f32) (((cfg3.win 1).blk t).view.emb (ix2 p (0 : Fin 1))) = (V c main_v14 : Vec Ideal S50000x1 .f32) i
  refine congrArg (V c main_v14 : Vec Ideal S50000x1 .f32) (funext fun a => Fin.ext ?_)
  match a with
  | ⟨0, _⟩ => show win3_1.index t (0 : Fin 2) * 2000 + 1 * p.val = (i 0).val; rw [f2, h0]; omega
  | ⟨1, _⟩ => show win3_1.index t (1 : Fin 2) * 1 + 1 * 0 = (i 1).val; rw [f3, h1]

/-- Every point's block of the weight is the weight. -/
theorem blk2_at (c : Dev nD) (t : Fin cfg3.N) (k q : Fin 128) :
    (Gen.iblk3 V c 2 t : Vec Ideal S128x128 .f32) (ix2 k q) = (V c main_v63 : Vec Ideal S128x128 .f32) (ix2 k q) := by
  obtain ⟨-, -, -, -, f4, f5, -⟩ := idx_facts t
  unfold Gen.iblk3
  show (V c main_v63 : Vec Ideal S128x128 .f32) (((cfg3.win 2).blk t).view.emb (ix2 k q)) = (V c main_v63 : Vec Ideal S128x128 .f32) (ix2 k q)
  refine congrArg (V c main_v63 : Vec Ideal S128x128 .f32) (funext fun a => Fin.ext ?_)
  match a with
  | ⟨0, _⟩ => show win3_2.index t (0 : Fin 2) * 128 + 1 * k.val = k.val; rw [f4]; omega
  | ⟨1, _⟩ => show win3_2.index t (1 : Fin 2) * 128 + 1 * q.val = q.val; rw [f5]; omega

/-- Every point's block of the bias is the bias. -/
theorem blk3_at (c : Dev nD) (t : Fin cfg3.N) (q : Fin 128) :
    (Gen.iblk3 V c 3 t : Vec Ideal S128 .f32) (ix1 q) = (V c main_v65 : Vec Ideal S128 .f32) (ix1 q) := by
  obtain ⟨-, -, -, -, -, -, f6, -⟩ := idx_facts t
  unfold Gen.iblk3
  show (V c main_v65 : Vec Ideal S128 .f32) (((cfg3.win 3).blk t).view.emb (ix1 q)) = (V c main_v65 : Vec Ideal S128 .f32) (ix1 q)
  refine congrArg (V c main_v65 : Vec Ideal S128 .f32) (funext fun a => Fin.ext ?_)
  match a with
  | ⟨0, _⟩ => show win3_3.index t (0 : Fin 1) * 128 + 1 * q.val = q.val; rw [f6]; omega

/-- Row p of point t's block of the residual is row 2000·t + p of the array. -/
theorem blk4_at (c : Dev nD) (t : Fin cfg3.N) (p : Fin 2000) (k : Fin 128) (i : S50000x128.Idx)
    (h0 : (i 0).val = t.val * 2000 + p.val) (h1 : (i 1).val = k.val) :
    (Gen.iblk3 V c 4 t : Vec Ideal S2000x128 .f32) (ix2 p k) = (V c main_v49 : Vec Ideal S50000x128 .f32) i := by
  obtain ⟨-, -, -, -, -, -, -, f7, f8, -⟩ := idx_facts t
  unfold Gen.iblk3
  show (V c main_v49 : Vec Ideal S50000x128 .f32) (((cfg3.win 4).blk t).view.emb (ix2 p k)) = (V c main_v49 : Vec Ideal S50000x128 .f32) i
  refine congrArg (V c main_v49 : Vec Ideal S50000x128 .f32) (funext fun a => Fin.ext ?_)
  match a with
  | ⟨0, _⟩ => show win3_4.index t (0 : Fin 2) * 2000 + 1 * p.val = (i 0).val; rw [f7, h0]; omega
  | ⟨1, _⟩ => show win3_4.index t (1 : Fin 2) * 128 + 1 * k.val = (i 1).val; rw [f8, h1]; omega

/-- What point t writes back is block t of the stage's function of the arrays as the region finds them. -/
theorem flushed_eq (c : Dev nD) (t : Fin cfg3.N) :
    (Gen.dat3 (F := Ideal) V c).flushed 5 t
      = ((cfg3.win 5).blk t).view.read (Elt Ideal)
          (Cert.Spec.gcn true (V c main_v61) (V c main_v14) (V c main_v63) (V c main_v65) (V c main_v49)) := by
  show (cfg3.win 5).cut (grid3.coords t) ((Gen.dat3 (F := Ideal) V c).after 5 t) = _
  rw [Gen.after3_5]
  unfold Gen.out3_5
  rw [View.canon_unit_zero hz2]
  simp only [View.ld_unit_zero (S := S2000x128) hz2, View.ld_unit_zero (S := S2000x1) hz2,
    View.ld_unit_zero (S := S128x128) hz2, View.ld_unit_zero (S := S128) hz1]
  have hN : cfg3.N = 25 := Gen.N_3
  have ht : t.val < 25 := hN ▸ t.isLt
  obtain ⟨-, -, -, -, -, -, -, -, -, f9, f10⟩ := idx_facts t
  funext j
  obtain ⟨p, q, rfl⟩ : ∃ (p : Fin 2000) (q : Fin 128), j = ix2 p q := ⟨j 0, j 1, eq_ix2 j⟩
  have hp : p.val < 2000 := p.isLt
  have hr : t.val * 2000 + p.val < 50000 := by omega
  have he : ((cfg3.win 5).blk t).view.emb (ix2 p q) = (ix2 (⟨t.val * 2000 + p.val, hr⟩ : Fin 50000) q : S50000x128.Idx) :=
    funext fun a => Fin.ext (by
      match a with
      | ⟨0, _⟩ => show win3_5.index t (0 : Fin 2) * 2000 + 1 * p.val = t.val * 2000 + p.val; rw [f9]; omega
      | ⟨1, _⟩ => show win3_5.index t (1 : Fin 2) * 128 + 1 * q.val = q.val; rw [f10]; omega)
  show Gen.k3_pay1 (F := Ideal) (Gen.iblk3 V c 0 t) (Gen.iblk3 V c 1 t) (Gen.iblk3 V c 2 t) (Gen.iblk3 V c 3 t) (Gen.iblk3 V c 4 t) (ix2 p q)
    = Cert.Spec.gcn true (V c main_v61) (V c main_v14) (V c main_v63) (V c main_v65) (V c main_v49)
        (((cfg3.win 5).blk t).view.emb (ix2 p q))
  rw [he]
  refine ((congrFun (StageG.k3_pay1_eq (Gen.iblk3 V c 0 t) (Gen.iblk3 V c 1 t) (Gen.iblk3 V c 2 t) (Gen.iblk3 V c 3 t) (Gen.iblk3 V c 4 t)) (ix2 p q)).trans
    (StageG.pay_inner_apply (Gen.iblk3 V c 0 t) (Gen.iblk3 V c 1 t) (Gen.iblk3 V c 2 t) (Gen.iblk3 V c 3 t) (Gen.iblk3 V c 4 t) p q)).trans ?_
  exact StageG.gcn_inner_at (V c main_v61) (V c main_v14) (V c main_v63) (V c main_v65) (V c main_v49)
    (Gen.iblk3 V c 0 t) (Gen.iblk3 V c 1 t) (Gen.iblk3 V c 2 t) (Gen.iblk3 V c 3 t) (Gen.iblk3 V c 4 t) p q ⟨t.val * 2000 + p.val, hr⟩
    (fun k => blk0_at V c t p k (ix2 (⟨t.val * 2000 + p.val, hr⟩ : Fin 50000) k) rfl rfl)
    (blk1_at V c t p (ix2 (⟨t.val * 2000 + p.val, hr⟩ : Fin 50000) (0 : Fin 1)) rfl)
    (fun k => blk2_at V c t k q) (blk3_at V c t q)
    (blk4_at V c t p q (ix2 (⟨t.val * 2000 + p.val, hr⟩ : Fin 50000) q) rfl rfl)

/-- Row r of the output is in the block of point r / 2000. -/
theorem cover (i : S50000x128.Idx) :
    ∃ t : Fin cfg3.N, (cfg3.win 5).flush t = true ∧ i ∈ ((cfg3.win 5).blk t).view.set := by
  have hN : cfg3.N = 25 := Gen.N_3
  have hi0 : (i 0).val < 50000 := (i 0).isLt
  have hi1 : (i 1).val < 128 := (i 1).isLt
  have ht : (i 0).val / 2000 < cfg3.N := by rw [hN]; omega
  obtain ⟨-, -, -, -, -, -, -, -, -, f9, f10⟩ := idx_facts ⟨(i 0).val / 2000, ht⟩
  have f9' : win3_5.index ⟨(i 0).val / 2000, ht⟩ (0 : Fin 2) = (i 0).val / 2000 := f9
  refine ⟨⟨(i 0).val / 2000, ht⟩, Gen.flush3_5 _, ?_⟩
  show i ∈ ((View.whole main_v66).slice (win3_5.rect ⟨(i 0).val / 2000, ht⟩)).set
  rw [View.set_slice_whole, Rect.mem_set_unit]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [f9']; omega
  | ⟨1, _⟩ =>
    show win3_5.index ⟨(i 0).val / 2000, ht⟩ (1 : Fin 2) * 128 ≤ (i 1).val
      ∧ (i 1).val < win3_5.index ⟨(i 0).val / 2000, ht⟩ (1 : Fin 2) * 128 + 128
    rw [f10]; omega

/-- The output array after the region: the stage's function of the arrays as the region finds them. -/
theorem arr3 (c : Dev nD) :
    (Gen.dat3 (F := Ideal) V c).arrAt 5 cfg3.N
      = Cert.Spec.gcn true (V c (Pipeline.arrRef spec3 0)) (V c (Pipeline.arrRef spec3 1)) (V c (Pipeline.arrRef spec3 2))
          (V c (Pipeline.arrRef spec3 3)) (V c (Pipeline.arrRef spec3 4)) :=
  (Gen.dat3 (F := Ideal) V c).arrAt_eq_of_cover 5
    (Cert.Spec.gcn true (V c main_v61) (V c main_v14) (V c main_v63) (V c main_v65) (V c main_v49))
    (fun t _ => flushed_eq V c t) cover

end Blocks

end Cert.KernelIdeal.StageG3

end
-- ==== Proof.GcnKernel4.lean ====
/-
  The fourth graph-convolution region of the kernel program leaves the stage's whole-array function in its output.
  One grid point t of 25 reads rows 2000·t … 2000·t + 1999 of the aggregated messages, of the destination norm
  and of the residual, and all of the weight and the bias, and stores at row p, column q of its block the stage's
  value at row 2000·t + p, column q; the 25 row blocks tile the 50000 rows.
-/
import proofs.«147925_j10436770529875_1_alg».proof.Proof.Gen.KernelIdeal.Frame
import proofs.«147925_j10436770529875_1_alg».proof.Proof.Spec
import proofs.«147925_j10436770529875_1_alg».proof.Proof.GcnKernelLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.StageG4

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: point t takes row block t of the three row-blocked inputs and of the
    output, and block 0 of the weight and the bias. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

section Blocks
variable (V : (c : Dev nD) → (b : Ref sig .tc) → Buf (Elt Ideal) ((c : Thread nD τ).loc b))

/-- Row p of point t's block of the aggregated messages is row 2000·t + p of the array. -/
theorem blk0_at (c : Dev nD) (t : Fin cfg4.N) (p : Fin 2000) (k : Fin 128) (i : S50000x128.Idx)
    (h0 : (i 0).val = t.val * 2000 + p.val) (h1 : (i 1).val = k.val) :
    (Gen.iblk4 V c 0 t : Vec Ideal S2000x128 .f32) (ix2 p k) = (V c main_v78 : Vec Ideal S50000x128 .f32) i := by
  obtain ⟨f0, f1, -⟩ := idx_facts t
  unfold Gen.iblk4
  show (V c main_v78 : Vec Ideal S50000x128 .f32) (((cfg4.win 0).blk t).view.emb (ix2 p k)) = (V c main_v78 : Vec Ideal S50000x128 .f32) i
  refine congrArg (V c main_v78 : Vec Ideal S50000x128 .f32) (funext fun a => Fin.ext ?_)
  match a with
  | ⟨0, _⟩ => show win4_0.index t (0 : Fin 2) * 2000 + 1 * p.val = (i 0).val; rw [f0, h0]; omega
  | ⟨1, _⟩ => show win4_0.index t (1 : Fin 2) * 128 + 1 * k.val = (i 1).val; rw [f1, h1]; omega

/-- Row p of point t's block of the destination norm is row 2000·t + p of the column. -/
theorem blk1_at (c : Dev nD) (t : Fin cfg4.N) (p : Fin 2000) (i : S50000x1.Idx)
    (h0 : (i 0).val = t.val * 2000 + p.val) :
    (Gen.iblk4 V c 1 t : Vec Ideal S2000x1 .f32) (ix2 p (0 : Fin 1)) = (V c main_v14 : Vec Ideal S50000x1 .f32) i := by
  obtain ⟨-, -, f2, f3, -⟩ := idx_facts t
  have h1 : (i 1).val = 0 := by have : (i 1).val < 1 := (i 1).isLt; omega
  unfold Gen.iblk4
  show (V c main_v14 : Vec Ideal S50000x1 .f32) (((cfg4.win 1).blk t).view.emb (ix2 p (0 : Fin 1))) = (V c main_v14 : Vec Ideal S50000x1 .f32) i
  refine congrArg (V c main_v14 : Vec Ideal S50000x1 .f32) (funext fun a => Fin.ext ?_)
  match a with
  | ⟨0, _⟩ => show win4_1.index t (0 : Fin 2) * 2000 + 1 * p.val = (i 0).val; rw [f2, h0]; omega
  | ⟨1, _⟩ => show win4_1.index t (1 : Fin 2) * 1 + 1 * 0 = (i 1).val; rw [f3, h1]

/-- Every point's block of the weight is the weight. -/
theorem blk2_at (c : Dev nD) (t : Fin cfg4.N) (k q : Fin 128) :
    (Gen.iblk4 V c 2 t : Vec Ideal S128x128 .f32) (ix2 k q) = (V c main_v80 : Vec Ideal S128x128 .f32) (ix2 k q) := by
  obtain ⟨-, -, -, -, f4, f5, -⟩ := idx_facts t
  unfold Gen.iblk4
  show (V c main_v80 : Vec Ideal S128x128 .f32) (((cfg4.win 2).blk t).view.emb (ix2 k q)) = (V c main_v80 : Vec Ideal S128x128 .f32) (ix2 k q)
  refine congrArg (V c main_v80 : Vec Ideal S128x128 .f32) (funext fun a => Fin.ext ?_)
  match a with
  | ⟨0, _⟩ => show win4_2.index t (0 : Fin 2) * 128 + 1 * k.val = k.val; rw [f4]; omega
  | ⟨1, _⟩ => show win4_2.index t (1 : Fin 2) * 128 + 1 * q.val = q.val; rw [f5]; omega

/-- Every point's block of the bias is the bias. -/
theorem blk3_at (c : Dev nD) (t : Fin cfg4.N) (q : Fin 128) :
    (Gen.iblk4 V c 3 t : Vec Ideal S128 .f32) (ix1 q) = (V c main_v82 : Vec Ideal S128 .f32) (ix1 q) := by
  obtain ⟨-, -, -, -, -, -, f6, -⟩ := idx_facts t
  unfold Gen.iblk4
  show (V c main_v82 : Vec Ideal S128 .f32) (((cfg4.win 3).blk t).view.emb (ix1 q)) = (V c main_v82 : Vec Ideal S128 .f32) (ix1 q)
  refine congrArg (V c main_v82 : Vec Ideal S128 .f32) (funext fun a => Fin.ext ?_)
  match a with
  | ⟨0, _⟩ => show win4_3.index t (0 : Fin 1) * 128 + 1 * q.val = q.val; rw [f6]; omega

/-- Row p of point t's block of the residual is row 2000·t + p of the array. -/
theorem blk4_at (c : Dev nD) (t : Fin cfg4.N) (p : Fin 2000) (k : Fin 128) (i : S50000x128.Idx)
    (h0 : (i 0).val = t.val * 2000 + p.val) (h1 : (i 1).val = k.val) :
    (Gen.iblk4 V c 4 t : Vec Ideal S2000x128 .f32) (ix2 p k) = (V c main_v66 : Vec Ideal S50000x128 .f32) i := by
  obtain ⟨-, -, -, -, -, -, -, f7, f8, -⟩ := idx_facts t
  unfold Gen.iblk4
  show (V c main_v66 : Vec Ideal S50000x128 .f32) (((cfg4.win 4).blk t).view.emb (ix2 p k)) = (V c main_v66 : Vec Ideal S50000x128 .f32) i
  refine congrArg (V c main_v66 : Vec Ideal S50000x128 .f32) (funext fun a => Fin.ext ?_)
  match a with
  | ⟨0, _⟩ => show win4_4.index t (0 : Fin 2) * 2000 + 1 * p.val = (i 0).val; rw [f7, h0]; omega
  | ⟨1, _⟩ => show win4_4.index t (1 : Fin 2) * 128 + 1 * k.val = (i 1).val; rw [f8, h1]; omega

/-- What point t writes back is block t of the stage's function of the arrays as the region finds them. -/
theorem flushed_eq (c : Dev nD) (t : Fin cfg4.N) :
    (Gen.dat4 (F := Ideal) V c).flushed 5 t
      = ((cfg4.win 5).blk t).view.read (Elt Ideal)
          (Cert.Spec.gcn true (V c main_v78) (V c main_v14) (V c main_v80) (V c main_v82) (V c main_v66)) := by
  show (cfg4.win 5).cut (grid4.coords t) ((Gen.dat4 (F := Ideal) V c).after 5 t) = _
  rw [Gen.after4_5]
  unfold Gen.out4_5
  rw [View.canon_unit_zero hz2]
  simp only [View.ld_unit_zero (S := S2000x128) hz2, View.ld_unit_zero (S := S2000x1) hz2,
    View.ld_unit_zero (S := S128x128) hz2, View.ld_unit_zero (S := S128) hz1]
  have hN : cfg4.N = 25 := Gen.N_4
  have ht : t.val < 25 := hN ▸ t.isLt
  obtain ⟨-, -, -, -, -, -, -, -, -, f9, f10⟩ := idx_facts t
  funext j
  obtain ⟨p, q, rfl⟩ : ∃ (p : Fin 2000) (q : Fin 128), j = ix2 p q := ⟨j 0, j 1, eq_ix2 j⟩
  have hp : p.val < 2000 := p.isLt
  have hr : t.val * 2000 + p.val < 50000 := by omega
  have he : ((cfg4.win 5).blk t).view.emb (ix2 p q) = (ix2 (⟨t.val * 2000 + p.val, hr⟩ : Fin 50000) q : S50000x128.Idx) :=
    funext fun a => Fin.ext (by
      match a with
      | ⟨0, _⟩ => show win4_5.index t (0 : Fin 2) * 2000 + 1 * p.val = t.val * 2000 + p.val; rw [f9]; omega
      | ⟨1, _⟩ => show win4_5.index t (1 : Fin 2) * 128 + 1 * q.val = q.val; rw [f10]; omega)
  show Gen.k4_pay1 (F := Ideal) (Gen.iblk4 V c 0 t) (Gen.iblk4 V c 1 t) (Gen.iblk4 V c 2 t) (Gen.iblk4 V c 3 t) (Gen.iblk4 V c 4 t) (ix2 p q)
    = Cert.Spec.gcn true (V c main_v78) (V c main_v14) (V c main_v80) (V c main_v82) (V c main_v66)
        (((cfg4.win 5).blk t).view.emb (ix2 p q))
  rw [he]
  refine ((congrFun (StageG.k4_pay1_eq (Gen.iblk4 V c 0 t) (Gen.iblk4 V c 1 t) (Gen.iblk4 V c 2 t) (Gen.iblk4 V c 3 t) (Gen.iblk4 V c 4 t)) (ix2 p q)).trans
    (StageG.pay_inner_apply (Gen.iblk4 V c 0 t) (Gen.iblk4 V c 1 t) (Gen.iblk4 V c 2 t) (Gen.iblk4 V c 3 t) (Gen.iblk4 V c 4 t) p q)).trans ?_
  exact StageG.gcn_inner_at (V c main_v78) (V c main_v14) (V c main_v80) (V c main_v82) (V c main_v66)
    (Gen.iblk4 V c 0 t) (Gen.iblk4 V c 1 t) (Gen.iblk4 V c 2 t) (Gen.iblk4 V c 3 t) (Gen.iblk4 V c 4 t) p q ⟨t.val * 2000 + p.val, hr⟩
    (fun k => blk0_at V c t p k (ix2 (⟨t.val * 2000 + p.val, hr⟩ : Fin 50000) k) rfl rfl)
    (blk1_at V c t p (ix2 (⟨t.val * 2000 + p.val, hr⟩ : Fin 50000) (0 : Fin 1)) rfl)
    (fun k => blk2_at V c t k q) (blk3_at V c t q)
    (blk4_at V c t p q (ix2 (⟨t.val * 2000 + p.val, hr⟩ : Fin 50000) q) rfl rfl)

/-- Row r of the output is in the block of point r / 2000. -/
theorem cover (i : S50000x128.Idx) :
    ∃ t : Fin cfg4.N, (cfg4.win 5).flush t = true ∧ i ∈ ((cfg4.win 5).blk t).view.set := by
  have hN : cfg4.N = 25 := Gen.N_4
  have hi0 : (i 0).val < 50000 := (i 0).isLt
  have hi1 : (i 1).val < 128 := (i 1).isLt
  have ht : (i 0).val / 2000 < cfg4.N := by rw [hN]; omega
  obtain ⟨-, -, -, -, -, -, -, -, -, f9, f10⟩ := idx_facts ⟨(i 0).val / 2000, ht⟩
  have f9' : win4_5.index ⟨(i 0).val / 2000, ht⟩ (0 : Fin 2) = (i 0).val / 2000 := f9
  refine ⟨⟨(i 0).val / 2000, ht⟩, Gen.flush4_5 _, ?_⟩
  show i ∈ ((View.whole main_v83).slice (win4_5.rect ⟨(i 0).val / 2000, ht⟩)).set
  rw [View.set_slice_whole, Rect.mem_set_unit]
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    rw [f9']; omega
  | ⟨1, _⟩ =>
    show win4_5.index ⟨(i 0).val / 2000, ht⟩ (1 : Fin 2) * 128 ≤ (i 1).val
      ∧ (i 1).val < win4_5.index ⟨(i 0).val / 2000, ht⟩ (1 : Fin 2) * 128 + 128
    rw [f10]; omega

/-- The output array after the region: the stage's function of the arrays as the region finds them. -/
theorem arr4 (c : Dev nD) :
    (Gen.dat4 (F := Ideal) V c).arrAt 5 cfg4.N
      = Cert.Spec.gcn true (V c (Pipeline.arrRef spec4 0)) (V c (Pipeline.arrRef spec4 1)) (V c (Pipeline.arrRef spec4 2))
          (V c (Pipeline.arrRef spec4 3)) (V c (Pipeline.arrRef spec4 4)) :=
  (Gen.dat4 (F := Ideal) V c).arrAt_eq_of_cover 5
    (Cert.Spec.gcn true (V c main_v78) (V c main_v14) (V c main_v80) (V c main_v82) (V c main_v66))
    (fun t _ => flushed_eq V c t) cover

end Blocks

end Cert.KernelIdeal.StageG4

end
-- ==== Proof.GcnKernel5.lean ====
/-
  The last graph-convolution region of the kernel program leaves the stage's whole-array function in its output.
  One grid point t of 25 reads rows 2000·t … 2000·t + 1999 of the aggregated messages, of the destination norm
  and of the residual, and all of the weight and the bias, and stores at row p, column q of its block the stage's
  value at row 2000·t + p, column q; the 25 row blocks tile the 50000 rows.
-/
import proofs.«147925_j10436770529875_1_alg».proof.Proof.Gen.KernelIdeal.Frame
import proofs.«147925_j10436770529875_1_alg».proof.Proof.Spec
import proofs.«147925_j10436770529875_1_alg».proof.Proof.GcnKernelLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.StageG5

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: point t takes row block t of the three row-blocked inputs and of the
    output, and block 0 of the weight and the bias. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

section Blocks
variable (V : (c : Dev nD) → (b : Ref sig .tc) → Buf (Elt Ideal) ((c : Thread nD τ).loc b))

/-- Row p of point t's block of the aggregated messages is row 2000·t + p of the array. -/
theorem blk0_at (c : Dev nD) (t : Fin cfg5.N) (p : Fin 2000) (k : Fin 128) (i : S50000x128.Idx)
    (h0 : (i 0).val = t.val * 2000 + p.val) (h1 : (i 1).val = k.val) :
    (Gen.iblk5 V c 0 t : Vec Ideal S2000x128 .f32) (ix2 p k) = (V c main_v95 : Vec Ideal S50000x128 .f32) i := by
  obtain ⟨f0, f1, -⟩ := idx_facts t
  unfold Gen.iblk5
  show (V c main_v95 : Vec Ideal S50000x128 .f32) (((cfg5.win 0).blk t).view.emb (ix2 p k)) = (V c main_v95 : Vec Ideal S50000x128 .f32) i
  refine congrArg (V c main_v95 : Vec Ideal S50000x128 .f32) (funext fun a => Fin.ext ?_)
  match a with
  | ⟨0, _⟩ => show win5_0.index t (0 : Fin 2) * 2000 + 1 * p.val = (i 0).val; rw [f0, h0]; omega
  | ⟨1, _⟩ => show win5_0.index t (1 : Fin 2) * 128 + 1 * k.val = (i 1).val; rw [f1, h1]; omega

/-- Row p of point t's block of the destination norm is row 2000·t + p of the column. -/
theorem blk1_at (c : Dev nD) (t : Fin cfg5.N) (p : Fin 2000) (i : S50000x1.Idx)
    (h0 : (i 0).val = t.val * 2000 + p.val) :
    (Gen.iblk5 V c 1 t : Vec Ideal S2000x1 .f32) (ix2 p (0 : Fin 1)) = (V c main_v14 : Vec Ideal S50000x1 .f32) i := by
  obtain ⟨-, -, f2, f3, -⟩ := idx_facts t
  have h1 : (i 1).val = 0 := by have : (i 1).val < 1 := (i 1).isLt; omega
  unfold Gen.iblk5
  show (V c main_v14 : Vec Ideal S50000x1 .f32) (((cfg5.win 1).blk t).view.emb (ix2 p (0 : Fin 1))) = (V c main_v14 : Vec Ideal S50000x1 .f32) i
  refine congrArg (V c main_v14 : Vec Ideal S50000x1 .f32) (funext fun a => Fin.ext ?_)
  match a with
  | ⟨0, _⟩ => show win5_1.index t (0 : Fin 2) * 2000 + 1 * p.val = (i 0).val; rw [f2, h0]; omega
  | ⟨1, _⟩ => show win5_1.index t (1 : Fin 2) * 1 + 1 * 0 = (i 1).val; rw [f3, h1]

/-- Every point's block of the weight is the weight. -/
theorem blk2_at (c : Dev nD) (t : Fin cfg5.N) (k q : Fin 128) :
    (Gen.iblk5 V c 2 t : Vec Ideal S128x128 .f32) (ix2 k q) = (V c main_v97 : Vec Ideal S128x128 .f32) (ix2 k q) := by
  obtain ⟨-, -, -, -, f4, f5, -⟩ := idx_facts t
  unfold Gen.iblk5
  show (V c main_v97 : Vec Ideal S128x128 .f32) (((cfg5.win 2).blk t).view.emb (ix2 k q)) = (V c main_v97 : Vec Ideal S128x128 .f32) (ix2 k q)
  refine congrArg (V c main_v97 : Vec Ideal S128x128 .f32) (funext fun a => Fin.ext ?_)
  match a with
  | ⟨0, _⟩ => show win5_2.index t (0 : Fin 2) * 128 + 1 * k.val = k.val; rw [f4]; omega
  | ⟨1, _⟩ => show win5_2.index t (1 : Fin 2) * 128 + 1 * q.val = q.val; rw [f5]; omega

/-- Every point's block of the bias is the bias. -/
theorem blk3_at (c : Dev nD) (t : Fin cfg5.N) (q : Fin 128) :
    (Gen.iblk5 V c 3 t : Vec Ideal S128 .f32) (ix1 q) = (V c main_v99 : Vec Ideal S128 .f32) (ix1 q) := by
  obtain ⟨-, -, -, -, -, -, f6, -⟩ := idx_facts t
  unfold Gen.iblk5
  show (V c main_v99 : Vec Ideal S128 .f32) (((cfg5.win 3).blk t).view.emb (ix1 q)) = (V c main_v99 : Vec Ideal S128 .f32) (ix1 q)
  refine congrArg (V c main_v99 : Vec Ideal S128 .f32) (funext fun a => Fin.ext ?_)
  match a with
  | ⟨0, _⟩ => show win5_3.index t (0 : Fin 1) * 128 + 1 * q.val = q.val; rw [f6]; omega

/-- Row p of point t's block of the residual is row 2000·t + p of the array. -/
theorem blk4_at (c : Dev nD) (t : Fin cfg5.N) (p : Fin 2000) (k : Fin 128) (i : S50000x128.Idx)
    (h0 : (i 0).val = t.val * 2000 + p.val) (h1 : (i 1).val = k.val) :
    (Gen.iblk5 V c 4 t : Vec Ideal S2000x128 .f32) (ix2 p k) = (V c main_v83 : Vec Ideal S50000x128 .f32) i := by
  obtain ⟨-, -, -, -, -, -, -, f7, f8, -⟩ := idx_facts t
  unfold Gen.iblk5
  show (V c main_v83 : Vec Ideal S50000x128 .f32) (((cfg5.win 4).blk t).view.emb (ix2 p k)) = (V c main_v83 : Vec Ideal S50000x128 .f32) i
  refine congrArg (V c main_v83 : Vec Ideal S50000x128 .f32) (funext fun a => Fin.ext ?_)
  match a with
  | ⟨0, _⟩ => show win5_4.index t (0 : Fin 2) * 2000 + 1 * p.val = (i 0).val; rw [f7, h0]; omega
  | ⟨1, _⟩ => show win5_4.index t (1 : Fin 2) * 128 + 1 * k.val = (i 1).val; rw [f8, h1]; omega

/-- What point t writes back is block t of the stage's function of the arrays as the region finds them. -/
theorem flushed_eq (c : Dev nD) (t : Fin cfg5.N) :
    (Gen.dat5 (F := Ideal) V c).flushed 5 t
      = ((cfg5.win 5).blk t).view.read (Elt Ideal)
          (Cert.Spec.gcn false (V c main_v95) (V c main_v14) (V c main_v97) (V c main_v99) (V c main_v83)) := by
  show (cfg5.win 5).cut (grid5.coords t) ((Gen.dat5 (F := Ideal) V c).after 5 t) = _
  rw [Gen.after5_5]
  unfold Gen.out5_5
  rw [View.canon_unit_zero hz2]
  simp only [View.ld_unit_zero (S := S2000x128) hz2, View.ld_unit_zero (S := S2000x1) hz2,
    View.ld_unit_zero (S := S128x128) hz2, View.ld_unit_zero (S := S128) hz1]
  have hN : cfg5.N = 25 := Gen.N_5
  have ht : t.val < 25 := hN ▸ t.isLt
  obtain ⟨-, -, -, -, -, -, -, -, -, f9, f10⟩ := idx_facts t
  funext j
  obtain ⟨p, q, rfl⟩ : ∃ (p : Fin 2000) (q : Fin 128), j = ix2 p q := ⟨j 0, j 1, eq_ix2 j⟩
  have hp : p.val < 2000 := p.isLt
  have hr : t.val * 2000 + p.val < 50000 := by omega
  have he : ((cfg5.win 5).blk t).view.emb (ix2 p q) = (ix2 (⟨t.val * 2000 + p.val, hr⟩ : Fin 50000) q : S50000x128.Idx) :=
    funext fun a => Fin.ext (by
      match a with
      | ⟨0, _⟩ => show win5_5.index t (0 : Fin 2) * 2000 + 1 * p.val = t.val * 2000 + p.val; rw [f9]; omega
      | ⟨1, _⟩ => show win5_5.index t (1 : Fin 2) * 128 + 1 * q.val = q.val; rw [f10]; omega)
  show Gen.k5_pay1 (F := Ideal) (Gen.iblk5 V c 0 t) (Gen.iblk5 V c 1 t) (Gen.iblk5 V c 2 t) (Gen.iblk5 V c 3 t) (Gen.iblk5 V c 4 t) (ix2 p q)
    = Cert.Spec.gcn false (V c main_v95) (V c main_v14) (V c main_v97) (V c main_v99) (V c main_v83)
        (((cfg5.win 5).blk t).view.emb (ix2 p q))
  rw [he]
  refine (StageG.pay_plain_apply (Gen.iblk5 V c 0 t) (Gen.iblk5 V c 1 t) (Gen.iblk5 V c 2 t) (Gen.iblk5 V c 3 t) (Gen.iblk5 V c 4 t) p q).trans ?_
  exact StageG.gcn_plain_at (V c main_v95) (V c main_v14) (V c main_v97) (V c main_v99) (V c main_v83)
    (Gen.iblk5 V c 0 t) (Gen.iblk5 V c 1 t) (Gen.iblk5 V c 2 t) (Gen.iblk5 V c 3 t) (Gen.iblk5 V c 4 t) p q ⟨t.val * 2000 + p.val, hr⟩
    (fun k => blk0_at V c t p k (ix2 (⟨t.val * 2000 + p.val, hr⟩ : Fin 50000) k) rfl rfl)
    (blk1_at V c t p (ix2 (⟨t.val * 2000 + p.val, hr⟩ : Fin 50000) (0 : Fin 1)) rfl)
    (fun k => blk2_at V c t k q) (blk3_at V c t q)
    (blk4_at V c t p q (ix2 (⟨t.val * 2000 + p.val, hr⟩ : Fin 50000) q) rfl rfl)

/-- Row r of the output is in the block of point r / 2000. -/
theorem cover (i : S50000x128.Idx) :
    ∃ t : Fin cfg5.N, (cfg5.win 5).flush t = true ∧ i ∈ ((cfg5.win 5).blk t).view.set := by
  have hN : cfg5.N = 25 := Gen.N_5
  have hi0 : (i 0).val < 50000 := (i 0).isLt
  have hi1 : (i 1).val < 128 := (i 1).isLt
  have ht : (i 0).val / 2000 < cfg5.N := by rw [hN]; omega
  obtain ⟨-, -, -, -, -, -, -, -, -, f9, f10⟩ := idx_facts ⟨(i 0).val / 2000, ht⟩
  have f9' : win5_5.index ⟨(i 0).val / 2000, ht⟩ (0 : Fin 2) = (i 0).val / 2000 := f9
  refine ⟨⟨(i 0).val / 2000, ht⟩, Gen.flush5_5 _, ?_⟩
  show i ∈ ((View.whole main_v100).slice (win5_5.rect ⟨(i 0).val / 2000, ht⟩)).set
  rw [View.set_slice_whole, Rect.mem_set_unit]
  intro a
  match a with
  | ⟨0, _⟩ =>
    show win5_5.index ⟨(i 0).val / 2000, ht⟩ (0 : Fin 2) * 2000 ≤ (i 0).val
      ∧ (i 0).val < win5_5.index ⟨(i 0).val / 2000, ht⟩ (0 : Fin 2) * 2000 + 2000
    rw [f9']; omega
  | ⟨1, _⟩ =>
    show win5_5.index ⟨(i 0).val / 2000, ht⟩ (1 : Fin 2) * 128 ≤ (i 1).val
      ∧ (i 1).val < win5_5.index ⟨(i 0).val / 2000, ht⟩ (1 : Fin 2) * 128 + 128
    rw [f10]; omega

/-- The output array after the region: the stage's function of the arrays as the region finds them. -/
theorem arr5 (c : Dev nD) :
    (Gen.dat5 (F := Ideal) V c).arrAt 5 cfg5.N
      = Cert.Spec.gcn false (V c (Pipeline.arrRef spec5 0)) (V c (Pipeline.arrRef spec5 1)) (V c (Pipeline.arrRef spec5 2))
          (V c (Pipeline.arrRef spec5 3)) (V c (Pipeline.arrRef spec5 4)) :=
  (Gen.dat5 (F := Ideal) V c).arrAt_eq_of_cover 5
    (Cert.Spec.gcn false (V c main_v95) (V c main_v14) (V c main_v97) (V c main_v99) (V c main_v83))
    (fun t _ => flushed_eq V c t) cover

end Blocks

end Cert.KernelIdeal.StageG5

end
-- ==== Proof.GcnRef.lean ====
/-
  The reference program's graph-convolution stages, each as the whole-array stage function of the specification.
  A stage scales row r of the aggregated messages by the destination norm of node r, multiplies by the layer's weight matrix,
  adds the bias, clamps at zero (layers one to four), adds the previous stage's output and clamps at zero again.
  The aggregated messages, the norm column, the weight, the bias and the previous stage stay closed: only the
  entrywise operations between them and the stage's result are read at an index.
-/
import proofs.«147925_j10436770529875_1_alg».proof.Proof.Gen.ReferenceIdeal.Read
import proofs.«147925_j10436770529875_1_alg».proof.Proof.Spec
import Idealize.ShloMosaic.Lib.ValueIdx
import Idealize.ShloMosaic.PureOps.Ideal.Laws

noncomputable section

namespace Cert.ReferenceIdeal.StageG

open Cert.ReferenceIdeal Cert.ReferenceIdeal.Read Idealize.ShloMosaic Idealize.ShloMosaic.ValueIdx

/-- Entry (r, c) of a stage with the inner clamp, over arbitrary arrays: the two clamps, the two sums and the scaled
    product are the specification's entry. The arrays are variables here, so comparing the arithmetic unfolds nothing. -/
theorem point_clamped (agg : (⟨S50000x128, .f32⟩ : BufTy).Contents (Elt Ideal)) (nd : (⟨S50000x1, .f32⟩ : BufTy).Contents (Elt Ideal)) (w : (⟨S128x128, .f32⟩ : BufTy).Contents (Elt Ideal)) (b : (⟨S128, .f32⟩ : BufTy).Contents (Elt Ideal)) (h : (⟨S50000x128, .f32⟩ : BufTy).Contents (Elt Ideal)) (r : Fin 50000) (c : Fin 128) :
    FloatOps.maximumf (F := Ideal) (φ := FTy.f32) (FloatOps.addf (F := Ideal) (φ := FTy.f32) (h (ix2 r c)) (FloatOps.maximumf (F := Ideal) (φ := FTy.f32) (FloatOps.addf (F := Ideal) (φ := FTy.f32) (∑ k : Fin 128, FloatOps.mulf (F := Ideal) (φ := FTy.f32) (agg (ix2 r k)) (nd (ix2 r (0 : Fin 1))) * w (ix2 k c)) (b (ix1 c))) (FloatOps.ofBits (F := Ideal) FTy.f32 0x00000000#32))) (FloatOps.ofBits (F := Ideal) FTy.f32 0x00000000#32)
      = Cert.Spec.gcn true agg nd w b h (ix2 r c) := by
  simp only [Ideal.addf_def, Ideal.mulf_def, Ideal.maximumf_def, Ideal.ofBits_def, Ideal.ofBits_zero_f32]
  rfl

/-- Entry (r, c) of the last stage, which has no inner clamp, over arbitrary arrays. -/
theorem point_plain (agg : (⟨S50000x128, .f32⟩ : BufTy).Contents (Elt Ideal)) (nd : (⟨S50000x1, .f32⟩ : BufTy).Contents (Elt Ideal)) (w : (⟨S128x128, .f32⟩ : BufTy).Contents (Elt Ideal)) (b : (⟨S128, .f32⟩ : BufTy).Contents (Elt Ideal)) (h : (⟨S50000x128, .f32⟩ : BufTy).Contents (Elt Ideal)) (r : Fin 50000) (c : Fin 128) :
    FloatOps.maximumf (F := Ideal) (φ := FTy.f32) (FloatOps.addf (F := Ideal) (φ := FTy.f32) (h (ix2 r c)) (FloatOps.addf (F := Ideal) (φ := FTy.f32) (∑ k : Fin 128, FloatOps.mulf (F := Ideal) (φ := FTy.f32) (agg (ix2 r k)) (nd (ix2 r (0 : Fin 1))) * w (ix2 k c)) (b (ix1 c)))) (FloatOps.ofBits (F := Ideal) FTy.f32 0x00000000#32)
      = Cert.Spec.gcn false agg nd w b h (ix2 r c) := by
  simp only [Ideal.addf_def, Ideal.mulf_def, Ideal.maximumf_def, Ideal.ofBits_def, Ideal.ofBits_zero_f32]
  rfl

/-- Layer 1: entry (r, c) of the stage is read through the two clamps, the two sums, the product with the weight and the
    row scaling; the composed index maps are the coordinate maps (r, k), (k, c), (r, 0) and c. Each step on the
    closed arrays is a rewriting with its own equation; the arithmetic is the lemma over variables. -/
theorem h1 (x0 : (⟨S50000x128, .f32⟩ : BufTy).Contents (Elt Ideal)) (x1 x2 : (⟨S600000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal)) :
    val_main_v43 (F := Ideal) x0 x1 x2 x4 x5 x6 x7 = Cert.Spec.gcn true (val_main_v29 (F := Ideal) x0 x1 x2 x4 x5) (val_main_v30 (F := Ideal) x2) (val_main_v34 (F := Ideal) x6) (val_main_v37 (F := Ideal) x7) (val_main_v16 (F := Ideal) x0 x4 x5) := by
  funext i
  obtain ⟨r, c, rfl⟩ : ∃ (r : Fin 50000) (c : Fin 128), i = ix2 r c := ⟨i 0, i 1, eq_ix2 i⟩
  have el : ∀ k : Fin 128, lidx_main_v35 (ix2 r c) k = ix2 r k := fun k =>
    funext fun a => Fin.ext (by match a with | ⟨0, _⟩ => rfl | ⟨1, _⟩ => rfl)
  have er : ∀ k : Fin 128, ridx_main_v35 (ix2 r c) k = ix2 k c := fun k =>
    funext fun a => Fin.ext (by match a with | ⟨0, _⟩ => rfl | ⟨1, _⟩ => rfl)
  have en : ∀ k : Fin 128, idx_main_v31 (ix2 r k) = ix2 r (0 : Fin 1) := fun k =>
    funext fun a => Fin.ext (by match a with | ⟨0, _⟩ => rfl | ⟨1, _⟩ => rfl)
  have eb : idx_main_v38 (idx_main_v39 (ix2 r c)) = ix1 c :=
    funext fun a => Fin.ext (by match a with | ⟨0, _⟩ => rfl)
  have hs : ∀ k : Fin 128, val_main_v32 (F := Ideal) x0 x1 x2 x4 x5 (lidx_main_v35 (ix2 r c) k)
      = FloatOps.mulf (F := Ideal) (φ := FTy.f32) (val_main_v29 (F := Ideal) x0 x1 x2 x4 x5 (ix2 r k)) (val_main_v30 (F := Ideal) x2 (ix2 r (0 : Fin 1))) := fun k => by
    rw [el, val_main_v32_apply, val_main_v31_apply, en]
  rw [val_main_v43_apply, val_main_v42_apply, val_main_v41_apply, val_main_v40_apply, val_main_v35_apply, val_main_v39_apply, val_main_v38_apply, val_main_call2_v0_apply, val_main_call2_cst_apply, val_main_call3_v0_apply, val_main_call3_cst_apply, eb]
  simp only [hs, er]
  exact point_clamped (val_main_v29 (F := Ideal) x0 x1 x2 x4 x5) (val_main_v30 (F := Ideal) x2) (val_main_v34 (F := Ideal) x6) (val_main_v37 (F := Ideal) x7) (val_main_v16 (F := Ideal) x0 x4 x5) r c

/-- Layer 2: entry (r, c) of the stage is read through the two clamps, the two sums, the product with the weight and the
    row scaling; the composed index maps are the coordinate maps (r, k), (k, c), (r, 0) and c. Each step on the
    closed arrays is a rewriting with its own equation; the arithmetic is the lemma over variables. -/
theorem h2 (x0 : (⟨S50000x128, .f32⟩ : BufTy).Contents (Elt Ideal)) (x1 x2 : (⟨S600000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal)) :
    val_main_v70 (F := Ideal) x0 x1 x2 x4 x5 x6 x7 = Cert.Spec.gcn true (val_main_v56 (F := Ideal) x0 x1 x2 x4 x5 x6 x7) (val_main_v57 (F := Ideal) x2) (val_main_v61 (F := Ideal) x6) (val_main_v64 (F := Ideal) x7) (val_main_v43 (F := Ideal) x0 x1 x2 x4 x5 x6 x7) := by
  funext i
  obtain ⟨r, c, rfl⟩ : ∃ (r : Fin 50000) (c : Fin 128), i = ix2 r c := ⟨i 0, i 1, eq_ix2 i⟩
  have el : ∀ k : Fin 128, lidx_main_v62 (ix2 r c) k = ix2 r k := fun k =>
    funext fun a => Fin.ext (by match a with | ⟨0, _⟩ => rfl | ⟨1, _⟩ => rfl)
  have er : ∀ k : Fin 128, ridx_main_v62 (ix2 r c) k = ix2 k c := fun k =>
    funext fun a => Fin.ext (by match a with | ⟨0, _⟩ => rfl | ⟨1, _⟩ => rfl)
  have en : ∀ k : Fin 128, idx_main_v58 (ix2 r k) = ix2 r (0 : Fin 1) := fun k =>
    funext fun a => Fin.ext (by match a with | ⟨0, _⟩ => rfl | ⟨1, _⟩ => rfl)
  have eb : idx_main_v65 (idx_main_v66 (ix2 r c)) = ix1 c :=
    funext fun a => Fin.ext (by match a with | ⟨0, _⟩ => rfl)
  have hs : ∀ k : Fin 128, val_main_v59 (F := Ideal) x0 x1 x2 x4 x5 x6 x7 (lidx_main_v62 (ix2 r c) k)
      = FloatOps.mulf (F := Ideal) (φ := FTy.f32) (val_main_v56 (F := Ideal) x0 x1 x2 x4 x5 x6 x7 (ix2 r k)) (val_main_v57 (F := Ideal) x2 (ix2 r (0 : Fin 1))) := fun k => by
    rw [el, val_main_v59_apply, val_main_v58_apply, en]
  rw [val_main_v70_apply, val_main_v69_apply, val_main_v68_apply, val_main_v67_apply, val_main_v62_apply, val_main_v66_apply, val_main_v65_apply, val_main_call4_v0_apply, val_main_call4_cst_apply, val_main_call5_v0_apply, val_main_call5_cst_apply, eb]
  simp only [hs, er]
  exact point_clamped (val_main_v56 (F := Ideal) x0 x1 x2 x4 x5 x6 x7) (val_main_v57 (F := Ideal) x2) (val_main_v61 (F := Ideal) x6) (val_main_v64 (F := Ideal) x7) (val_main_v43 (F := Ideal) x0 x1 x2 x4 x5 x6 x7) r c

/-- Layer 3: entry (r, c) of the stage is read through the two clamps, the two sums, the product with the weight and the
    row scaling; the composed index maps are the coordinate maps (r, k), (k, c), (r, 0) and c. Each step on the
    closed arrays is a rewriting with its own equation; the arithmetic is the lemma over variables. -/
theorem h3 (x0 : (⟨S50000x128, .f32⟩ : BufTy).Contents (Elt Ideal)) (x1 x2 : (⟨S600000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal)) :
    val_main_v97 (F := Ideal) x0 x1 x2 x4 x5 x6 x7 = Cert.Spec.gcn true (val_main_v83 (F := Ideal) x0 x1 x2 x4 x5 x6 x7) (val_main_v84 (F := Ideal) x2) (val_main_v88 (F := Ideal) x6) (val_main_v91 (F := Ideal) x7) (val_main_v70 (F := Ideal) x0 x1 x2 x4 x5 x6 x7) := by
  funext i
  obtain ⟨r, c, rfl⟩ : ∃ (r : Fin 50000) (c : Fin 128), i = ix2 r c := ⟨i 0, i 1, eq_ix2 i⟩
  have el : ∀ k : Fin 128, lidx_main_v89 (ix2 r c) k = ix2 r k := fun k =>
    funext fun a => Fin.ext (by match a with | ⟨0, _⟩ => rfl | ⟨1, _⟩ => rfl)
  have er : ∀ k : Fin 128, ridx_main_v89 (ix2 r c) k = ix2 k c := fun k =>
    funext fun a => Fin.ext (by match a with | ⟨0, _⟩ => rfl | ⟨1, _⟩ => rfl)
  have en : ∀ k : Fin 128, idx_main_v85 (ix2 r k) = ix2 r (0 : Fin 1) := fun k =>
    funext fun a => Fin.ext (by match a with | ⟨0, _⟩ => rfl | ⟨1, _⟩ => rfl)
  have eb : idx_main_v92 (idx_main_v93 (ix2 r c)) = ix1 c :=
    funext fun a => Fin.ext (by match a with | ⟨0, _⟩ => rfl)
  have hs : ∀ k : Fin 128, val_main_v86 (F := Ideal) x0 x1 x2 x4 x5 x6 x7 (lidx_main_v89 (ix2 r c) k)
      = FloatOps.mulf (F := Ideal) (φ := FTy.f32) (val_main_v83 (F := Ideal) x0 x1 x2 x4 x5 x6 x7 (ix2 r k)) (val_main_v84 (F := Ideal) x2 (ix2 r (0 : Fin 1))) := fun k => by
    rw [el, val_main_v86_apply, val_main_v85_apply, en]
  rw [val_main_v97_apply, val_main_v96_apply, val_main_v95_apply, val_main_v94_apply, val_main_v89_apply, val_main_v93_apply, val_main_v92_apply, val_main_call6_v0_apply, val_main_call6_cst_apply, val_main_call7_v0_apply, val_main_call7_cst_apply, eb]
  simp only [hs, er]
  exact point_clamped (val_main_v83 (F := Ideal) x0 x1 x2 x4 x5 x6 x7) (val_main_v84 (F := Ideal) x2) (val_main_v88 (F := Ideal) x6) (val_main_v91 (F := Ideal) x7) (val_main_v70 (F := Ideal) x0 x1 x2 x4 x5 x6 x7) r c

/-- Layer 4: entry (r, c) of the stage is read through the two clamps, the two sums, the product with the weight and the
    row scaling; the composed index maps are the coordinate maps (r, k), (k, c), (r, 0) and c. Each step on the
    closed arrays is a rewriting with its own equation; the arithmetic is the lemma over variables. -/
theorem h4 (x0 : (⟨S50000x128, .f32⟩ : BufTy).Contents (Elt Ideal)) (x1 x2 : (⟨S600000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal)) :
    val_main_v124 (F := Ideal) x0 x1 x2 x4 x5 x6 x7 = Cert.Spec.gcn true (val_main_v110 (F := Ideal) x0 x1 x2 x4 x5 x6 x7) (val_main_v111 (F := Ideal) x2) (val_main_v115 (F := Ideal) x6) (val_main_v118 (F := Ideal) x7) (val_main_v97 (F := Ideal) x0 x1 x2 x4 x5 x6 x7) := by
  funext i
  obtain ⟨r, c, rfl⟩ : ∃ (r : Fin 50000) (c : Fin 128), i = ix2 r c := ⟨i 0, i 1, eq_ix2 i⟩
  have el : ∀ k : Fin 128, lidx_main_v116 (ix2 r c) k = ix2 r k := fun k =>
    funext fun a => Fin.ext (by match a with | ⟨0, _⟩ => rfl | ⟨1, _⟩ => rfl)
  have er : ∀ k : Fin 128, ridx_main_v116 (ix2 r c) k = ix2 k c := fun k =>
    funext fun a => Fin.ext (by match a with | ⟨0, _⟩ => rfl | ⟨1, _⟩ => rfl)
  have en : ∀ k : Fin 128, idx_main_v112 (ix2 r k) = ix2 r (0 : Fin 1) := fun k =>
    funext fun a => Fin.ext (by match a with | ⟨0, _⟩ => rfl | ⟨1, _⟩ => rfl)
  have eb : idx_main_v119 (idx_main_v120 (ix2 r c)) = ix1 c :=
    funext fun a => Fin.ext (by match a with | ⟨0, _⟩ => rfl)
  have hs : ∀ k : Fin 128, val_main_v113 (F := Ideal) x0 x1 x2 x4 x5 x6 x7 (lidx_main_v116 (ix2 r c) k)
      = FloatOps.mulf (F := Ideal) (φ := FTy.f32) (val_main_v110 (F := Ideal) x0 x1 x2 x4 x5 x6 x7 (ix2 r k)) (val_main_v111 (F := Ideal) x2 (ix2 r (0 : Fin 1))) := fun k => by
    rw [el, val_main_v113_apply, val_main_v112_apply, en]
  rw [val_main_v124_apply, val_main_v123_apply, val_main_v122_apply, val_main_v121_apply, val_main_v116_apply, val_main_v120_apply, val_main_v119_apply, val_main_call8_v0_apply, val_main_call8_cst_apply, val_main_call9_v0_apply, val_main_call9_cst_apply, eb]
  simp only [hs, er]
  exact point_clamped (val_main_v110 (F := Ideal) x0 x1 x2 x4 x5 x6 x7) (val_main_v111 (F := Ideal) x2) (val_main_v115 (F := Ideal) x6) (val_main_v118 (F := Ideal) x7) (val_main_v97 (F := Ideal) x0 x1 x2 x4 x5 x6 x7) r c

/-- Layer 5: entry (r, c) of the stage is read through the clamp, the two sums, the product with the weight and the
    row scaling; the composed index maps are the coordinate maps (r, k), (k, c), (r, 0) and c. Each step on the
    closed arrays is a rewriting with its own equation; the arithmetic is the lemma over variables. -/
theorem h5 (x0 : (⟨S50000x128, .f32⟩ : BufTy).Contents (Elt Ideal)) (x1 x2 : (⟨S600000, .i32⟩ : BufTy).Contents (Elt Ideal)) (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal)) :
    val_main_v150 (F := Ideal) x0 x1 x2 x4 x5 x6 x7 = Cert.Spec.gcn false (val_main_v137 (F := Ideal) x0 x1 x2 x4 x5 x6 x7) (val_main_v138 (F := Ideal) x2) (val_main_v142 (F := Ideal) x6) (val_main_v145 (F := Ideal) x7) (val_main_v124 (F := Ideal) x0 x1 x2 x4 x5 x6 x7) := by
  funext i
  obtain ⟨r, c, rfl⟩ : ∃ (r : Fin 50000) (c : Fin 128), i = ix2 r c := ⟨i 0, i 1, eq_ix2 i⟩
  have el : ∀ k : Fin 128, lidx_main_v143 (ix2 r c) k = ix2 r k := fun k =>
    funext fun a => Fin.ext (by match a with | ⟨0, _⟩ => rfl | ⟨1, _⟩ => rfl)
  have er : ∀ k : Fin 128, ridx_main_v143 (ix2 r c) k = ix2 k c := fun k =>
    funext fun a => Fin.ext (by match a with | ⟨0, _⟩ => rfl | ⟨1, _⟩ => rfl)
  have en : ∀ k : Fin 128, idx_main_v139 (ix2 r k) = ix2 r (0 : Fin 1) := fun k =>
    funext fun a => Fin.ext (by match a with | ⟨0, _⟩ => rfl | ⟨1, _⟩ => rfl)
  have eb : idx_main_v146 (idx_main_v147 (ix2 r c)) = ix1 c :=
    funext fun a => Fin.ext (by match a with | ⟨0, _⟩ => rfl)
  have hs : ∀ k : Fin 128, val_main_v140 (F := Ideal) x0 x1 x2 x4 x5 x6 x7 (lidx_main_v143 (ix2 r c) k)
      = FloatOps.mulf (F := Ideal) (φ := FTy.f32) (val_main_v137 (F := Ideal) x0 x1 x2 x4 x5 x6 x7 (ix2 r k)) (val_main_v138 (F := Ideal) x2 (ix2 r (0 : Fin 1))) := fun k => by
    rw [el, val_main_v140_apply, val_main_v139_apply, en]
  rw [val_main_v150_apply, val_main_v149_apply, val_main_v148_apply, val_main_v143_apply, val_main_v147_apply, val_main_v146_apply, val_main_call10_v0_apply, val_main_call10_cst_apply, eb]
  simp only [hs, er]
  exact point_plain (val_main_v137 (F := Ideal) x0 x1 x2 x4 x5 x6 x7) (val_main_v138 (F := Ideal) x2) (val_main_v142 (F := Ideal) x6) (val_main_v145 (F := Ideal) x7) (val_main_v124 (F := Ideal) x0 x1 x2 x4 x5 x6 x7) r c

end Cert.ReferenceIdeal.StageG

end
-- ==== Proof.MlpKernel.lean ====
/-
  The pooling head's region of the kernel program, as a whole-array function of the arrays it finds.
  The region's grid has one point and every window's one block is its whole array, so the output array after the
  region is the body's one stored value at the seven input arrays. That value is three dense layers: each is a
  product accumulated into zero with its operands cut to bf16 (the identity on the extended reals), a bias row
  repeated over the 512 rows and added, and, after the first two, a clamp at zero. Each layer is shown, as a
  whole array, to be the corresponding layer of `Cert.Spec`, and the next product's operand is rewritten with it.
-/
import proofs.«147925_j10436770529875_1_alg».proof.Proof.Gen.KernelIdeal.Frame
import proofs.«147925_j10436770529875_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Stage6

open Idealize.ShloMosaic Idealize.ShloMosaic.ValueIdx
open Cert.KernelIdeal Cert.KernelIdeal.Gen

open Idealize.ShloMosaic.TcCoe Idealize.SL.Sem
open Idealize.ShloMosaic.Pipeline (Dat)

/-! ## The two products at an entry -/

theorem lhsA_0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
theorem lhsA_1 (i : S512x256.Idx) (q : dot_S512x128_S128x256_S512x256_1_0_0_1_n_n.contr.Idx) :
    (dot_S512x128_S128x256_S512x256_1_0_0_1_n_n.lhsIdx i q 1).val = (q ⟨0, by decide⟩).val :=
  dot_S512x128_S128x256_S512x256_1_0_0_1_n_n.lhsIdx_val_of_single rfl i q
theorem rhsA_0 (i : S512x256.Idx) (q : dot_S512x128_S128x256_S512x256_1_0_0_1_n_n.contr.Idx) :
    (dot_S512x128_S128x256_S512x256_1_0_0_1_n_n.rhsIdx i q 0).val = (q ⟨0, by decide⟩).val :=
  dot_S512x128_S128x256_S512x256_1_0_0_1_n_n.rhsIdx_val_of_single rfl i q
theorem rhsA_1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl

/-- The product into the zero splat, entry (p, q): the sum over k of a(p, k)·b(k, q). -/
theorem mmA_apply (a : FVec Ideal S512x128 .bf16) (b : FVec Ideal S128x256 .bf16) (p : Fin 512) (q : Fin 256) :
    matmul dot_S512x128_S128x256_S512x256_1_0_0_1_n_n none a b (constant (F := Ideal) S512x256 .f32 0x00000000#32) (ix2 p q)
      = ∑ k : Fin 128, a (ix2 p k) * b (ix2 k q) := by
  refine (Ideal.matmul_constant_zero_apply dot_S512x128_S128x256_S512x256_1_0_0_1_n_n none a b (ix2 p q)).trans ?_
  rw [← Equiv.sum_comp (contrEquiv1 dot_S512x128_S128x256_S512x256_1_0_0_1_n_n 128 rfl rfl).symm]
  refine Finset.sum_congr rfl fun k _ => ?_
  have hk := contrEquiv1_symm_val dot_S512x128_S128x256_S512x256_1_0_0_1_n_n 128 rfl rfl k
  have el : dot_S512x128_S128x256_S512x256_1_0_0_1_n_n.lhsIdx (ix2 p q) ((contrEquiv1 dot_S512x128_S128x256_S512x256_1_0_0_1_n_n 128 rfl rfl).symm k) = ix2 p k := funext fun ax => Fin.ext (by
    match ax with
    | ⟨0, _⟩ => exact lhsA_0 _ _
    | ⟨1, _⟩ => exact (lhsA_1 _ _).trans hk)
  have er : dot_S512x128_S128x256_S512x256_1_0_0_1_n_n.rhsIdx (ix2 p q) ((contrEquiv1 dot_S512x128_S128x256_S512x256_1_0_0_1_n_n 128 rfl rfl).symm k) = ix2 k q := funext fun ax => Fin.ext (by
    match ax with
    | ⟨0, _⟩ => exact (rhsA_0 _ _).trans hk
    | ⟨1, _⟩ => exact rhsA_1 _ _)
  rw [el, er]

theorem lhsB_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhsB_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhsB_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhsB_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The product into the zero splat, entry (p, q): the sum over k of a(p, k)·b(k, q). -/
theorem mmB_apply (a : FVec Ideal S512x256 .bf16) (b : FVec Ideal S256x256 .bf16) (p : Fin 512) (q : Fin 256) :
    matmul dot_S512x256_S256x256_S512x256_1_0_0_1_n_n none a b (constant (F := Ideal) S512x256 .f32 0x00000000#32) (ix2 p q)
      = ∑ k : Fin 256, a (ix2 p k) * b (ix2 k q) := by
  refine (Ideal.matmul_constant_zero_apply dot_S512x256_S256x256_S512x256_1_0_0_1_n_n none a b (ix2 p q)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q) ((contrEquiv1 dot_S512x256_S256x256_S512x256_1_0_0_1_n_n 256 rfl rfl).symm k) = ix2 p k := funext fun ax => Fin.ext (by
    match ax with
    | ⟨0, _⟩ => exact lhsB_0 _ _
    | ⟨1, _⟩ => exact (lhsB_1 _ _).trans hk)
  have er : dot_S512x256_S256x256_S512x256_1_0_0_1_n_n.rhsIdx (ix2 p q) ((contrEquiv1 dot_S512x256_S256x256_S512x256_1_0_0_1_n_n 256 rfl rfl).symm k) = ix2 k q := funext fun ax => Fin.ext (by
    match ax with
    | ⟨0, _⟩ => exact (rhsB_0 _ _).trans hk
    | ⟨1, _⟩ => exact rhsB_1 _ _)
  rw [el, er]

/-! ## The stored value is the pooling head of its operands -/

/-- The bias, made a row and repeated over the 512 rows, at (p, q) is b(q). -/
theorem bias_apply (b : Vec Ideal S256 .f32) (p : Fin 512) (q : Fin 256) :
    broadcastTo S512x256 (shapeCast S1x256 b shapeCasts_S256_S1x256) broadcasts_S1x256_S512x256 (ix2 p q) = b (ix1 q) :=
  (broadcastTo_1b_ab_apply _ broadcasts_S1x256_S512x256 p q).trans (shapeCast_a_1a_apply b shapeCasts_S256_S1x256 0 q)

/-- The first layer as the kernel computes it: the product of the operands cut to bf16 (the identity on the
    extended reals), the bias added, the clamp at zero. -/
def layer0 (x0 : Vec Ideal S512x128 .f32) (x1 : Vec Ideal S128x256 .f32) (x2 : Vec Ideal S256 .f32) : FVec Ideal S512x256 .f32 :=
  maximumf (addf (matmul dot_S512x128_S128x256_S512x256_1_0_0_1_n_n none
        (truncf .bf16 (shapeCast S512x128 x0 shapeCasts_S512x128_S512x128) bitsLt_bf16_f32) (truncf .bf16 x1 bitsLt_bf16_f32)
        (constant S512x256 .f32 0x00000000#32))
      (broadcastTo S512x256 (shapeCast S1x256 x2 shapeCasts_S256_S1x256) broadcasts_S1x256_S512x256))
    (broadcast S512x256 (Scalar.ofBits .f32 0x00000000#32))

/-- A later layer's linear part as the kernel computes it, over the layer before. -/
def dense (h : FVec Ideal S512x256 .f32) (w : Vec Ideal S256x256 .f32) (b : Vec Ideal S256 .f32) : FVec Ideal S512x256 .f32 :=
  addf (matmul dot_S512x256_S256x256_S512x256_1_0_0_1_n_n none
      (truncf .bf16 h bitsLt_bf16_f32) (truncf .bf16 w bitsLt_bf16_f32) (constant S512x256 .f32 0x00000000#32))
    (broadcastTo S512x256 (shapeCast S1x256 b shapeCasts_S256_S1x256) broadcasts_S1x256_S512x256)

/-- The clamp at zero as the kernel computes it. -/
def clamp (h : FVec Ideal S512x256 .f32) : FVec Ideal S512x256 .f32 :=
  maximumf h (broadcast S512x256 (Scalar.ofBits .f32 0x00000000#32))

/-- The payload is the three layers composed. -/
theorem pay_eq (x0 : Vec Ideal S512x128 .f32) (x1 : Vec Ideal S128x256 .f32) (x2 : Vec Ideal S256 .f32)
    (x3 : Vec Ideal S256x256 .f32) (x4 : Vec Ideal S256 .f32) (x5 : Vec Ideal S256x256 .f32) (x6 : Vec Ideal S256 .f32) :
    k6_pay1 (F := Ideal) x0 x1 x2 x3 x4 x5 x6 = dense (clamp (dense (layer0 x0 x1 x2) x3 x4)) x5 x6 := rfl

/-- The first layer is the first hidden layer of the head, as a whole array. -/
theorem layer0_eq (x0 : Vec Ideal S512x128 .f32) (x1 : Vec Ideal S128x256 .f32) (x2 : Vec Ideal S256 .f32) :
    layer0 x0 x1 x2 = Cert.Spec.hid0 x0 x1 x2 := by
  funext j
  obtain ⟨p, q, rfl⟩ : ∃ (p : Fin 512) (q : Fin 256), j = ix2 p q := ⟨j 0, j 1, eq_ix2 j⟩
  unfold layer0
  rw [maximumf_apply, addf_apply, mmA_apply, bias_apply, broadcast_apply]
  simp only [truncf_apply, shapeCast_self]
  show max _ (Ideal.ofBits .f32 0x00000000#32) = _
  rw [Ideal.ofBits_zero_f32]
  rfl

/-- A later layer's linear part at an entry. -/
theorem dense_eq (h : FVec Ideal S512x256 .f32) (w : Vec Ideal S256x256 .f32) (b : Vec Ideal S256 .f32) :
    dense h w b = fun i => Cert.Spec.linearAt h w b (i 0) (i 1) := by
  funext j
  obtain ⟨p, q, rfl⟩ : ∃ (p : Fin 512) (q : Fin 256), j = ix2 p q := ⟨j 0, j 1, eq_ix2 j⟩
  unfold dense
  rw [addf_apply, mmB_apply, bias_apply]
  simp only [truncf_apply]
  rfl

/-- The clamp at an entry. -/
theorem clamp_eq (h : FVec Ideal S512x256 .f32) : clamp h = fun i => max (h i) 0 := by
  funext j
  unfold clamp
  rw [maximumf_apply, broadcast_apply]
  show max _ (Ideal.ofBits .f32 0x00000000#32) = _
  rw [Ideal.ofBits_zero_f32]

/-- The payload is the pooling head of its seven operands. -/
theorem pay_mlp (x0 : Vec Ideal S512x128 .f32) (x1 : Vec Ideal S128x256 .f32) (x2 : Vec Ideal S256 .f32)
    (x3 : Vec Ideal S256x256 .f32) (x4 : Vec Ideal S256 .f32) (x5 : Vec Ideal S256x256 .f32) (x6 : Vec Ideal S256 .f32) :
    k6_pay1 (F := Ideal) x0 x1 x2 x3 x4 x5 x6 = Cert.Spec.mlp x0 x1 x2 x3 x4 x5 x6 := by
  rw [pay_eq, layer0_eq, dense_eq (Cert.Spec.hid0 x0 x1 x2), clamp_eq, dense_eq]
  rfl

/-! ## From the one block to the array -/

section Region
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has one point, and at it every window's block index is zero on every axis. -/
theorem idx_zero : ∀ t : Fin cfg6.N, (∀ a, win6_0.index t a = 0) ∧ (∀ a, win6_1.index t a = 0) ∧ (∀ a, win6_2.index t a = 0)
    ∧ (∀ a, win6_3.index t a = 0) ∧ (∀ a, win6_4.index t a = 0) ∧ (∀ a, win6_5.index t a = 0) ∧ (∀ a, win6_6.index t a = 0)
    ∧ (∀ a, win6_7.index t a = 0) :=
  (by decide +kernel : ∀ t : Fin grid6.N, _)

/-! Each input window's one block starts at zero and has its array's sizes: read off the array, it is the array. -/

theorem iblk_0 (c : Dev nD) (t : Fin cfg6.N) : (iblk6 V c 0 t : Vec Ideal S512x128 .f32) = V c (Pipeline.arrRef spec6 0) := by
  have hz' : (fun a => win6_0.index t a * main_v103.ty.shape.size a) = fun _ => 0 :=
    funext fun a => by rw [(idx_zero t).1 a, Nat.zero_mul]
  exact Memref.read_access_unit_zero (Elt Ideal) main_v103 hz' (fun a => by rw [congrFun hz' a]; simp) (V c (Pipeline.arrRef spec6 0))

theorem iblk_1 (c : Dev nD) (t : Fin cfg6.N) : (iblk6 V c 1 t : Vec Ideal S128x256 .f32) = V c (Pipeline.arrRef spec6 1) := by
  have hz' : (fun a => win6_1.index t a * main_arg8.ty.shape.size a) = fun _ => 0 :=
    funext fun a => by rw [(idx_zero t).2.1 a, Nat.zero_mul]
  exact Memref.read_access_unit_zero (Elt Ideal) main_arg8 hz' (fun a => by rw [congrFun hz' a]; simp) (V c (Pipeline.arrRef spec6 1))

theorem iblk_2 (c : Dev nD) (t : Fin cfg6.N) : (iblk6 V c 2 t : Vec Ideal S256 .f32) = V c (Pipeline.arrRef spec6 2) := by
  have hz' : (fun a => win6_2.index t a * main_arg9.ty.shape.size a) = fun _ => 0 :=
    funext fun a => by rw [(idx_zero t).2.2.1 a, Nat.zero_mul]
  exact Memref.read_access_unit_zero (Elt Ideal) main_arg9 hz' (fun a => by rw [congrFun hz' a]; simp) (V c (Pipeline.arrRef spec6 2))

theorem iblk_3 (c : Dev nD) (t : Fin cfg6.N) : (iblk6 V c 3 t : Vec Ideal S256x256 .f32) = V c (Pipeline.arrRef spec6 3) := by
  have hz' : (fun a => win6_3.index t a * main_arg10.ty.shape.size a) = fun _ => 0 :=
    funext fun a => by rw [(idx_zero t).2.2.2.1 a, Nat.zero_mul]
  exact Memref.read_access_unit_zero (Elt Ideal) main_arg10 hz' (fun a => by rw [congrFun hz' a]; simp) (V c (Pipeline.arrRef spec6 3))

theorem iblk_4 (c : Dev nD) (t : Fin cfg6.N) : (iblk6 V c 4 t : Vec Ideal S256 .f32) = V c (Pipeline.arrRef spec6 4) := by
  have hz' : (fun a => win6_4.index t a * main_arg11.ty.shape.size a) = fun _ => 0 :=
    funext fun a => by rw [(idx_zero t).2.2.2.2.1 a, Nat.zero_mul]
  exact Memref.read_access_unit_zero (Elt Ideal) main_arg11 hz' (fun a => by rw [congrFun hz' a]; simp) (V c (Pipeline.arrRef spec6 4))

theorem iblk_5 (c : Dev nD) (t : Fin cfg6.N) : (iblk6 V c 5 t : Vec Ideal S256x256 .f32) = V c (Pipeline.arrRef spec6 5) := by
  have hz' : (fun a => win6_5.index t a * main_arg12.ty.shape.size a) = fun _ => 0 :=
    funext fun a => by rw [(idx_zero t).2.2.2.2.2.1 a, Nat.zero_mul]
  exact Memref.read_access_unit_zero (Elt Ideal) main_arg12 hz' (fun a => by rw [congrFun hz' a]; simp) (V c (Pipeline.arrRef spec6 5))

theorem iblk_6 (c : Dev nD) (t : Fin cfg6.N) : (iblk6 V c 6 t : Vec Ideal S256 .f32) = V c (Pipeline.arrRef spec6 6) := by
  have hz' : (fun a => win6_6.index t a * main_arg13.ty.shape.size a) = fun _ => 0 :=
    funext fun a => by rw [(idx_zero t).2.2.2.2.2.2.1 a, Nat.zero_mul]
  exact Memref.read_access_unit_zero (Elt Ideal) main_arg13 hz' (fun a => by rw [congrFun hz' a]; simp) (V c (Pipeline.arrRef spec6 6))

/-- What the one point writes back is the pooling head of the seven arrays the region finds, read through the
    output's one block. -/
theorem flushed_eq (c : Dev nD) (t : Fin cfg6.N) :
    (dat6 V c).flushed 7 t = ((cfg6.win 7).blk t).view.read (Elt Ideal)
      (Cert.Spec.mlp (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  show (cfg6.win 7).cut (grid6.coords t) ((dat6 V c).after 7 t) = _
  rw [after6_7 V c t]
  unfold out6_7
  rw [View.canon_unit_zero hz2]
  simp only [View.ld_unit_zero (S := S512x128) hz2, View.ld_unit_zero (S := S128x256) hz2, View.ld_unit_zero (S := S256) hz1,
    View.ld_unit_zero (S := S256x256) hz2]
  rw [pay_mlp (iblk6 V c 0 t) (iblk6 V c 1 t) (iblk6 V c 2 t) (iblk6 V c 3 t) (iblk6 V c 4 t) (iblk6 V c 5 t) (iblk6 V c 6 t)]
  rw [iblk_0 V c t, iblk_1 V c t, iblk_2 V c t, iblk_3 V c t, iblk_4 V c t, iblk_5 V c t, iblk_6 V c t]
  have hz' : (fun a => win6_7.index t a * main_v104.ty.shape.size a) = fun _ => 0 :=
    funext fun a => by rw [(idx_zero t).2.2.2.2.2.2.2 a, Nat.zero_mul]
  exact (Memref.read_access_unit_zero (Elt Ideal) main_v104 hz' (fun a => by rw [congrFun hz' a]; simp)
    (Cert.Spec.mlp (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)))).symm

/-- The output array after the region: the pooling head of the seven arrays the region finds. -/
theorem arr (c : Dev nD) :
    (dat6 (F := Ideal) V c).arrAt 7 cfg6.N = Cert.Spec.mlp (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 V c).arrAt_eq_of_cover 7 (Cert.Spec.mlp (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)))
    (fun t _ => flushed_eq V c t) fun i =>
    ⟨t6_0, flush6_7 t6_0, by
      show i ∈ ((View.whole main_v104).slice (win6_7.rect t6_0)).set
      rw [View.set_slice_whole, Rect.mem_set_unit]
      intro a
      have h0 : (i 0 : Nat) < 512 := (i 0).isLt
      have h1 : (i 1 : Nat) < 256 := (i 1).isLt
      match a with
      | ⟨0, _⟩ =>
        show win6_7.index t6_0 0 * win6_7.size 0 ≤ (i 0 : Nat) ∧ (i 0 : Nat) < win6_7.index t6_0 0 * win6_7.size 0 + win6_7.xsize (grid6.coords t6_0) 0
        rw [show win6_7.index t6_0 0 * win6_7.size 0 = 0 from by decide +kernel, show win6_7.xsize (grid6.coords t6_0) 0 = 512 from by decide +kernel]; omega
      | ⟨1, _⟩ =>
        show win6_7.index t6_0 1 * win6_7.size 1 ≤ (i 1 : Nat) ∧ (i 1 : Nat) < win6_7.index t6_0 1 * win6_7.size 1 + win6_7.xsize (grid6.coords t6_0) 1
        rw [show win6_7.index t6_0 1 * win6_7.size 1 = 0 from by decide +kernel, show win6_7.xsize (grid6.coords t6_0) 1 = 256 from by decide +kernel]; omega⟩
end Region

end Cert.KernelIdeal.Stage6

end
-- ==== Proof.MlpRef.lean ====
/-
  The reference's pooling head is the three linear stages of the specification over the pooled array:
  each product's entry (r, c) is the sum over k of the left operand at (r, k) times the weight at (k, c),
  the two broadcasts place the bias b(c) at (r, c), and the clamp is the maximum with zero.
  The pooled array (a scatter-add) is carried as one closed term throughout.
-/
import proofs.«147925_j10436770529875_1_alg».proof.Proof.Gen.ReferenceIdeal.Read
import proofs.«147925_j10436770529875_1_alg».proof.Proof.Spec

noncomputable section

namespace Cert.ReferenceIdeal.Stage

open Cert.ReferenceIdeal Cert.ReferenceIdeal.Read Idealize.ShloMosaic Idealize.ShloMosaic.ValueIdx

/-- The first hidden layer: the pooled array through x·W₀ + b₀, clamped at zero. -/
theorem head_hid0 (x0 : (⟨S50000x128, .f32⟩ : BufTy).Contents (Elt Ideal)) (x1 x2 : (⟨S600000, .i32⟩ : BufTy).Contents (Elt Ideal)) (x3 : (⟨S50000, .i32⟩ : BufTy).Contents (Elt Ideal))
    (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal))
    (x8 : (⟨S128x256, .f32⟩ : BufTy).Contents (Elt Ideal)) (x9 : (⟨S256, .f32⟩ : BufTy).Contents (Elt Ideal)) :
    val_main_v158 (F := Ideal) x0 x1 x2 x3 x4 x5 x6 x7 x8 x9 = Cert.Spec.hid0 (val_main_v153 (F := Ideal) x0 x1 x2 x3 x4 x5 x6 x7) x8 x9 := by
  funext i
  obtain ⟨r, c, rfl⟩ : ∃ (r : Fin 512) (c : Fin 256), i = ix2 r c := ⟨i 0, i 1, eq_ix2 i⟩
  rw [val_main_v158_apply, val_main_v157_apply, val_main_v154_apply, val_main_v156_apply, val_main_v155_apply,
    val_main_call11_v0_apply, val_main_call11_cst_apply]
  generalize val_main_v153 (F := Ideal) x0 x1 x2 x3 x4 x5 x6 x7 = p
  have el : ∀ k : Fin 128, lidx_main_v154 (ix2 r c) k = ix2 r k := fun k =>
    funext fun a => Fin.ext (by match a with | ⟨0, _⟩ => rfl | ⟨1, _⟩ => rfl)
  have er : ∀ k : Fin 128, ridx_main_v154 (ix2 r c) k = ix2 k c := fun k =>
    funext fun a => Fin.ext (by match a with | ⟨0, _⟩ => rfl | ⟨1, _⟩ => rfl)
  have eb : idx_main_v155 (idx_main_v156 (ix2 r c)) = ix1 c :=
    funext fun a => Fin.ext (by match a with | ⟨0, _⟩ => rfl)
  simp only [el, er, eb, Ideal.addf_def, Ideal.maximumf_def, Ideal.ofBits_def, Ideal.ofBits_zero_f32]
  rfl

/-- The second hidden layer: the first through x·W₁ + b₁, clamped at zero. -/
theorem head_hid1 (x0 : (⟨S50000x128, .f32⟩ : BufTy).Contents (Elt Ideal)) (x1 x2 : (⟨S600000, .i32⟩ : BufTy).Contents (Elt Ideal)) (x3 : (⟨S50000, .i32⟩ : BufTy).Contents (Elt Ideal))
    (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal))
    (x8 : (⟨S128x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal)) :
    val_main_v163 (F := Ideal) x0 x1 x2 x3 x4 x5 x6 x7 x8 x9 x10 x11 = Cert.Spec.hid1 (val_main_v153 (F := Ideal) x0 x1 x2 x3 x4 x5 x6 x7) x8 x9 x10 x11 := by
  funext i
  obtain ⟨r, c, rfl⟩ : ∃ (r : Fin 512) (c : Fin 256), i = ix2 r c := ⟨i 0, i 1, eq_ix2 i⟩
  rw [val_main_v163_apply, val_main_v162_apply, val_main_v159_apply, head_hid0, val_main_v161_apply, val_main_v160_apply,
    val_main_call12_v0_apply, val_main_call12_cst_apply]
  generalize val_main_v153 (F := Ideal) x0 x1 x2 x3 x4 x5 x6 x7 = p
  have el : ∀ k : Fin 256, lidx_main_v159 (ix2 r c) k = ix2 r k := fun k =>
    funext fun a => Fin.ext (by match a with | ⟨0, _⟩ => rfl | ⟨1, _⟩ => rfl)
  have er : ∀ k : Fin 256, ridx_main_v159 (ix2 r c) k = ix2 k c := fun k =>
    funext fun a => Fin.ext (by match a with | ⟨0, _⟩ => rfl | ⟨1, _⟩ => rfl)
  have eb : idx_main_v160 (idx_main_v161 (ix2 r c)) = ix1 c :=
    funext fun a => Fin.ext (by match a with | ⟨0, _⟩ => rfl)
  simp only [el, er, eb, Ideal.addf_def, Ideal.maximumf_def, Ideal.ofBits_def, Ideal.ofBits_zero_f32]
  rfl

/-- The pooling head: the second hidden layer through x·W₂ + b₂, with no clamp. -/
theorem head (x0 : (⟨S50000x128, .f32⟩ : BufTy).Contents (Elt Ideal)) (x1 x2 : (⟨S600000, .i32⟩ : BufTy).Contents (Elt Ideal)) (x3 : (⟨S50000, .i32⟩ : BufTy).Contents (Elt Ideal))
    (x4 : (⟨S128x128, .f32⟩ : BufTy).Contents (Elt Ideal)) (x5 : (⟨S128, .f32⟩ : BufTy).Contents (Elt Ideal)) (x6 : (⟨S5x128x128, .f32⟩ : BufTy).Contents (Elt Ideal)) (x7 : (⟨S5x128, .f32⟩ : BufTy).Contents (Elt Ideal))
    (x8 : (⟨S128x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal)) :
    val_main_v167 (F := Ideal) x0 x1 x2 x3 x4 x5 x6 x7 x8 x9 x10 x11 x12 x13
      = Cert.Spec.mlp (val_main_v153 (F := Ideal) x0 x1 x2 x3 x4 x5 x6 x7) x8 x9 x10 x11 x12 x13 := by
  funext i
  obtain ⟨r, c, rfl⟩ : ∃ (r : Fin 512) (c : Fin 256), i = ix2 r c := ⟨i 0, i 1, eq_ix2 i⟩
  rw [val_main_v167_apply, val_main_v164_apply, head_hid1, val_main_v166_apply, val_main_v165_apply]
  generalize val_main_v153 (F := Ideal) x0 x1 x2 x3 x4 x5 x6 x7 = p
  have el : ∀ k : Fin 256, lidx_main_v164 (ix2 r c) k = ix2 r k := fun k =>
    funext fun a => Fin.ext (by match a with | ⟨0, _⟩ => rfl | ⟨1, _⟩ => rfl)
  have er : ∀ k : Fin 256, ridx_main_v164 (ix2 r c) k = ix2 k c := fun k =>
    funext fun a => Fin.ext (by match a with | ⟨0, _⟩ => rfl | ⟨1, _⟩ => rfl)
  have eb : idx_main_v165 (idx_main_v166 (ix2 r c)) = ix1 c :=
    funext fun a => Fin.ext (by match a with | ⟨0, _⟩ => rfl)
  simp only [el, er, eb, Ideal.addf_def]
  rfl

end Cert.ReferenceIdeal.Stage

end
-- ==== Proof.Bound.lean ====
/-
  The kernel program's buffer contents at its segment boundaries are the reference's stages. By induction along
  the program: the first region's output is the projection stage; each graph-convolution region enters with the
  aggregated messages, the destination-norm column, the layer's weight and bias and the previous stage — all at the
  reference's values, the host operations before it having been read against the reference's — and leaves the next
  stage; the last stretch pools the node rows and the last region is the pooling head. The dense stages on either
  side are one function of their inputs (the stage lemmas), so every boundary agrees and the result array is the
  reference's result as a function of the launch contents of the argument arrays.
-/
import proofs.«147925_j10436770529875_1_alg».proof.Proof.Keep
import proofs.«147925_j10436770529875_1_alg».proof.Proof.HostRead
import proofs.«147925_j10436770529875_1_alg».proof.Proof.Norms
import proofs.«147925_j10436770529875_1_alg».proof.Proof.ProjKernel
import proofs.«147925_j10436770529875_1_alg».proof.Proof.ProjRef
import proofs.«147925_j10436770529875_1_alg».proof.Proof.GcnKernel1
import proofs.«147925_j10436770529875_1_alg».proof.Proof.GcnKernel2
import proofs.«147925_j10436770529875_1_alg».proof.Proof.GcnKernel3
import proofs.«147925_j10436770529875_1_alg».proof.Proof.GcnKernel4
import proofs.«147925_j10436770529875_1_alg».proof.Proof.GcnKernel5
import proofs.«147925_j10436770529875_1_alg».proof.Proof.GcnRef
import proofs.«147925_j10436770529875_1_alg».proof.Proof.MlpKernel
import proofs.«147925_j10436770529875_1_alg».proof.Proof.MlpRef

set_option maxRecDepth 16384

noncomputable section

namespace Cert.KernelIdeal.Bound

open Cert.KernelIdeal Cert.KernelIdeal.Gen Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-- Equal inputs give equal graph-convolution stages (used so that no goal holding a boundary's contents is ever
    searched for a pattern). -/
theorem gcn_eq (inner : Bool) {a a' : Cert.Spec.Mat 50000 128} {n n' : Cert.Spec.Mat 50000 1} {w w' : Cert.Spec.Mat 128 128}
    {b b' : Cert.Spec.Row 128} {h h' : Cert.Spec.Mat 50000 128}
    (ha : a = a') (hn : n = n') (hw : w = w') (hb : b = b') (hh : h = h') :
    Cert.Spec.gcn inner a n w b h = Cert.Spec.gcn inner a' n' w' b' h' := by
  subst ha hn hw hb hh; rfl

/-! ## The launch contents of the argument arrays on core `c` -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)
abbrev A13 := m ((c : Thread nD τ).loc main_arg13)

/-! ## The argument arrays and the norm columns at the boundaries -/

theorem args5 (b : Ref sig .tc) (hb : b ∈ Keep.args) : W5 m ρ c (Proc.devRef .tc b) = W0 m ρ c (Proc.devRef .tc b) :=
  Keep.at5_args m ρ c b hb
theorem args6 (b : Ref sig .tc) (hb : b ∈ Keep.args) : W6 m ρ c (Proc.devRef .tc b) = W0 m ρ c (Proc.devRef .tc b) :=
  (Keep.at6 m ρ c b (Keep.args_subset_kept hb)).trans (Keep.at5_args m ρ c b hb)
theorem args8 (b : Ref sig .tc) (hb : b ∈ Keep.args) : W8 m ρ c (Proc.devRef .tc b) = W0 m ρ c (Proc.devRef .tc b) :=
  (Keep.at8 m ρ c b (Keep.args_subset_kept hb)).trans (Keep.at5_args m ρ c b hb)
theorem args10 (b : Ref sig .tc) (hb : b ∈ Keep.args) : W10 m ρ c (Proc.devRef .tc b) = W0 m ρ c (Proc.devRef .tc b) :=
  (Keep.at10 m ρ c b (Keep.args_subset_kept hb)).trans (Keep.at5_args m ρ c b hb)
theorem args12 (b : Ref sig .tc) (hb : b ∈ Keep.args) : W12 m ρ c (Proc.devRef .tc b) = W0 m ρ c (Proc.devRef .tc b) :=
  (Keep.at12 m ρ c b (Keep.args_subset_kept hb)).trans (Keep.at5_args m ρ c b hb)
theorem args14 (b : Ref sig .tc) (hb : b ∈ Keep.args) : W14 m ρ c (Proc.devRef .tc b) = W0 m ρ c (Proc.devRef .tc b) :=
  (Keep.at14 m ρ c b (Keep.args_subset_kept hb)).trans (Keep.at5_args m ρ c b hb)
theorem args16 (b : Ref sig .tc) (hb : b ∈ Keep.args) : W16 m ρ c (Proc.devRef .tc b) = W0 m ρ c (Proc.devRef .tc b) :=
  (Keep.at16 m ρ c b (Keep.args_subset_kept hb)).trans (Keep.at5_args m ρ c b hb)
theorem args17 (b : Ref sig .tc) (hb : b ∈ Keep.args) : W17 m ρ c (Proc.devRef .tc b) = W0 m ρ c (Proc.devRef .tc b) :=
  (Keep.at17 m ρ c b (Keep.args_subset_kept hb)).trans (Keep.at5_args m ρ c b hb)

/-- The source-norm column when the first region is entered. -/
theorem ns5 : W5 m ρ c (Proc.devRef .tc main_v11) = val_main_v17 (F := Ideal) (A1 m c) :=
  Norms.srcNorm m ρ c
/-- The destination-norm column when the first region is entered. -/
theorem nd5 : W5 m ρ c (Proc.devRef .tc main_v14) = val_main_v30 (F := Ideal) (A2 m c) :=
  Norms.dstNorm m ρ c

/-! ## The projection -/

theorem e0 : W6 m ρ c (Proc.devRef .tc main_v15) = val_main_v16 (F := Ideal) (A0 m c) (A4 m c) (A5 m c) := by
  have h0 : V5 m ρ c (Pipeline.arrRef spec0 0) = A0 m c := args5 m ρ c main_arg0 (by decide)
  have h4 : V5 m ρ c (Pipeline.arrRef spec0 1) = A4 m c := args5 m ρ c main_arg4 (by decide)
  have h5 : V5 m ρ c (Pipeline.arrRef spec0 2) = A5 m c := args5 m ρ c main_arg5 (by decide)
  refine (W6_arr m ρ c 3).trans ((Cert.KernelIdeal.Stage0.arr (V5 m ρ) c).trans ?_)
  rw [h0, h4, h5]
  exact (Cert.ReferenceIdeal.Stage.h0 _ _ _).symm

/-! ## Graph-convolution stage 1 -/

theorem e1 : W8 m ρ c (Proc.devRef .tc main_v32) = val_main_v43 (F := Ideal) (A0 m c) (A1 m c) (A2 m c) (A4 m c) (A5 m c) (A6 m c) (A7 m c) := by
  have hagg : V7 m ρ c (Pipeline.arrRef spec1 0) = val_main_v29 (F := Ideal) (A0 m c) (A1 m c) (A2 m c) (A4 m c) (A5 m c) :=
    HostRead.agg1 (W6 m ρ c) (A0 m c) (A1 m c) (A2 m c) (A4 m c) (A5 m c) (e0 m ρ c)
      ((Keep.at6 m ρ c main_v11 (by decide)).trans (ns5 m ρ c))
      (args6 m ρ c main_arg1 (by decide)) (args6 m ρ c main_arg2 (by decide))
  have hnd : V7 m ρ c (Pipeline.arrRef spec1 1) = val_main_v30 (F := Ideal) (A2 m c) :=
    (Keep.at7 m ρ c main_v14 (by decide)).trans (nd5 m ρ c)
  have hw : V7 m ρ c (Pipeline.arrRef spec1 2) = val_main_v34 (F := Ideal) (A6 m c) :=
    HostRead.weight1 (W6 m ρ c) (A6 m c) (args6 m ρ c main_arg6 (by decide))
  have hb : V7 m ρ c (Pipeline.arrRef spec1 3) = val_main_v37 (F := Ideal) (A7 m c) :=
    HostRead.bias1 (W6 m ρ c) (A7 m c) (args6 m ρ c main_arg7 (by decide))
  have hh : V7 m ρ c (Pipeline.arrRef spec1 4) = val_main_v16 (F := Ideal) (A0 m c) (A4 m c) (A5 m c) :=
    (Keep.hostOps1_prev (W6 m ρ c)).trans (e0 m ρ c)
  exact (W8_arr m ρ c 5).trans ((Cert.KernelIdeal.StageG.arr1 (V7 m ρ) c).trans
    ((gcn_eq true hagg hnd hw hb hh).trans (Cert.ReferenceIdeal.StageG.h1 _ _ _ _ _ _ _).symm))

/-! ## Graph-convolution stage 2 -/

theorem e2 : W10 m ρ c (Proc.devRef .tc main_v49) = val_main_v70 (F := Ideal) (A0 m c) (A1 m c) (A2 m c) (A4 m c) (A5 m c) (A6 m c) (A7 m c) := by
  have hagg : V9 m ρ c (Pipeline.arrRef spec2 0) = val_main_v56 (F := Ideal) (A0 m c) (A1 m c) (A2 m c) (A4 m c) (A5 m c) (A6 m c) (A7 m c) :=
    HostRead.agg2 (W8 m ρ c) (A0 m c) (A1 m c) (A2 m c) (A4 m c) (A5 m c) (A6 m c) (A7 m c) (e1 m ρ c)
      ((Keep.at8 m ρ c main_v11 (by decide)).trans (ns5 m ρ c))
      (args8 m ρ c main_arg1 (by decide)) (args8 m ρ c main_arg2 (by decide))
  have hnd : V9 m ρ c (Pipeline.arrRef spec2 1) = val_main_v57 (F := Ideal) (A2 m c) :=
    (Keep.at9 m ρ c main_v14 (by decide)).trans (nd5 m ρ c)
  have hw : V9 m ρ c (Pipeline.arrRef spec2 2) = val_main_v61 (F := Ideal) (A6 m c) :=
    HostRead.weight2 (W8 m ρ c) (A6 m c) (args8 m ρ c main_arg6 (by decide))
  have hb : V9 m ρ c (Pipeline.arrRef spec2 3) = val_main_v64 (F := Ideal) (A7 m c) :=
    HostRead.bias2 (W8 m ρ c) (A7 m c) (args8 m ρ c main_arg7 (by decide))
  have hh : V9 m ρ c (Pipeline.arrRef spec2 4) = val_main_v43 (F := Ideal) (A0 m c) (A1 m c) (A2 m c) (A4 m c) (A5 m c) (A6 m c) (A7 m c) :=
    (Keep.hostOps2_prev (W8 m ρ c)).trans (e1 m ρ c)
  exact (W10_arr m ρ c 5).trans ((Cert.KernelIdeal.StageG2.arr2 (V9 m ρ) c).trans
    ((gcn_eq true hagg hnd hw hb hh).trans (Cert.ReferenceIdeal.StageG.h2 _ _ _ _ _ _ _).symm))

/-! ## Graph-convolution stage 3 -/

theorem e3 : W12 m ρ c (Proc.devRef .tc main_v66) = val_main_v97 (F := Ideal) (A0 m c) (A1 m c) (A2 m c) (A4 m c) (A5 m c) (A6 m c) (A7 m c) := by
  have hagg : V11 m ρ c (Pipeline.arrRef spec3 0) = val_main_v83 (F := Ideal) (A0 m c) (A1 m c) (A2 m c) (A4 m c) (A5 m c) (A6 m c) (A7 m c) :=
    HostRead.agg3 (W10 m ρ c) (A0 m c) (A1 m c) (A2 m c) (A4 m c) (A5 m c) (A6 m c) (A7 m c) (e2 m ρ c)
      ((Keep.at10 m ρ c main_v11 (by decide)).trans (ns5 m ρ c))
      (args10 m ρ c main_arg1 (by decide)) (args10 m ρ c main_arg2 (by decide))
  have hnd : V11 m ρ c (Pipeline.arrRef spec3 1) = val_main_v84 (F := Ideal) (A2 m c) :=
    (Keep.at11 m ρ c main_v14 (by decide)).trans (nd5 m ρ c)
  have hw : V11 m ρ c (Pipeline.arrRef spec3 2) = val_main_v88 (F := Ideal) (A6 m c) :=
    HostRead.weight3 (W10 m ρ c) (A6 m c) (args10 m ρ c main_arg6 (by decide))
  have hb : V11 m ρ c (Pipeline.arrRef spec3 3) = val_main_v91 (F := Ideal) (A7 m c) :=
    HostRead.bias3 (W10 m ρ c) (A7 m c) (args10 m ρ c main_arg7 (by decide))
  have hh : V11 m ρ c (Pipeline.arrRef spec3 4) = val_main_v70 (F := Ideal) (A0 m c) (A1 m c) (A2 m c) (A4 m c) (A5 m c) (A6 m c) (A7 m c) :=
    (Keep.hostOps3_prev (W10 m ρ c)).trans (e2 m ρ c)
  exact (W12_arr m ρ c 5).trans ((Cert.KernelIdeal.StageG3.arr3 (V11 m ρ) c).trans
    ((gcn_eq true hagg hnd hw hb hh).trans (Cert.ReferenceIdeal.StageG.h3 _ _ _ _ _ _ _).symm))

/-! ## Graph-convolution stage 4 -/

theorem e4 : W14 m ρ c (Proc.devRef .tc main_v83) = val_main_v124 (F := Ideal) (A0 m c) (A1 m c) (A2 m c) (A4 m c) (A5 m c) (A6 m c) (A7 m c) := by
  have hagg : V13 m ρ c (Pipeline.arrRef spec4 0) = val_main_v110 (F := Ideal) (A0 m c) (A1 m c) (A2 m c) (A4 m c) (A5 m c) (A6 m c) (A7 m c) :=
    HostRead.agg4 (W12 m ρ c) (A0 m c) (A1 m c) (A2 m c) (A4 m c) (A5 m c) (A6 m c) (A7 m c) (e3 m ρ c)
      ((Keep.at12 m ρ c main_v11 (by decide)).trans (ns5 m ρ c))
      (args12 m ρ c main_arg1 (by decide)) (args12 m ρ c main_arg2 (by decide))
  have hnd : V13 m ρ c (Pipeline.arrRef spec4 1) = val_main_v111 (F := Ideal) (A2 m c) :=
    (Keep.at13 m ρ c main_v14 (by decide)).trans (nd5 m ρ c)
  have hw : V13 m ρ c (Pipeline.arrRef spec4 2) = val_main_v115 (F := Ideal) (A6 m c) :=
    HostRead.weight4 (W12 m ρ c) (A6 m c) (args12 m ρ c main_arg6 (by decide))
  have hb : V13 m ρ c (Pipeline.arrRef spec4 3) = val_main_v118 (F := Ideal) (A7 m c) :=
    HostRead.bias4 (W12 m ρ c) (A7 m c) (args12 m ρ c main_arg7 (by decide))
  have hh : V13 m ρ c (Pipeline.arrRef spec4 4) = val_main_v97 (F := Ideal) (A0 m c) (A1 m c) (A2 m c) (A4 m c) (A5 m c) (A6 m c) (A7 m c) :=
    (Keep.hostOps4_prev (W12 m ρ c)).trans (e3 m ρ c)
  exact (W14_arr m ρ c 5).trans ((Cert.KernelIdeal.StageG4.arr4 (V13 m ρ) c).trans
    ((gcn_eq true hagg hnd hw hb hh).trans (Cert.ReferenceIdeal.StageG.h4 _ _ _ _ _ _ _).symm))

/-! ## Graph-convolution stage 5 -/

theorem e5 : W16 m ρ c (Proc.devRef .tc main_v100) = val_main_v150 (F := Ideal) (A0 m c) (A1 m c) (A2 m c) (A4 m c) (A5 m c) (A6 m c) (A7 m c) := by
  have hagg : V15 m ρ c (Pipeline.arrRef spec5 0) = val_main_v137 (F := Ideal) (A0 m c) (A1 m c) (A2 m c) (A4 m c) (A5 m c) (A6 m c) (A7 m c) :=
    HostRead.agg5 (W14 m ρ c) (A0 m c) (A1 m c) (A2 m c) (A4 m c) (A5 m c) (A6 m c) (A7 m c) (e4 m ρ c)
      ((Keep.at14 m ρ c main_v11 (by decide)).trans (ns5 m ρ c))
      (args14 m ρ c main_arg1 (by decide)) (args14 m ρ c main_arg2 (by decide))
  have hnd : V15 m ρ c (Pipeline.arrRef spec5 1) = val_main_v138 (F := Ideal) (A2 m c) :=
    (Keep.at15 m ρ c main_v14 (by decide)).trans (nd5 m ρ c)
  have hw : V15 m ρ c (Pipeline.arrRef spec5 2) = val_main_v142 (F := Ideal) (A6 m c) :=
    HostRead.weight5 (W14 m ρ c) (A6 m c) (args14 m ρ c main_arg6 (by decide))
  have hb : V15 m ρ c (Pipeline.arrRef spec5 3) = val_main_v145 (F := Ideal) (A7 m c) :=
    HostRead.bias5 (W14 m ρ c) (A7 m c) (args14 m ρ c main_arg7 (by decide))
  have hh : V15 m ρ c (Pipeline.arrRef spec5 4) = val_main_v124 (F := Ideal) (A0 m c) (A1 m c) (A2 m c) (A4 m c) (A5 m c) (A6 m c) (A7 m c) :=
    (Keep.hostOps5_prev (W14 m ρ c)).trans (e4 m ρ c)
  exact (W16_arr m ρ c 5).trans ((Cert.KernelIdeal.StageG5.arr5 (V15 m ρ) c).trans
    ((gcn_eq false hagg hnd hw hb hh).trans (Cert.ReferenceIdeal.StageG.h5 _ _ _ _ _ _ _).symm))

/-! ## The pooling head -/

/-- The result array at the last boundary is the reference's result of the launch contents. -/
theorem e6 : W18 m ρ c (Proc.devRef .tc main_v104) = val_main_v167 (F := Ideal) (A0 m c) (A1 m c) (A2 m c) (A3 m c) (A4 m c) (A5 m c) (A6 m c) (A7 m c) (A8 m c) (A9 m c) (A10 m c) (A11 m c) (A12 m c) (A13 m c) := by
  have hp : V17 m ρ c (Pipeline.arrRef spec6 0) = val_main_v153 (F := Ideal) (A0 m c) (A1 m c) (A2 m c) (A3 m c) (A4 m c) (A5 m c) (A6 m c) (A7 m c) :=
    HostRead.pooled (W16 m ρ c) (A0 m c) (A1 m c) (A2 m c) (A3 m c) (A4 m c) (A5 m c) (A6 m c) (A7 m c) (e5 m ρ c) (args16 m ρ c main_arg3 (by decide))
  have h8 : V17 m ρ c (Pipeline.arrRef spec6 1) = A8 m c := args17 m ρ c main_arg8 (by decide)
  have h9 : V17 m ρ c (Pipeline.arrRef spec6 2) = A9 m c := args17 m ρ c main_arg9 (by decide)
  have h10 : V17 m ρ c (Pipeline.arrRef spec6 3) = A10 m c := args17 m ρ c main_arg10 (by decide)
  have h11 : V17 m ρ c (Pipeline.arrRef spec6 4) = A11 m c := args17 m ρ c main_arg11 (by decide)
  have h12 : V17 m ρ c (Pipeline.arrRef spec6 5) = A12 m c := args17 m ρ c main_arg12 (by decide)
  have h13 : V17 m ρ c (Pipeline.arrRef spec6 6) = A13 m c := args17 m ρ c main_arg13 (by decide)
  refine (W18_arr m ρ c 7).trans ((Cert.KernelIdeal.Stage6.arr (V17 m ρ) c).trans ?_)
  rw [hp, h8, h9, h10, h11, h12, h13]
  exact (Cert.ReferenceIdeal.Stage.head _ _ _ _ _ _ _ _ _ _ _ _ _ _).symm

end Cert.KernelIdeal.Bound

end
-- ==== Proof.lean ====
/-
  The certificate of the graph-convolution network: a projection, five graph-convolution layers (scale by the
  source norm, gather along the edges, sum into the destinations, then the fused dense stage with the destination
  norm, the layer's weight and bias, a clamp at zero, the residual and a second clamp), sum pooling per graph, and a
  three-layer head. The kernel program computes the seven dense stages in regions of 2000-row blocks between the
  host gather and scatter operations; the reference computes them as whole matrix products on the host.
  At the ideal values both programs apply the same host operations to the same arrays, and each dense stage is,
  entry by entry, the same sum of products, bias, clamps and residual on either side: the kernel's narrowing of the
  matrix operands to a shorter float format is the identity there, a block of rows of a product is the rows of the
  product, and the norm vector cast to a column is the norm vector broadcast to a column. No finiteness of the
  inputs is used: no law beyond reading both sides at an index is needed. The idealization rewrote nothing, so
  its conjunct is trivial; the frames are the generated ones (the reference's is its run with the result dropped).
-/
import proofs.«147925_j10436770529875_1_alg».proof.Defs
import proofs.«147925_j10436770529875_1_alg».proof.Proof.Gen.Kernel
import proofs.«147925_j10436770529875_1_alg».proof.Proof.Gen.Kernel.Frame
import proofs.«147925_j10436770529875_1_alg».proof.Proof.Gen.KernelIdeal
import proofs.«147925_j10436770529875_1_alg».proof.Proof.Gen.KernelIdeal.Frame
import proofs.«147925_j10436770529875_1_alg».proof.Proof.Gen.ReferenceIdeal
import proofs.«147925_j10436770529875_1_alg».proof.Proof.Gen.ReferenceIdeal.Run
import proofs.«147925_j10436770529875_1_alg».proof.Proof.Gen.ReferenceIdeal.Read
import proofs.«147925_j10436770529875_1_alg».proof.Proof.Gen.Pre_finite_inputs
import proofs.«147925_j10436770529875_1_alg».proof.Proof.KRun
import proofs.«147925_j10436770529875_1_alg».proof.Proof.Bound
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's result of the kernel side's launch contents: the kernel
    program's by the boundary chain, the reference's by its run and the agreement of the two memories on the
    argument arrays. -/
theorem algebraic : Cert.algebraic_KernelIdeal_ReferenceIdeal := by
  intro m ρ m' ρ' _ hagree
  refine ⟨fun c => Cert.ReferenceIdeal.Read.val_main_v167 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Bound.e6 m ρ c), (h c).2⟩) (Cert.KernelIdeal.ValueRun.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v167_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
